-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v290) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x32x256x256 : Shape := ⟨4, ![16, 32, 256, 256]⟩
abbrev S_ : Shape := ⟨0, ![]⟩

class Facts : Prop where
  bcast_S_S16x32x256x256 : S_.BroadcastsInDim S16x32x256x256 (![] : Fin 0 → Fin S16x32x256x256.rank)
  reducesTo_S16x32x256x256_S_d0_1_2_3 : S16x32x256x256.ReducesTo [0, 1, 2, 3] S_
  h_S_ : 0 < S_.numel

variable [Facts]

def fn {F : FTy → Type} [FloatOps F] (main_arg0 : FVec F S16x32x256x256 .f32) (main_arg1 : FVec F S16x32x256x256 .f32) : IVec S_ 1 :=
  let main_v0 : FVec F S16x32x256x256 .f32 := Host.absf main_arg0
  let main_cst : FVec F S_ .f32 := constant S_ .f32 0x7F800000#32
  let main_v1 : FVec F S16x32x256x256 .f32 := broadcastInDim S16x32x256x256 ![] bcast_S_S16x32x256x256 main_cst
  let main_v2 : IVec S16x32x256x256 1 := cmpf .olt main_v0 main_v1
  let main_c : IVec S_ 1 := constantI S_ 1 1#1
  let main_v3 : IVec S_ 1 := (fun x v => Host.reduce IntOp.andi x v reducesTo_S16x32x256x256_S_d0_1_2_3 h_S_) main_v2 main_c
  let main_v4 : FVec F S16x32x256x256 .f32 := Host.absf main_arg1
  let main_cst_0 : FVec F S_ .f32 := constant S_ .f32 0x7F800000#32
  let main_v5 : FVec F S16x32x256x256 .f32 := broadcastInDim S16x32x256x256 ![] bcast_S_S16x32x256x256 main_cst_0
  let main_v6 : IVec S16x32x256x256 1 := cmpf .olt main_v4 main_v5
  let main_c_1 : IVec S_ 1 := constantI S_ 1 1#1
  let main_v7 : IVec S_ 1 := (fun x v => Host.reduce IntOp.andi x v reducesTo_S16x32x256x256_S_d0_1_2_3 h_S_) main_v6 main_c_1
  let main_v8 : IVec S_ 1 := andi main_v3 main_v7
  main_v8
-- ==== Kernel.lean ====
abbrev S16x32x256x256 : Shape := ⟨4, ![16, 32, 256, 256]⟩
abbrev S16x8x128 : Shape := ⟨3, ![16, 8, 128]⟩
abbrev S1x32x256x256 : Shape := ⟨4, ![1, 32, 256, 256]⟩
abbrev S1x8x128 : Shape := ⟨3, ![1, 8, 128]⟩
abbrev S1x1x256x256 : Shape := ⟨4, ![1, 1, 256, 256]⟩
abbrev S256x256 : Shape := ⟨2, ![256, 256]⟩
abbrev S254x256 : Shape := ⟨2, ![254, 256]⟩
abbrev S1x256 : Shape := ⟨2, ![1, 256]⟩
abbrev S256x254 : Shape := ⟨2, ![256, 254]⟩
abbrev S256x1 : Shape := ⟨2, ![256, 1]⟩
abbrev S256 : Shape := ⟨1, ![256]⟩
abbrev S1 : Shape := ⟨1, ![1]⟩
abbrev S1x1 : Shape := ⟨2, ![1, 1]⟩
abbrev S8x128 : Shape := ⟨2, ![8, 128]⟩
abbrev S16x1x1 : Shape := ⟨3, ![16, 1, 1]⟩
abbrev S16 : Shape := ⟨1, ![16]⟩
abbrev S_ : Shape := ⟨0, ![]⟩

abbrev nBuf : Space → Nat
  | .hbm => 13
  | .vmem => 8
  | .smem => 0
  | _ => 0

abbrev bufTy : (tb : Table) → Fin (tcTables nBuf tb) → BufTy
  | .hbm, ⟨0, _⟩ => ⟨S16x32x256x256, .f32⟩
  | .hbm, ⟨1, _⟩ => ⟨S16x32x256x256, .f32⟩
  | .hbm, ⟨2, _⟩ => ⟨S16x8x128, .f32⟩
  | .hbm, ⟨3, _⟩ => ⟨S16x8x128, .f32⟩
  | .hbm, ⟨4, _⟩ => ⟨S16x1x1, .f32⟩
  | .hbm, ⟨5, _⟩ => ⟨S16, .f32⟩
  | .hbm, ⟨6, _⟩ => ⟨S16x1x1, .f32⟩
  | .hbm, ⟨7, _⟩ => ⟨S16, .f32⟩
  | .hbm, ⟨8, _⟩ => ⟨S16, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .local _ .vmem, ⟨0, _⟩ => ⟨S1x32x256x256, .f32⟩
  | .local _ .vmem, ⟨1, _⟩ => ⟨S1x32x256x256, .f32⟩
  | .local _ .vmem, ⟨2, _⟩ => ⟨S1x32x256x256, .f32⟩
  | .local _ .vmem, ⟨3, _⟩ => ⟨S1x32x256x256, .f32⟩
  | .local _ .vmem, ⟨4, _⟩ => ⟨S1x8x128, .f32⟩
  | .local _ .vmem, ⟨5, _⟩ => ⟨S1x8x128, .f32⟩
  | .local _ .vmem, ⟨6, _⟩ => ⟨S1x8x128, .f32⟩
  | .local _ .vmem, ⟨7, _⟩ => ⟨S1x8x128, .f32⟩
  | _, _ => ⟨S16x32x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![16], ![false]⟩

@[reducible] def k0_t1_loop : Scf.Loop 32 :=
  let c1_i32 : BitVec 32 := 1#32
  let c30_i32 : BitVec 32 := 30#32
  let v262 : BitVec 32 := Scalar.addi c1_i32 c30_i32
  let c1_i32_77 : BitVec 32 := 1#32
  ⟨c1_i32, v262, c1_i32_77⟩
def k0_off1 (k0_t1 : Fin k0_t1_loop.trips) : Fin 4 → Nat :=
  let c0_167 : Index := 0#32
  let c1_i32 : BitVec 32 := 1#32
  let c1_i32_77 : BitVec 32 := 1#32
  let arg5 : BitVec 32 := Scf.iv c1_i32 c1_i32_77 k0_t1
  let v546 : Index := Scalar.indexCast arg5
  let c0_168 : Index := 0#32
  let c0_169 : Index := 0#32
  ![0, v546.toNat, 0, 0]
def k0_off2 (k0_t1 : Fin k0_t1_loop.trips) : Fin 4 → Nat :=
  let c0_231 : Index := 0#32
  let c1_i32 : BitVec 32 := 1#32
  let c1_i32_77 : BitVec 32 := 1#32
  let arg5 : BitVec 32 := Scf.iv c1_i32 c1_i32_77 k0_t1
  let c1_i32_230 : BitVec 32 := 1#32
  let v791 : BitVec 32 := Scalar.addi arg5 c1_i32_230
  let v792 : Index := Scalar.indexCast v791
  let c0_232 : Index := 0#32
  let c0_233 : Index := 0#32
  ![0, v792.toNat, 0, 0]
def k0_off3 (k0_t1 : Fin k0_t1_loop.trips) : Fin 4 → Nat :=
  let c0_235 : Index := 0#32
  let c1_i32 : BitVec 32 := 1#32
  let c1_i32_77 : BitVec 32 := 1#32
  let arg5 : BitVec 32 := Scf.iv c1_i32 c1_i32_77 k0_t1
  let c1_i32_234 : BitVec 32 := 1#32
  let v795 : BitVec 32 := Scalar.subi arg5 c1_i32_234
  let v796 : Index := Scalar.indexCast v795
  let c0_236 : Index := 0#32
  let c0_237 : Index := 0#32
  ![0, v796.toNat, 0, 0]
def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x32x256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x32x256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  inb_S1x32x256x256_S1x1x256x256_0_0_0_0 : ∀ a, (![0, 0, 0, 0] : Fin 4 → Nat) a + S1x1x256x256.size a ≤ S1x32x256x256.size a
  h_S1x1x256x256 : 0 < S1x1x256x256.numel
  shapeCasts_S1x1x256x256_S256x256 : S1x1x256x256.ShapeCasts S256x256
  slices_S256x256_o2_0_S254x256 : S256x256.Slices ![2, 0] S254x256
  slices_S256x256_o0_0_S254x256 : S256x256.Slices ![0, 0] S254x256
  slices_S256x256_o0_0_S1x256 : S256x256.Slices ![0, 0] S1x256
  slices_S256x256_o1_0_S1x256 : S256x256.Slices ![1, 0] S1x256
  slices_S256x256_o2_0_S1x256 : S256x256.Slices ![2, 0] S1x256
  slices_S256x256_o255_0_S1x256 : S256x256.Slices ![255, 0] S1x256
  slices_S256x256_o254_0_S1x256 : S256x256.Slices ![254, 0] S1x256
  slices_S256x256_o253_0_S1x256 : S256x256.Slices ![253, 0] S1x256
  concatenates_S1x256_S254x256_S1x256_S256x256_d0 : Shape.Concatenates [S1x256, S254x256, S1x256] S256x256 0
  slices_S256x256_o0_2_S256x254 : S256x256.Slices ![0, 2] S256x254
  slices_S256x256_o0_0_S256x254 : S256x256.Slices ![0, 0] S256x254
  slices_S256x256_o0_0_S256x1 : S256x256.Slices ![0, 0] S256x1
  slices_S256x256_o0_1_S256x1 : S256x256.Slices ![0, 1] S256x1
  slices_S256x256_o0_2_S256x1 : S256x256.Slices ![0, 2] S256x1
  slices_S256x256_o0_255_S256x1 : S256x256.Slices ![0, 255] S256x1
  slices_S256x256_o0_254_S256x1 : S256x256.Slices ![0, 254] S256x1
  slices_S256x256_o0_253_S256x1 : S256x256.Slices ![0, 253] S256x1
  concatenates_S256x1_S256x254_S256x1_S256x256_d1 : Shape.Concatenates [S256x1, S256x254, S256x1] S256x256 1
  natLt_1_32 : 1 < 32
  inb_S1x32x256x256_S1x1x256x256_0_1_0_0 : ∀ a, (![0, 1, 0, 0] : Fin 4 → Nat) a + S1x1x256x256.size a ≤ S1x32x256x256.size a
  inb_S1x32x256x256_S1x1x256x256_0_2_0_0 : ∀ a, (![0, 2, 0, 0] : Fin 4 → Nat) a + S1x1x256x256.size a ≤ S1x32x256x256.size a
  inb_S1x32x256x256_S1x1x256x256_0_31_0_0 : ∀ a, (![0, 31, 0, 0] : Fin 4 → Nat) a + S1x1x256x256.size a ≤ S1x32x256x256.size a
  inb_S1x32x256x256_S1x1x256x256_0_30_0_0 : ∀ a, (![0, 30, 0, 0] : Fin 4 → Nat) a + S1x1x256x256.size a ≤ S1x32x256x256.size a
  inb_S1x32x256x256_S1x1x256x256_0_29_0_0 : ∀ a, (![0, 29, 0, 0] : Fin 4 → Nat) a + S1x1x256x256.size a ≤ S1x32x256x256.size a
  reduces_S256x256_S256 : S256x256.Reduces [1] S256
  shapeCasts_S256_S256x1 : S256.ShapeCasts S256x1
  reduces_S256x1_S1 : S256x1.Reduces [0] S1
  shapeCasts_S1_S1x1 : S1.ShapeCasts S1x1
  shapeCasts_S1x1_S1x1 : S1x1.ShapeCasts S1x1
  broadcasts_S1x1_S8x128 : S1x1.Broadcasts S8x128
  inb_S1x8x128_S1x8x128_0_0_0 : ∀ a, (![0, 0, 0] : Fin 3 → Nat) a + S1x8x128.size a ≤ S1x8x128.size a
  h_S1x8x128 : 0 < S1x8x128.numel
  shapeCasts_S1x8x128_S8x128 : S1x8x128.ShapeCasts S8x128
  shapeCasts_S8x128_S1x8x128 : S8x128.ShapeCasts S1x8x128
  slices_S16x8x128_S16x1x1_0_0_0 : S16x8x128.Slices ![0, 0, 0] S16x1x1
  shapeCasts_S16x1x1_S16 : S16x1x1.ShapeCasts S16
  reducesTo_S16_S_d0 : S16.ReducesTo [0] S_
  h_S_ : 0 < S_.numel
  hrank0 : 0 < grid0.rank
  k0_t1_ok : k0_t1_loop.OK
  k0_off1_inb : ∀ k0_t1 : Fin k0_t1_loop.trips, ∀ a, (k0_off1 k0_t1) a + S1x1x256x256.size a ≤ S1x32x256x256.size a
  k0_off2_inb : ∀ k0_t1 : Fin k0_t1_loop.trips, ∀ a, (k0_off2 k0_t1) a + S1x1x256x256.size a ≤ S1x32x256x256.size a
  k0_off3_inb : ∀ k0_t1 : Fin k0_t1_loop.trips, ∀ a, (k0_off3 k0_t1) a + S1x1x256x256.size a ≤ S1x32x256x256.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x32x256x256.size a ≤ S16x32x256x256.size a
  hwx0_0 : ∀ i : grid0.Coords, EltTy.bits .f32 = 32 ∨ (Rect.block (s := S16x32x256x256) S1x32x256x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x32x256x256.size a ≤ S16x32x256x256.size a
  hwx0_1 : ∀ i : grid0.Coords, EltTy.bits .f32 = 32 ∨ (Rect.block (s := S16x32x256x256) S1x32x256x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x8x128.size a ≤ S16x8x128.size a
  hwx0_2 : ∀ i : grid0.Coords, EltTy.bits .f32 = 32 ∨ (Rect.block (s := S16x8x128) S1x8x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x8x128.size a ≤ S16x8x128.size a
  hwx0_3 : ∀ i : grid0.Coords, EltTy.bits .f32 = 32 ∨ (Rect.block (s := S16x8x128) S1x8x128.size (cc0_transform_3 i) (hinb0_3 i)).WholeWords (EltTy.packing .f32)

variable [Facts₀]

abbrev win0_0 : Pipeline.Window sig grid0 :=
  Pipeline.Window.ofSpec (Memref.whole main_arg0) S1x32x256x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x32x256x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S1x8x128.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S1x8x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16x32x256x256 : Shape := ⟨4, ![16, 32, 256, 256]⟩
abbrev S16x32x256x254 : Shape := ⟨4, ![16, 32, 256, 254]⟩
abbrev S_ : Shape := ⟨0, ![]⟩
abbrev S16x32x256x1 : Shape := ⟨4, ![16, 32, 256, 1]⟩
abbrev S16x256x256x32 : Shape := ⟨4, ![16, 256, 256, 32]⟩
abbrev S16x256x256x30 : Shape := ⟨4, ![16, 256, 256, 30]⟩
abbrev S16x256x256x1 : Shape := ⟨4, ![16, 256, 256, 1]⟩
abbrev S1 : Shape := ⟨1, ![1]⟩
abbrev S2 : Shape := ⟨1, ![2]⟩
abbrev S16x32 : Shape := ⟨2, ![16, 32]⟩
abbrev S16 : Shape := ⟨1, ![16]⟩

abbrev nBuf : Space → Nat
  | .hbm => 365
  | .vmem => 0
  | .smem => 0
  | _ => 0

abbrev hbmTy0_0 (i : Nat) : BufTy := match i % 128 with
  | 0 => ⟨S16x32x256x256, .f32⟩
  | 1 => ⟨S16x32x256x256, .f32⟩
  | 2 => ⟨S16x32x256x256, .f32⟩
  | 3 => ⟨S16x32x256x254, .f32⟩
  | 4 => ⟨S16x32x256x254, .f32⟩
  | 5 => ⟨S16x32x256x254, .f32⟩
  | 6 => ⟨S_, .f32⟩
  | 7 => ⟨S16x32x256x254, .f32⟩
  | 8 => ⟨S16x32x256x254, .f32⟩
  | 9 => ⟨S16x32x256x1, .f32⟩
  | 10 => ⟨S_, .f32⟩
  | 11 => ⟨S16x32x256x1, .f32⟩
  | 12 => ⟨S16x32x256x1, .f32⟩
  | 13 => ⟨S16x32x256x1, .f32⟩
  | 14 => ⟨S_, .f32⟩
  | 15 => ⟨S16x32x256x1, .f32⟩
  | 16 => ⟨S16x32x256x1, .f32⟩
  | 17 => ⟨S16x32x256x1, .f32⟩
  | 18 => ⟨S16x32x256x1, .f32⟩
  | 19 => ⟨S16x32x256x1, .f32⟩
  | 20 => ⟨S_, .f32⟩
  | 21 => ⟨S16x32x256x1, .f32⟩
  | 22 => ⟨S16x32x256x1, .f32⟩
  | 23 => ⟨S16x32x256x1, .f32⟩
  | 24 => ⟨S_, .f32⟩
  | 25 => ⟨S16x32x256x1, .f32⟩
  | 26 => ⟨S16x32x256x1, .f32⟩
  | 27 => ⟨S16x32x256x1, .f32⟩
  | 28 => ⟨S_, .f32⟩
  | 29 => ⟨S16x32x256x1, .f32⟩
  | 30 => ⟨S16x32x256x1, .f32⟩
  | 31 => ⟨S16x32x256x1, .f32⟩
  | 32 => ⟨S16x32x256x1, .f32⟩
  | 33 => ⟨S16x32x256x1, .f32⟩
  | 34 => ⟨S_, .f32⟩
  | 35 => ⟨S16x32x256x1, .f32⟩
  | 36 => ⟨S16x32x256x1, .f32⟩
  | 37 => ⟨S16x32x256x256, .f32⟩
  | 38 => ⟨S16x32x256x256, .f32⟩
  | 39 => ⟨S16x32x256x254, .f32⟩
  | 40 => ⟨S16x32x256x254, .f32⟩
  | 41 => ⟨S16x32x256x254, .f32⟩
  | 42 => ⟨S_, .f32⟩
  | 43 => ⟨S16x32x256x254, .f32⟩
  | 44 => ⟨S16x32x256x254, .f32⟩
  | 45 => ⟨S16x32x256x1, .f32⟩
  | 46 => ⟨S_, .f32⟩
  | 47 => ⟨S16x32x256x1, .f32⟩
  | 48 => ⟨S16x32x256x1, .f32⟩
  | 49 => ⟨S16x32x256x1, .f32⟩
  | 50 => ⟨S_, .f32⟩
  | 51 => ⟨S16x32x256x1, .f32⟩
  | 52 => ⟨S16x32x256x1, .f32⟩
  | 53 => ⟨S16x32x256x1, .f32⟩
  | 54 => ⟨S16x32x256x1, .f32⟩
  | 55 => ⟨S16x32x256x1, .f32⟩
  | 56 => ⟨S_, .f32⟩
  | 57 => ⟨S16x32x256x1, .f32⟩
  | 58 => ⟨S16x32x256x1, .f32⟩
  | 59 => ⟨S16x32x256x1, .f32⟩
  | 60 => ⟨S_, .f32⟩
  | 61 => ⟨S16x32x256x1, .f32⟩
  | 62 => ⟨S16x32x256x1, .f32⟩
  | 63 => ⟨S16x32x256x1, .f32⟩
  | 64 => ⟨S_, .f32⟩
  | 65 => ⟨S16x32x256x1, .f32⟩
  | 66 => ⟨S16x32x256x1, .f32⟩
  | 67 => ⟨S16x32x256x1, .f32⟩
  | 68 => ⟨S16x32x256x1, .f32⟩
  | 69 => ⟨S16x32x256x1, .f32⟩
  | 70 => ⟨S_, .f32⟩
  | 71 => ⟨S16x32x256x1, .f32⟩
  | 72 => ⟨S16x32x256x1, .f32⟩
  | 73 => ⟨S16x32x256x256, .f32⟩
  | 74 => ⟨S16x32x256x256, .f32⟩
  | 75 => ⟨S16x32x256x256, .f32⟩
  | 76 => ⟨S16x32x256x254, .f32⟩
  | 77 => ⟨S16x32x256x254, .f32⟩
  | 78 => ⟨S16x32x256x254, .f32⟩
  | 79 => ⟨S_, .f32⟩
  | 80 => ⟨S16x32x256x254, .f32⟩
  | 81 => ⟨S16x32x256x254, .f32⟩
  | 82 => ⟨S16x32x256x1, .f32⟩
  | 83 => ⟨S_, .f32⟩
  | 84 => ⟨S16x32x256x1, .f32⟩
  | 85 => ⟨S16x32x256x1, .f32⟩
  | 86 => ⟨S16x32x256x1, .f32⟩
  | 87 => ⟨S_, .f32⟩
  | 88 => ⟨S16x32x256x1, .f32⟩
  | 89 => ⟨S16x32x256x1, .f32⟩
  | 90 => ⟨S16x32x256x1, .f32⟩
  | 91 => ⟨S16x32x256x1, .f32⟩
  | 92 => ⟨S16x32x256x1, .f32⟩
  | 93 => ⟨S_, .f32⟩
  | 94 => ⟨S16x32x256x1, .f32⟩
  | 95 => ⟨S16x32x256x1, .f32⟩
  | 96 => ⟨S16x32x256x1, .f32⟩
  | 97 => ⟨S_, .f32⟩
  | 98 => ⟨S16x32x256x1, .f32⟩
  | 99 => ⟨S16x32x256x1, .f32⟩
  | 100 => ⟨S16x32x256x1, .f32⟩
  | 101 => ⟨S_, .f32⟩
  | 102 => ⟨S16x32x256x1, .f32⟩
  | 103 => ⟨S16x32x256x1, .f32⟩
  | 104 => ⟨S16x32x256x1, .f32⟩
  | 105 => ⟨S16x32x256x1, .f32⟩
  | 106 => ⟨S16x32x256x1, .f32⟩
  | 107 => ⟨S_, .f32⟩
  | 108 => ⟨S16x32x256x1, .f32⟩
  | 109 => ⟨S16x32x256x1, .f32⟩
  | 110 => ⟨S16x32x256x256, .f32⟩
  | 111 => ⟨S16x32x256x256, .f32⟩
  | 112 => ⟨S16x32x256x256, .f32⟩
  | 113 => ⟨S16x32x256x254, .f32⟩
  | 114 => ⟨S16x32x256x254, .f32⟩
  | 115 => ⟨S16x32x256x254, .f32⟩
  | 116 => ⟨S_, .f32⟩
  | 117 => ⟨S16x32x256x254, .f32⟩
  | 118 => ⟨S16x32x256x254, .f32⟩
  | 119 => ⟨S16x32x256x1, .f32⟩
  | 120 => ⟨S_, .f32⟩
  | 121 => ⟨S16x32x256x1, .f32⟩
  | 122 => ⟨S16x32x256x1, .f32⟩
  | 123 => ⟨S16x32x256x1, .f32⟩
  | 124 => ⟨S_, .f32⟩
  | 125 => ⟨S16x32x256x1, .f32⟩
  | 126 => ⟨S16x32x256x1, .f32⟩
  | 127 => ⟨S16x32x256x1, .f32⟩
  | _ => ⟨S16x32x256x256, .f32⟩

abbrev hbmTy0_1 (i : Nat) : BufTy := match i % 128 with
  | 0 => ⟨S16x32x256x1, .f32⟩
  | 1 => ⟨S16x32x256x1, .f32⟩
  | 2 => ⟨S_, .f32⟩
  | 3 => ⟨S16x32x256x1, .f32⟩
  | 4 => ⟨S16x32x256x1, .f32⟩
  | 5 => ⟨S16x32x256x1, .f32⟩
  | 6 => ⟨S_, .f32⟩
  | 7 => ⟨S16x32x256x1, .f32⟩
  | 8 => ⟨S16x32x256x1, .f32⟩
  | 9 => ⟨S16x32x256x1, .f32⟩
  | 10 => ⟨S_, .f32⟩
  | 11 => ⟨S16x32x256x1, .f32⟩
  | 12 => ⟨S16x32x256x1, .f32⟩
  | 13 => ⟨S16x32x256x1, .f32⟩
  | 14 => ⟨S16x32x256x1, .f32⟩
  | 15 => ⟨S16x32x256x1, .f32⟩
  | 16 => ⟨S_, .f32⟩
  | 17 => ⟨S16x32x256x1, .f32⟩
  | 18 => ⟨S16x32x256x1, .f32⟩
  | 19 => ⟨S16x32x256x256, .f32⟩
  | 20 => ⟨S16x32x256x256, .f32⟩
  | 21 => ⟨S16x32x256x256, .f32⟩
  | 22 => ⟨S16x32x256x254, .f32⟩
  | 23 => ⟨S16x32x256x254, .f32⟩
  | 24 => ⟨S16x32x256x254, .f32⟩
  | 25 => ⟨S_, .f32⟩
  | 26 => ⟨S16x32x256x254, .f32⟩
  | 27 => ⟨S16x32x256x254, .f32⟩
  | 28 => ⟨S16x32x256x1, .f32⟩
  | 29 => ⟨S_, .f32⟩
  | 30 => ⟨S16x32x256x1, .f32⟩
  | 31 => ⟨S16x32x256x1, .f32⟩
  | 32 => ⟨S16x32x256x1, .f32⟩
  | 33 => ⟨S_, .f32⟩
  | 34 => ⟨S16x32x256x1, .f32⟩
  | 35 => ⟨S16x32x256x1, .f32⟩
  | 36 => ⟨S16x32x256x1, .f32⟩
  | 37 => ⟨S16x32x256x1, .f32⟩
  | 38 => ⟨S16x32x256x1, .f32⟩
  | 39 => ⟨S_, .f32⟩
  | 40 => ⟨S16x32x256x1, .f32⟩
  | 41 => ⟨S16x32x256x1, .f32⟩
  | 42 => ⟨S16x32x256x1, .f32⟩
  | 43 => ⟨S_, .f32⟩
  | 44 => ⟨S16x32x256x1, .f32⟩
  | 45 => ⟨S16x32x256x1, .f32⟩
  | 46 => ⟨S16x32x256x1, .f32⟩
  | 47 => ⟨S_, .f32⟩
  | 48 => ⟨S16x32x256x1, .f32⟩
  | 49 => ⟨S16x32x256x1, .f32⟩
  | 50 => ⟨S16x32x256x1, .f32⟩
  | 51 => ⟨S16x32x256x1, .f32⟩
  | 52 => ⟨S16x32x256x1, .f32⟩
  | 53 => ⟨S_, .f32⟩
  | 54 => ⟨S16x32x256x1, .f32⟩
  | 55 => ⟨S16x32x256x1, .f32⟩
  | 56 => ⟨S16x32x256x256, .f32⟩
  | 57 => ⟨S16x32x256x256, .f32⟩
  | 58 => ⟨S16x32x256x254, .f32⟩
  | 59 => ⟨S16x32x256x254, .f32⟩
  | 60 => ⟨S16x32x256x254, .f32⟩
  | 61 => ⟨S_, .f32⟩
  | 62 => ⟨S16x32x256x254, .f32⟩
  | 63 => ⟨S16x32x256x254, .f32⟩
  | 64 => ⟨S16x32x256x1, .f32⟩
  | 65 => ⟨S_, .f32⟩
  | 66 => ⟨S16x32x256x1, .f32⟩
  | 67 => ⟨S16x32x256x1, .f32⟩
  | 68 => ⟨S16x32x256x1, .f32⟩
  | 69 => ⟨S_, .f32⟩
  | 70 => ⟨S16x32x256x1, .f32⟩
  | 71 => ⟨S16x32x256x1, .f32⟩
  | 72 => ⟨S16x32x256x1, .f32⟩
  | 73 => ⟨S16x32x256x1, .f32⟩
  | 74 => ⟨S16x32x256x1, .f32⟩
  | 75 => ⟨S_, .f32⟩
  | 76 => ⟨S16x32x256x1, .f32⟩
  | 77 => ⟨S16x32x256x1, .f32⟩
  | 78 => ⟨S16x32x256x1, .f32⟩
  | 79 => ⟨S_, .f32⟩
  | 80 => ⟨S16x32x256x1, .f32⟩
  | 81 => ⟨S16x32x256x1, .f32⟩
  | 82 => ⟨S16x32x256x1, .f32⟩
  | 83 => ⟨S_, .f32⟩
  | 84 => ⟨S16x32x256x1, .f32⟩
  | 85 => ⟨S16x32x256x1, .f32⟩
  | 86 => ⟨S16x32x256x1, .f32⟩
  | 87 => ⟨S16x32x256x1, .f32⟩
  | 88 => ⟨S16x32x256x1, .f32⟩
  | 89 => ⟨S_, .f32⟩
  | 90 => ⟨S16x32x256x1, .f32⟩
  | 91 => ⟨S16x32x256x1, .f32⟩
  | 92 => ⟨S16x32x256x256, .f32⟩
  | 93 => ⟨S16x32x256x256, .f32⟩
  | 94 => ⟨S16x32x256x254, .f32⟩
  | 95 => ⟨S16x32x256x254, .f32⟩
  | 96 => ⟨S16x32x256x254, .f32⟩
  | 97 => ⟨S_, .f32⟩
  | 98 => ⟨S16x32x256x254, .f32⟩
  | 99 => ⟨S16x32x256x254, .f32⟩
  | 100 => ⟨S16x32x256x1, .f32⟩
  | 101 => ⟨S_, .f32⟩
  | 102 => ⟨S16x32x256x1, .f32⟩
  | 103 => ⟨S16x32x256x1, .f32⟩
  | 104 => ⟨S16x32x256x1, .f32⟩
  | 105 => ⟨S_, .f32⟩
  | 106 => ⟨S16x32x256x1, .f32⟩
  | 107 => ⟨S16x32x256x1, .f32⟩
  | 108 => ⟨S16x32x256x1, .f32⟩
  | 109 => ⟨S16x32x256x1, .f32⟩
  | 110 => ⟨S16x32x256x1, .f32⟩
  | 111 => ⟨S_, .f32⟩
  | 112 => ⟨S16x32x256x1, .f32⟩
  | 113 => ⟨S16x32x256x1, .f32⟩
  | 114 => ⟨S16x32x256x1, .f32⟩
  | 115 => ⟨S_, .f32⟩
  | 116 => ⟨S16x32x256x1, .f32⟩
  | 117 => ⟨S16x32x256x1, .f32⟩
  | 118 => ⟨S16x32x256x1, .f32⟩
  | 119 => ⟨S_, .f32⟩
  | 120 => ⟨S16x32x256x1, .f32⟩
  | 121 => ⟨S16x32x256x1, .f32⟩
  | 122 => ⟨S16x32x256x1, .f32⟩
  | 123 => ⟨S16x32x256x1, .f32⟩
  | 124 => ⟨S16x32x256x1, .f32⟩
  | 125 => ⟨S_, .f32⟩
  | 126 => ⟨S16x32x256x1, .f32⟩
  | 127 => ⟨S16x32x256x1, .f32⟩
  | _ => ⟨S16x32x256x256, .f32⟩

abbrev hbmTy0_2 (i : Nat) : BufTy := match i % 128 with
  | 0 => ⟨S16x32x256x256, .f32⟩
  | 1 => ⟨S16x32x256x256, .f32⟩
  | 2 => ⟨S16x32x256x254, .f32⟩
  | 3 => ⟨S16x32x256x254, .f32⟩
  | 4 => ⟨S16x32x256x254, .f32⟩
  | 5 => ⟨S_, .f32⟩
  | 6 => ⟨S16x32x256x254, .f32⟩
  | 7 => ⟨S16x32x256x254, .f32⟩
  | 8 => ⟨S16x32x256x1, .f32⟩
  | 9 => ⟨S_, .f32⟩
  | 10 => ⟨S16x32x256x1, .f32⟩
  | 11 => ⟨S16x32x256x1, .f32⟩
  | 12 => ⟨S16x32x256x1, .f32⟩
  | 13 => ⟨S_, .f32⟩
  | 14 => ⟨S16x32x256x1, .f32⟩
  | 15 => ⟨S16x32x256x1, .f32⟩
  | 16 => ⟨S16x32x256x1, .f32⟩
  | 17 => ⟨S16x32x256x1, .f32⟩
  | 18 => ⟨S16x32x256x1, .f32⟩
  | 19 => ⟨S_, .f32⟩
  | 20 => ⟨S16x32x256x1, .f32⟩
  | 21 => ⟨S16x32x256x1, .f32⟩
  | 22 => ⟨S16x32x256x1, .f32⟩
  | 23 => ⟨S_, .f32⟩
  | 24 => ⟨S16x32x256x1, .f32⟩
  | 25 => ⟨S16x32x256x1, .f32⟩
  | 26 => ⟨S16x32x256x1, .f32⟩
  | 27 => ⟨S_, .f32⟩
  | 28 => ⟨S16x32x256x1, .f32⟩
  | 29 => ⟨S16x32x256x1, .f32⟩
  | 30 => ⟨S16x32x256x1, .f32⟩
  | 31 => ⟨S16x32x256x1, .f32⟩
  | 32 => ⟨S16x32x256x1, .f32⟩
  | 33 => ⟨S_, .f32⟩
  | 34 => ⟨S16x32x256x1, .f32⟩
  | 35 => ⟨S16x32x256x1, .f32⟩
  | 36 => ⟨S16x32x256x256, .f32⟩
  | 37 => ⟨S16x32x256x256, .f32⟩
  | 38 => ⟨S16x32x256x256, .f32⟩
  | 39 => ⟨S16x32x256x256, .f32⟩
  | 40 => ⟨S16x32x256x256, .f32⟩
  | 41 => ⟨S16x32x256x256, .f32⟩
  | 42 => ⟨S16x32x256x256, .f32⟩
  | 43 => ⟨S16x32x256x256, .f32⟩
  | 44 => ⟨S16x32x256x256, .f32⟩
  | 45 => ⟨S_, .f32⟩
  | 46 => ⟨S16x32x256x256, .f32⟩
  | 47 => ⟨S16x32x256x256, .i1⟩
  | 48 => ⟨S16x256x256x32, .f32⟩
  | 49 => ⟨S16x256x256x30, .f32⟩
  | 50 => ⟨S16x256x256x30, .f32⟩
  | 51 => ⟨S16x256x256x30, .f32⟩
  | 52 => ⟨S_, .f32⟩
  | 53 => ⟨S16x256x256x30, .f32⟩
  | 54 => ⟨S16x256x256x30, .f32⟩
  | 55 => ⟨S16x256x256x1, .f32⟩
  | 56 => ⟨S_, .f32⟩
  | 57 => ⟨S16x256x256x1, .f32⟩
  | 58 => ⟨S16x256x256x1, .f32⟩
  | 59 => ⟨S16x256x256x1, .f32⟩
  | 60 => ⟨S_, .f32⟩
  | 61 => ⟨S16x256x256x1, .f32⟩
  | 62 => ⟨S16x256x256x1, .f32⟩
  | 63 => ⟨S16x256x256x1, .f32⟩
  | 64 => ⟨S16x256x256x1, .f32⟩
  | 65 => ⟨S16x256x256x1, .f32⟩
  | 66 => ⟨S_, .f32⟩
  | 67 => ⟨S16x256x256x1, .f32⟩
  | 68 => ⟨S16x256x256x1, .f32⟩
  | 69 => ⟨S16x256x256x1, .f32⟩
  | 70 => ⟨S_, .f32⟩
  | 71 => ⟨S16x256x256x1, .f32⟩
  | 72 => ⟨S16x256x256x1, .f32⟩
  | 73 => ⟨S16x256x256x1, .f32⟩
  | 74 => ⟨S_, .f32⟩
  | 75 => ⟨S16x256x256x1, .f32⟩
  | 76 => ⟨S16x256x256x1, .f32⟩
  | 77 => ⟨S16x256x256x1, .f32⟩
  | 78 => ⟨S16x256x256x1, .f32⟩
  | 79 => ⟨S16x256x256x1, .f32⟩
  | 80 => ⟨S_, .f32⟩
  | 81 => ⟨S16x256x256x1, .f32⟩
  | 82 => ⟨S16x256x256x1, .f32⟩
  | 83 => ⟨S16x256x256x32, .f32⟩
  | 84 => ⟨S16x32x256x256, .f32⟩
  | 85 => ⟨S_, .f32⟩
  | 86 => ⟨S16x32x256x256, .f32⟩
  | 87 => ⟨S16x32x256x256, .f32⟩
  | 88 => ⟨S16x32x256x256, .f32⟩
  | 89 => ⟨S_, .i32⟩
  | 90 => ⟨S1, .i32⟩
  | 91 => ⟨S_, .i32⟩
  | 92 => ⟨S1, .i32⟩
  | 93 => ⟨S2, .i32⟩
  | 94 => ⟨S_, .f32⟩
  | 95 => ⟨S16x32, .f32⟩
  | 96 => ⟨S16x32x256x256, .f32⟩
  | 97 => ⟨S16x32x256x256, .f32⟩
  | 98 => ⟨S16x32x256x256, .f32⟩
  | 99 => ⟨S16x32x256x256, .f32⟩
  | 100 => ⟨S_, .f32⟩
  | 101 => ⟨S16, .f32⟩
  | 102 => ⟨S_, .f32⟩
  | 103 => ⟨S16, .f32⟩
  | 104 => ⟨S16, .f32⟩
  | 105 => ⟨S_, .f32⟩
  | 106 => ⟨S_, .f32⟩
  | 107 => ⟨S_, .f32⟩
  | 108 => ⟨S_, .f32⟩
  | _ => ⟨S16x32x256x256, .f32⟩

abbrev hbmTy (i : Nat) : BufTy := match i / 128 with
  | 0 => hbmTy0_0 i
  | 1 => hbmTy0_1 i
  | 2 => hbmTy0_2 i
  | _ => ⟨S16x32x256x256, .f32⟩

abbrev bufTy : (tb : Table) → Fin (tcTables nBuf tb) → BufTy
  | .hbm, ⟨i, _⟩ => hbmTy i
  | _, _ => ⟨S16x32x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_2 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_3 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_4 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_cst_5 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_cst_6 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_cst_7 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_cst_8 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_cst_9 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_cst_10 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_cst_11 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_cst_12 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_cst_13 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_cst_14 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_cst_15 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_cst_16 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_cst_17 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_cst_18 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_cst_19 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩
abbrev main_v90 : Ref sig .tc := ⟨.hbm, 113, rfl⟩
abbrev main_v91 : Ref sig .tc := ⟨.hbm, 114, rfl⟩
abbrev main_v92 : Ref sig .tc := ⟨.hbm, 115, rfl⟩
abbrev main_cst_20 : Ref sig .tc := ⟨.hbm, 116, rfl⟩
abbrev main_v93 : Ref sig .tc := ⟨.hbm, 117, rfl⟩
abbrev main_v94 : Ref sig .tc := ⟨.hbm, 118, rfl⟩
abbrev main_v95 : Ref sig .tc := ⟨.hbm, 119, rfl⟩
abbrev main_cst_21 : Ref sig .tc := ⟨.hbm, 120, rfl⟩
abbrev main_v96 : Ref sig .tc := ⟨.hbm, 121, rfl⟩
abbrev main_v97 : Ref sig .tc := ⟨.hbm, 122, rfl⟩
abbrev main_v98 : Ref sig .tc := ⟨.hbm, 123, rfl⟩
abbrev main_cst_22 : Ref sig .tc := ⟨.hbm, 124, rfl⟩
abbrev main_v99 : Ref sig .tc := ⟨.hbm, 125, rfl⟩
abbrev main_v100 : Ref sig .tc := ⟨.hbm, 126, rfl⟩
abbrev main_v101 : Ref sig .tc := ⟨.hbm, 127, rfl⟩
abbrev main_v102 : Ref sig .tc := ⟨.hbm, 128, rfl⟩
abbrev main_v103 : Ref sig .tc := ⟨.hbm, 129, rfl⟩
abbrev main_cst_23 : Ref sig .tc := ⟨.hbm, 130, rfl⟩
abbrev main_v104 : Ref sig .tc := ⟨.hbm, 131, rfl⟩
abbrev main_v105 : Ref sig .tc := ⟨.hbm, 132, rfl⟩
abbrev main_v106 : Ref sig .tc := ⟨.hbm, 133, rfl⟩
abbrev main_cst_24 : Ref sig .tc := ⟨.hbm, 134, rfl⟩
abbrev main_v107 : Ref sig .tc := ⟨.hbm, 135, rfl⟩
abbrev main_v108 : Ref sig .tc := ⟨.hbm, 136, rfl⟩
abbrev main_v109 : Ref sig .tc := ⟨.hbm, 137, rfl⟩
abbrev main_cst_25 : Ref sig .tc := ⟨.hbm, 138, rfl⟩
abbrev main_v110 : Ref sig .tc := ⟨.hbm, 139, rfl⟩
abbrev main_v111 : Ref sig .tc := ⟨.hbm, 140, rfl⟩
abbrev main_v112 : Ref sig .tc := ⟨.hbm, 141, rfl⟩
abbrev main_v113 : Ref sig .tc := ⟨.hbm, 142, rfl⟩
abbrev main_v114 : Ref sig .tc := ⟨.hbm, 143, rfl⟩
abbrev main_cst_26 : Ref sig .tc := ⟨.hbm, 144, rfl⟩
abbrev main_v115 : Ref sig .tc := ⟨.hbm, 145, rfl⟩
abbrev main_v116 : Ref sig .tc := ⟨.hbm, 146, rfl⟩
abbrev main_v117 : Ref sig .tc := ⟨.hbm, 147, rfl⟩
abbrev main_v118 : Ref sig .tc := ⟨.hbm, 148, rfl⟩
abbrev main_v119 : Ref sig .tc := ⟨.hbm, 149, rfl⟩
abbrev main_v120 : Ref sig .tc := ⟨.hbm, 150, rfl⟩
abbrev main_v121 : Ref sig .tc := ⟨.hbm, 151, rfl⟩
abbrev main_v122 : Ref sig .tc := ⟨.hbm, 152, rfl⟩
abbrev main_cst_27 : Ref sig .tc := ⟨.hbm, 153, rfl⟩
abbrev main_v123 : Ref sig .tc := ⟨.hbm, 154, rfl⟩
abbrev main_v124 : Ref sig .tc := ⟨.hbm, 155, rfl⟩
abbrev main_v125 : Ref sig .tc := ⟨.hbm, 156, rfl⟩
abbrev main_cst_28 : Ref sig .tc := ⟨.hbm, 157, rfl⟩
abbrev main_v126 : Ref sig .tc := ⟨.hbm, 158, rfl⟩
abbrev main_v127 : Ref sig .tc := ⟨.hbm, 159, rfl⟩
abbrev main_v128 : Ref sig .tc := ⟨.hbm, 160, rfl⟩
abbrev main_cst_29 : Ref sig .tc := ⟨.hbm, 161, rfl⟩
abbrev main_v129 : Ref sig .tc := ⟨.hbm, 162, rfl⟩
abbrev main_v130 : Ref sig .tc := ⟨.hbm, 163, rfl⟩
abbrev main_v131 : Ref sig .tc := ⟨.hbm, 164, rfl⟩
abbrev main_v132 : Ref sig .tc := ⟨.hbm, 165, rfl⟩
abbrev main_v133 : Ref sig .tc := ⟨.hbm, 166, rfl⟩
abbrev main_cst_30 : Ref sig .tc := ⟨.hbm, 167, rfl⟩
abbrev main_v134 : Ref sig .tc := ⟨.hbm, 168, rfl⟩
abbrev main_v135 : Ref sig .tc := ⟨.hbm, 169, rfl⟩
abbrev main_v136 : Ref sig .tc := ⟨.hbm, 170, rfl⟩
abbrev main_cst_31 : Ref sig .tc := ⟨.hbm, 171, rfl⟩
abbrev main_v137 : Ref sig .tc := ⟨.hbm, 172, rfl⟩
abbrev main_v138 : Ref sig .tc := ⟨.hbm, 173, rfl⟩
abbrev main_v139 : Ref sig .tc := ⟨.hbm, 174, rfl⟩
abbrev main_cst_32 : Ref sig .tc := ⟨.hbm, 175, rfl⟩
abbrev main_v140 : Ref sig .tc := ⟨.hbm, 176, rfl⟩
abbrev main_v141 : Ref sig .tc := ⟨.hbm, 177, rfl⟩
abbrev main_v142 : Ref sig .tc := ⟨.hbm, 178, rfl⟩
abbrev main_v143 : Ref sig .tc := ⟨.hbm, 179, rfl⟩
abbrev main_v144 : Ref sig .tc := ⟨.hbm, 180, rfl⟩
abbrev main_cst_33 : Ref sig .tc := ⟨.hbm, 181, rfl⟩
abbrev main_v145 : Ref sig .tc := ⟨.hbm, 182, rfl⟩
abbrev main_v146 : Ref sig .tc := ⟨.hbm, 183, rfl⟩
abbrev main_v147 : Ref sig .tc := ⟨.hbm, 184, rfl⟩
abbrev main_v148 : Ref sig .tc := ⟨.hbm, 185, rfl⟩
abbrev main_v149 : Ref sig .tc := ⟨.hbm, 186, rfl⟩
abbrev main_v150 : Ref sig .tc := ⟨.hbm, 187, rfl⟩
abbrev main_v151 : Ref sig .tc := ⟨.hbm, 188, rfl⟩
abbrev main_cst_34 : Ref sig .tc := ⟨.hbm, 189, rfl⟩
abbrev main_v152 : Ref sig .tc := ⟨.hbm, 190, rfl⟩
abbrev main_v153 : Ref sig .tc := ⟨.hbm, 191, rfl⟩
abbrev main_v154 : Ref sig .tc := ⟨.hbm, 192, rfl⟩
abbrev main_cst_35 : Ref sig .tc := ⟨.hbm, 193, rfl⟩
abbrev main_v155 : Ref sig .tc := ⟨.hbm, 194, rfl⟩
abbrev main_v156 : Ref sig .tc := ⟨.hbm, 195, rfl⟩
abbrev main_v157 : Ref sig .tc := ⟨.hbm, 196, rfl⟩
abbrev main_cst_36 : Ref sig .tc := ⟨.hbm, 197, rfl⟩
abbrev main_v158 : Ref sig .tc := ⟨.hbm, 198, rfl⟩
abbrev main_v159 : Ref sig .tc := ⟨.hbm, 199, rfl⟩
abbrev main_v160 : Ref sig .tc := ⟨.hbm, 200, rfl⟩
abbrev main_v161 : Ref sig .tc := ⟨.hbm, 201, rfl⟩
abbrev main_v162 : Ref sig .tc := ⟨.hbm, 202, rfl⟩
abbrev main_cst_37 : Ref sig .tc := ⟨.hbm, 203, rfl⟩
abbrev main_v163 : Ref sig .tc := ⟨.hbm, 204, rfl⟩
abbrev main_v164 : Ref sig .tc := ⟨.hbm, 205, rfl⟩
abbrev main_v165 : Ref sig .tc := ⟨.hbm, 206, rfl⟩
abbrev main_cst_38 : Ref sig .tc := ⟨.hbm, 207, rfl⟩
abbrev main_v166 : Ref sig .tc := ⟨.hbm, 208, rfl⟩
abbrev main_v167 : Ref sig .tc := ⟨.hbm, 209, rfl⟩
abbrev main_v168 : Ref sig .tc := ⟨.hbm, 210, rfl⟩
abbrev main_cst_39 : Ref sig .tc := ⟨.hbm, 211, rfl⟩
abbrev main_v169 : Ref sig .tc := ⟨.hbm, 212, rfl⟩
abbrev main_v170 : Ref sig .tc := ⟨.hbm, 213, rfl⟩
abbrev main_v171 : Ref sig .tc := ⟨.hbm, 214, rfl⟩
abbrev main_v172 : Ref sig .tc := ⟨.hbm, 215, rfl⟩
abbrev main_v173 : Ref sig .tc := ⟨.hbm, 216, rfl⟩
abbrev main_cst_40 : Ref sig .tc := ⟨.hbm, 217, rfl⟩
abbrev main_v174 : Ref sig .tc := ⟨.hbm, 218, rfl⟩
abbrev main_v175 : Ref sig .tc := ⟨.hbm, 219, rfl⟩
abbrev main_v176 : Ref sig .tc := ⟨.hbm, 220, rfl⟩
abbrev main_v177 : Ref sig .tc := ⟨.hbm, 221, rfl⟩
abbrev main_v178 : Ref sig .tc := ⟨.hbm, 222, rfl⟩
abbrev main_v179 : Ref sig .tc := ⟨.hbm, 223, rfl⟩
abbrev main_v180 : Ref sig .tc := ⟨.hbm, 224, rfl⟩
abbrev main_cst_41 : Ref sig .tc := ⟨.hbm, 225, rfl⟩
abbrev main_v181 : Ref sig .tc := ⟨.hbm, 226, rfl⟩
abbrev main_v182 : Ref sig .tc := ⟨.hbm, 227, rfl⟩
abbrev main_v183 : Ref sig .tc := ⟨.hbm, 228, rfl⟩
abbrev main_cst_42 : Ref sig .tc := ⟨.hbm, 229, rfl⟩
abbrev main_v184 : Ref sig .tc := ⟨.hbm, 230, rfl⟩
abbrev main_v185 : Ref sig .tc := ⟨.hbm, 231, rfl⟩
abbrev main_v186 : Ref sig .tc := ⟨.hbm, 232, rfl⟩
abbrev main_cst_43 : Ref sig .tc := ⟨.hbm, 233, rfl⟩
abbrev main_v187 : Ref sig .tc := ⟨.hbm, 234, rfl⟩
abbrev main_v188 : Ref sig .tc := ⟨.hbm, 235, rfl⟩
abbrev main_v189 : Ref sig .tc := ⟨.hbm, 236, rfl⟩
abbrev main_v190 : Ref sig .tc := ⟨.hbm, 237, rfl⟩
abbrev main_v191 : Ref sig .tc := ⟨.hbm, 238, rfl⟩
abbrev main_cst_44 : Ref sig .tc := ⟨.hbm, 239, rfl⟩
abbrev main_v192 : Ref sig .tc := ⟨.hbm, 240, rfl⟩
abbrev main_v193 : Ref sig .tc := ⟨.hbm, 241, rfl⟩
abbrev main_v194 : Ref sig .tc := ⟨.hbm, 242, rfl⟩
abbrev main_cst_45 : Ref sig .tc := ⟨.hbm, 243, rfl⟩
abbrev main_v195 : Ref sig .tc := ⟨.hbm, 244, rfl⟩
abbrev main_v196 : Ref sig .tc := ⟨.hbm, 245, rfl⟩
abbrev main_v197 : Ref sig .tc := ⟨.hbm, 246, rfl⟩
abbrev main_cst_46 : Ref sig .tc := ⟨.hbm, 247, rfl⟩
abbrev main_v198 : Ref sig .tc := ⟨.hbm, 248, rfl⟩
abbrev main_v199 : Ref sig .tc := ⟨.hbm, 249, rfl⟩
abbrev main_v200 : Ref sig .tc := ⟨.hbm, 250, rfl⟩
abbrev main_v201 : Ref sig .tc := ⟨.hbm, 251, rfl⟩
abbrev main_v202 : Ref sig .tc := ⟨.hbm, 252, rfl⟩
abbrev main_cst_47 : Ref sig .tc := ⟨.hbm, 253, rfl⟩
abbrev main_v203 : Ref sig .tc := ⟨.hbm, 254, rfl⟩
abbrev main_v204 : Ref sig .tc := ⟨.hbm, 255, rfl⟩
abbrev main_v205 : Ref sig .tc := ⟨.hbm, 256, rfl⟩
abbrev main_v206 : Ref sig .tc := ⟨.hbm, 257, rfl⟩
abbrev main_v207 : Ref sig .tc := ⟨.hbm, 258, rfl⟩
abbrev main_v208 : Ref sig .tc := ⟨.hbm, 259, rfl⟩
abbrev main_v209 : Ref sig .tc := ⟨.hbm, 260, rfl⟩
abbrev main_cst_48 : Ref sig .tc := ⟨.hbm, 261, rfl⟩
abbrev main_v210 : Ref sig .tc := ⟨.hbm, 262, rfl⟩
abbrev main_v211 : Ref sig .tc := ⟨.hbm, 263, rfl⟩
abbrev main_v212 : Ref sig .tc := ⟨.hbm, 264, rfl⟩
abbrev main_cst_49 : Ref sig .tc := ⟨.hbm, 265, rfl⟩
abbrev main_v213 : Ref sig .tc := ⟨.hbm, 266, rfl⟩
abbrev main_v214 : Ref sig .tc := ⟨.hbm, 267, rfl⟩
abbrev main_v215 : Ref sig .tc := ⟨.hbm, 268, rfl⟩
abbrev main_cst_50 : Ref sig .tc := ⟨.hbm, 269, rfl⟩
abbrev main_v216 : Ref sig .tc := ⟨.hbm, 270, rfl⟩
abbrev main_v217 : Ref sig .tc := ⟨.hbm, 271, rfl⟩
abbrev main_v218 : Ref sig .tc := ⟨.hbm, 272, rfl⟩
abbrev main_v219 : Ref sig .tc := ⟨.hbm, 273, rfl⟩
abbrev main_v220 : Ref sig .tc := ⟨.hbm, 274, rfl⟩
abbrev main_cst_51 : Ref sig .tc := ⟨.hbm, 275, rfl⟩
abbrev main_v221 : Ref sig .tc := ⟨.hbm, 276, rfl⟩
abbrev main_v222 : Ref sig .tc := ⟨.hbm, 277, rfl⟩
abbrev main_v223 : Ref sig .tc := ⟨.hbm, 278, rfl⟩
abbrev main_cst_52 : Ref sig .tc := ⟨.hbm, 279, rfl⟩
abbrev main_v224 : Ref sig .tc := ⟨.hbm, 280, rfl⟩
abbrev main_v225 : Ref sig .tc := ⟨.hbm, 281, rfl⟩
abbrev main_v226 : Ref sig .tc := ⟨.hbm, 282, rfl⟩
abbrev main_cst_53 : Ref sig .tc := ⟨.hbm, 283, rfl⟩
abbrev main_v227 : Ref sig .tc := ⟨.hbm, 284, rfl⟩
abbrev main_v228 : Ref sig .tc := ⟨.hbm, 285, rfl⟩
abbrev main_v229 : Ref sig .tc := ⟨.hbm, 286, rfl⟩
abbrev main_v230 : Ref sig .tc := ⟨.hbm, 287, rfl⟩
abbrev main_v231 : Ref sig .tc := ⟨.hbm, 288, rfl⟩
abbrev main_cst_54 : Ref sig .tc := ⟨.hbm, 289, rfl⟩
abbrev main_v232 : Ref sig .tc := ⟨.hbm, 290, rfl⟩
abbrev main_v233 : Ref sig .tc := ⟨.hbm, 291, rfl⟩
abbrev main_v234 : Ref sig .tc := ⟨.hbm, 292, rfl⟩
abbrev main_v235 : Ref sig .tc := ⟨.hbm, 293, rfl⟩
abbrev main_v236 : Ref sig .tc := ⟨.hbm, 294, rfl⟩
abbrev main_v237 : Ref sig .tc := ⟨.hbm, 295, rfl⟩
abbrev main_v238 : Ref sig .tc := ⟨.hbm, 296, rfl⟩
abbrev main_v239 : Ref sig .tc := ⟨.hbm, 297, rfl⟩
abbrev main_v240 : Ref sig .tc := ⟨.hbm, 298, rfl⟩
abbrev main_v241 : Ref sig .tc := ⟨.hbm, 299, rfl⟩
abbrev main_v242 : Ref sig .tc := ⟨.hbm, 300, rfl⟩
abbrev main_cst_55 : Ref sig .tc := ⟨.hbm, 301, rfl⟩
abbrev main_v243 : Ref sig .tc := ⟨.hbm, 302, rfl⟩
abbrev main_v244 : Ref sig .tc := ⟨.hbm, 303, rfl⟩
abbrev main_v245 : Ref sig .tc := ⟨.hbm, 304, rfl⟩
abbrev main_v246 : Ref sig .tc := ⟨.hbm, 305, rfl⟩
abbrev main_v247 : Ref sig .tc := ⟨.hbm, 306, rfl⟩
abbrev main_v248 : Ref sig .tc := ⟨.hbm, 307, rfl⟩
abbrev main_cst_56 : Ref sig .tc := ⟨.hbm, 308, rfl⟩
abbrev main_v249 : Ref sig .tc := ⟨.hbm, 309, rfl⟩
abbrev main_v250 : Ref sig .tc := ⟨.hbm, 310, rfl⟩
abbrev main_v251 : Ref sig .tc := ⟨.hbm, 311, rfl⟩
abbrev main_cst_57 : Ref sig .tc := ⟨.hbm, 312, rfl⟩
abbrev main_v252 : Ref sig .tc := ⟨.hbm, 313, rfl⟩
abbrev main_v253 : Ref sig .tc := ⟨.hbm, 314, rfl⟩
abbrev main_v254 : Ref sig .tc := ⟨.hbm, 315, rfl⟩
abbrev main_cst_58 : Ref sig .tc := ⟨.hbm, 316, rfl⟩
abbrev main_v255 : Ref sig .tc := ⟨.hbm, 317, rfl⟩
abbrev main_v256 : Ref sig .tc := ⟨.hbm, 318, rfl⟩
abbrev main_v257 : Ref sig .tc := ⟨.hbm, 319, rfl⟩
abbrev main_v258 : Ref sig .tc := ⟨.hbm, 320, rfl⟩
abbrev main_v259 : Ref sig .tc := ⟨.hbm, 321, rfl⟩
abbrev main_cst_59 : Ref sig .tc := ⟨.hbm, 322, rfl⟩
abbrev main_v260 : Ref sig .tc := ⟨.hbm, 323, rfl⟩
abbrev main_v261 : Ref sig .tc := ⟨.hbm, 324, rfl⟩
abbrev main_v262 : Ref sig .tc := ⟨.hbm, 325, rfl⟩
abbrev main_cst_60 : Ref sig .tc := ⟨.hbm, 326, rfl⟩
abbrev main_v263 : Ref sig .tc := ⟨.hbm, 327, rfl⟩
abbrev main_v264 : Ref sig .tc := ⟨.hbm, 328, rfl⟩
abbrev main_v265 : Ref sig .tc := ⟨.hbm, 329, rfl⟩
abbrev main_cst_61 : Ref sig .tc := ⟨.hbm, 330, rfl⟩
abbrev main_v266 : Ref sig .tc := ⟨.hbm, 331, rfl⟩
abbrev main_v267 : Ref sig .tc := ⟨.hbm, 332, rfl⟩
abbrev main_v268 : Ref sig .tc := ⟨.hbm, 333, rfl⟩
abbrev main_v269 : Ref sig .tc := ⟨.hbm, 334, rfl⟩
abbrev main_v270 : Ref sig .tc := ⟨.hbm, 335, rfl⟩
abbrev main_cst_62 : Ref sig .tc := ⟨.hbm, 336, rfl⟩
abbrev main_v271 : Ref sig .tc := ⟨.hbm, 337, rfl⟩
abbrev main_v272 : Ref sig .tc := ⟨.hbm, 338, rfl⟩
abbrev main_v273 : Ref sig .tc := ⟨.hbm, 339, rfl⟩
abbrev main_v274 : Ref sig .tc := ⟨.hbm, 340, rfl⟩
abbrev main_cst_63 : Ref sig .tc := ⟨.hbm, 341, rfl⟩
abbrev main_v275 : Ref sig .tc := ⟨.hbm, 342, rfl⟩
abbrev main_v276 : Ref sig .tc := ⟨.hbm, 343, rfl⟩
abbrev main_v277 : Ref sig .tc := ⟨.hbm, 344, rfl⟩
abbrev main_c : Ref sig .tc := ⟨.hbm, 345, rfl⟩
abbrev main_v278 : Ref sig .tc := ⟨.hbm, 346, rfl⟩
abbrev main_c_64 : Ref sig .tc := ⟨.hbm, 347, rfl⟩
abbrev main_v279 : Ref sig .tc := ⟨.hbm, 348, rfl⟩
abbrev main_v280 : Ref sig .tc := ⟨.hbm, 349, rfl⟩
abbrev main_cst_65 : Ref sig .tc := ⟨.hbm, 350, rfl⟩
abbrev main_v281 : Ref sig .tc := ⟨.hbm, 351, rfl⟩
abbrev main_v282 : Ref sig .tc := ⟨.hbm, 352, rfl⟩
abbrev main_v283 : Ref sig .tc := ⟨.hbm, 353, rfl⟩
abbrev main_v284 : Ref sig .tc := ⟨.hbm, 354, rfl⟩
abbrev main_v285 : Ref sig .tc := ⟨.hbm, 355, rfl⟩
abbrev main_cst_66 : Ref sig .tc := ⟨.hbm, 356, rfl⟩
abbrev main_v286 : Ref sig .tc := ⟨.hbm, 357, rfl⟩
abbrev main_cst_67 : Ref sig .tc := ⟨.hbm, 358, rfl⟩
abbrev main_v287 : Ref sig .tc := ⟨.hbm, 359, rfl⟩
abbrev main_v288 : Ref sig .tc := ⟨.hbm, 360, rfl⟩
abbrev main_cst_68 : Ref sig .tc := ⟨.hbm, 361, rfl⟩
abbrev main_v289 : Ref sig .tc := ⟨.hbm, 362, rfl⟩
abbrev main_cst_69 : Ref sig .tc := ⟨.hbm, 363, rfl⟩
abbrev main_v290 : Ref sig .tc := ⟨.hbm, 364, rfl⟩

abbrev nD : Nat := 1
abbrev τ : Topo := Topo.v7x

variable {F : FTy → Type} [FloatOps F]

class Facts₀ : Prop where
  transposes_S16x32x256x256_S16x32x256x256_0_1_3_2 : S16x32x256x256.Transposes [0, 1, 3, 2] S16x32x256x256
  slices_S16x32x256x256_S16x32x256x254_0_0_0_2 : S16x32x256x256.Slices ![0, 0, 0, 2] S16x32x256x254
  slices_S16x32x256x256_S16x32x256x254_0_0_0_0 : S16x32x256x256.Slices ![0, 0, 0, 0] S16x32x256x254
  bcast_S_S16x32x256x254 : S_.BroadcastsInDim S16x32x256x254 (![] : Fin 0 → Fin S16x32x256x254.rank)
  slices_S16x32x256x256_S16x32x256x1_0_0_0_0 : S16x32x256x256.Slices ![0, 0, 0, 0] S16x32x256x1
  bcast_S_S16x32x256x1 : S_.BroadcastsInDim S16x32x256x1 (![] : Fin 0 → Fin S16x32x256x1.rank)
  slices_S16x32x256x256_S16x32x256x1_0_0_0_1 : S16x32x256x256.Slices ![0, 0, 0, 1] S16x32x256x1
  slices_S16x32x256x256_S16x32x256x1_0_0_0_2 : S16x32x256x256.Slices ![0, 0, 0, 2] S16x32x256x1
  slices_S16x32x256x256_S16x32x256x1_0_0_0_255 : S16x32x256x256.Slices ![0, 0, 0, 255] S16x32x256x1
  slices_S16x32x256x256_S16x32x256x1_0_0_0_254 : S16x32x256x256.Slices ![0, 0, 0, 254] S16x32x256x1
  slices_S16x32x256x256_S16x32x256x1_0_0_0_253 : S16x32x256x256.Slices ![0, 0, 0, 253] S16x32x256x1
  concatenates_S16x32x256x1_S16x32x256x254_S16x32x256x1_S16x32x256x256_d3 : Shape.Concatenates [S16x32x256x1, S16x32x256x254, S16x32x256x1] S16x32x256x256 3
  bcast_S_S16x32x256x256 : S_.BroadcastsInDim S16x32x256x256 (![] : Fin 0 → Fin S16x32x256x256.rank)
  transposes_S16x32x256x256_S16x256x256x32_0_2_3_1 : S16x32x256x256.Transposes [0, 2, 3, 1] S16x256x256x32
  slices_S16x256x256x32_S16x256x256x30_0_0_0_2 : S16x256x256x32.Slices ![0, 0, 0, 2] S16x256x256x30
  slices_S16x256x256x32_S16x256x256x30_0_0_0_0 : S16x256x256x32.Slices ![0, 0, 0, 0] S16x256x256x30
  bcast_S_S16x256x256x30 : S_.BroadcastsInDim S16x256x256x30 (![] : Fin 0 → Fin S16x256x256x30.rank)
  slices_S16x256x256x32_S16x256x256x1_0_0_0_0 : S16x256x256x32.Slices ![0, 0, 0, 0] S16x256x256x1
  bcast_S_S16x256x256x1 : S_.BroadcastsInDim S16x256x256x1 (![] : Fin 0 → Fin S16x256x256x1.rank)
  slices_S16x256x256x32_S16x256x256x1_0_0_0_1 : S16x256x256x32.Slices ![0, 0, 0, 1] S16x256x256x1
  slices_S16x256x256x32_S16x256x256x1_0_0_0_2 : S16x256x256x32.Slices ![0, 0, 0, 2] S16x256x256x1
  slices_S16x256x256x32_S16x256x256x1_0_0_0_31 : S16x256x256x32.Slices ![0, 0, 0, 31] S16x256x256x1
  slices_S16x256x256x32_S16x256x256x1_0_0_0_30 : S16x256x256x32.Slices ![0, 0, 0, 30] S16x256x256x1
  slices_S16x256x256x32_S16x256x256x1_0_0_0_29 : S16x256x256x32.Slices ![0, 0, 0, 29] S16x256x256x1
  concatenates_S16x256x256x1_S16x256x256x30_S16x256x256x1_S16x256x256x32_d3 : Shape.Concatenates [S16x256x256x1, S16x256x256x30, S16x256x256x1] S16x256x256x32 3
  transposes_S16x256x256x32_S16x32x256x256_0_3_1_2 : S16x256x256x32.Transposes [0, 3, 1, 2] S16x32x256x256
  bcast_S_S1 : S_.BroadcastsInDim S1 (![] : Fin 0 → Fin S1.rank)
  concatenates_S1_S1_S2_d0 : Shape.Concatenates [S1, S1] S2 0
  bcast_S_S16x32 : S_.BroadcastsInDim S16x32 (![] : Fin 0 → Fin S16x32.rank)
  reducesTo_S16x32x256x256_S16_d1_2_3 : S16x32x256x256.ReducesTo [1, 2, 3] S16
  h_S_ : 0 < S_.numel
  reducesTo_S16_S_d0 : S16.ReducesTo [0] S_
  scatter_S16x32x256x256_S2_S16x32_01_23_23_0_wf : ScatterDims.WF S16x32x256x256 S2 S16x32 [0, 1] [2, 3] [2, 3] 0

variable [Facts₀]

def scatter_S16x32x256x256_S2_S16x32_01_23_23_0 : ScatterDims S16x32x256x256 S2 S16x32 where
  updateWindowDims := [0, 1]
  insertedWindowDims := [2, 3]
  scatterDimsToOperandDims := [2, 3]
  indexVectorDim := 0
  wf := scatter_S16x32x256x256_S2_S16x32_01_23_23_0_wf

class Facts : Prop extends Facts₀ where

variable [Facts]
-- ==== Proof.KChain.lean ====
/-
  The kernel body's arithmetic, composed along the body's data flow into a few named functions of the tiles it
  loads.  A loaded tile is one time step of one input, a (256, 256) matrix carried with two leading unit axes.

  Time step 0:   `firstMask pT kT` is the mask, `firstTerm pT kT p0 p1 p2` the masked square of the residual
                 (the time gradient there is the one-sided ((−3)·p0 + 4·p1 − p2)·½).
  Time steps 1…30 (one loop trip each): `loopAcc1 a pT kT pNext pPrev` adds the trip's masked square to the
                 running total `a` (time gradient (pNext − pPrev)·½) and `loopAcc2 a pT kT` adds its mask.
  Time step 31:  `lastDivk pT kT` and `lastMask pT kT` are the divergence and the mask; `outNum` adds the last
                 masked square (time gradient (3·p31 − 4·p30 + p29)·½) to the running total, sums the tile and
                 spreads the sum over the output block; `outDen` does the same with the masks.

  What holds of them (with P, K the two inputs as fields, b the batch entry, and a tile "holding"
  time step t of P when its entry (0, 0, h, w) is P b t h w):
    firstMask, loopMask, lastMask at (h, w)  =  mask P K b t h w          (t = 0, the trip's t, 31)
    firstTerm at (h, w)                       =  term P K b 0 h w
    loopAcc1 a … at (h, w)                    =  a (h, w) + term P K b t h w
    loopAcc2 a … at (h, w)                    =  a (h, w) + mask P K b t h w
    lastAcc1 a … at (h, w)                    =  a (h, w) + term P K b 31 h w
    lastAcc2 a … at (h, w)                    =  a (h, w) + mask P K b 31 h w
  (`outNum` and `outDen` are the tile sums of `lastAcc1` and `lastAcc2`, spread over the output block.)
-/
import proofs.«174142_j82669530514041_2_alg».proof.Proof.Gen.KernelIdeal.Skeleton

noncomputable section

namespace Cert.KChain

open Idealize.ShloMosaic Cert.KernelIdeal Cert.KernelIdeal.Gen

variable {F : FTy → Type} [FloatOps F]

/-- The scalar 4 the body passes between its parts. -/
abbrev four : F .f32 := Scalar.ofBits .f32 0x40800000#32

/-! ### Time step 0 -/

/-- ∂y p at time step 0. -/
def firstPdy (pT : Vec F S1x1x256x256 .f32) : FVec F S256x256 .f32 :=
  k0_pay28 (k0_pay22 pT) (k0_pay25 pT) (k0_pay26 pT) (k0_pay27 pT) four

/-- The divergence at time step 0. -/
def firstDivk (pT kT : Vec F S1x1x256x256 .f32) : FVec F S256x256 .f32 :=
  k0_pay31 (k0_pay29 (k0_pay22 pT) (k0_pay23 kT) (k0_pay25 pT) (k0_pay26 pT) (k0_pay27 pT) four) (k0_pay30 (k0_pay23 kT) (k0_pay24 pT))

/-- ∂y K at time step 0. -/
def firstKdy (kT : Vec F S1x1x256x256 .f32) : FVec F S256x256 .f32 := k0_pay40 (k0_pay23 kT)

/-- (∂xx p + ∂yy p)·K + ∂x p·∂x K at time step 0. -/
def firstPartial (pT kT : Vec F S1x1x256x256 .f32) : FVec F S256x256 .f32 :=
  k0_pay41 (k0_pay23 kT) (k0_pay24 pT)
    (k0_pay35 (k0_pay24 pT) (k0_pay32 (k0_pay24 pT)) (k0_pay33 (k0_pay24 pT)) (k0_pay34 (k0_pay24 pT)))
    (k0_pay36 (firstPdy pT)) (k0_pay37 (k0_pay23 kT)) (k0_pay38 (k0_pay23 kT)) (k0_pay39 (k0_pay23 kT))

/-- The mask at time step 0. -/
def firstMask (pT kT : Vec F S1x1x256x256 .f32) : FVec F S256x256 .f32 :=
  k0_pay42 (firstPdy pT) (firstDivk pT kT) (firstKdy kT) (firstPartial pT kT)

/-- The masked square of the residual at time step 0 (`p0 p1 p2`: time steps 0, 1, 2 of p). -/
def firstTerm (pT kT p0 p1 p2 : Vec F S1x1x256x256 .f32) : FVec F S256x256 .f32 :=
  k0_pay43 (firstPdy pT) (firstDivk pT kT) (firstKdy kT) (firstPartial pT kT) p0 p1 p2

/-! ### One loop trip -/

def loopPdy (pT : Vec F S1x1x256x256 .f32) : FVec F S256x256 .f32 :=
  k0_pay8 (k0_pay2 pT) (k0_pay5 pT) (k0_pay6 pT) (k0_pay7 pT) four

def loopDivk (pT kT : Vec F S1x1x256x256 .f32) : FVec F S256x256 .f32 :=
  k0_pay11 (k0_pay9 (k0_pay2 pT) (k0_pay3 kT) (k0_pay5 pT) (k0_pay6 pT) (k0_pay7 pT) four) (k0_pay10 (k0_pay3 kT) (k0_pay4 pT))

def loopKdy (kT : Vec F S1x1x256x256 .f32) : FVec F S256x256 .f32 := k0_pay20 (k0_pay3 kT)

def loopPartial (pT kT : Vec F S1x1x256x256 .f32) : FVec F S256x256 .f32 :=
  k0_pay21 (k0_pay3 kT) (k0_pay4 pT)
    (k0_pay15 (k0_pay4 pT) (k0_pay12 (k0_pay4 pT)) (k0_pay13 (k0_pay4 pT)) (k0_pay14 (k0_pay4 pT)))
    (k0_pay16 (loopPdy pT)) (k0_pay17 (k0_pay3 kT)) (k0_pay18 (k0_pay3 kT)) (k0_pay19 (k0_pay3 kT))

/-- The trip's mask. -/
def loopMask (pT kT : Vec F S1x1x256x256 .f32) : FVec F S256x256 .f32 :=
  k0_pay44 (loopPdy pT) (loopDivk pT kT) (loopKdy kT) (loopPartial pT kT)

/-- The running total of masked squares after the trip (`pNext`, `pPrev`: the next and the previous time step of p). -/
def loopAcc1 (a : FVec F S256x256 .f32) (pT kT pNext pPrev : Vec F S1x1x256x256 .f32) : FVec F S256x256 .f32 :=
  k0_pay45 a (loopPdy pT) (loopDivk pT kT) (loopKdy kT) (loopPartial pT kT) pNext pPrev

/-- The running total of masks after the trip. -/
def loopAcc2 (a : FVec F S256x256 .f32) (pT kT : Vec F S1x1x256x256 .f32) : FVec F S256x256 .f32 :=
  k0_pay46 a (loopPdy pT) (loopDivk pT kT) (loopKdy kT) (loopPartial pT kT)

/-! ### Time step 31 and the two results -/

/-- ∂x p at time step 31. -/
def lastPdx (pT : Vec F S1x1x256x256 .f32) : FVec F S256x256 .f32 := k0_pay49 (k0_pay47 pT)

/-- ∂y p at time step 31. -/
def lastPdy (pT : Vec F S1x1x256x256 .f32) : FVec F S256x256 .f32 :=
  k0_pay54 (k0_pay47 pT) (k0_pay50 (k0_pay47 pT)) (k0_pay51 (k0_pay47 pT)) (k0_pay52 (k0_pay47 pT)) (k0_pay53 (F := F))

/-- K·∂y p at time step 31. -/
def lastKPdy (pT kT : Vec F S1x1x256x256 .f32) : FVec F S256x256 .f32 :=
  k0_pay55 (k0_pay47 pT) (k0_pay48 kT) (k0_pay50 (k0_pay47 pT)) (k0_pay51 (k0_pay47 pT)) (k0_pay52 (k0_pay47 pT)) (k0_pay53 (F := F))

/-- The divergence at time step 31. -/
def lastDivk (pT kT : Vec F S1x1x256x256 .f32) : FVec F S256x256 .f32 :=
  k0_pay60 (lastKPdy pT kT) (k0_pay56 (k0_pay48 kT) (lastPdx pT))
    (k0_pay57 (k0_pay47 pT) (k0_pay48 kT) (k0_pay50 (k0_pay47 pT)) (k0_pay51 (k0_pay47 pT)) (k0_pay52 (k0_pay47 pT)) (k0_pay53 (F := F)))
    (k0_pay58 (k0_pay47 pT) (k0_pay48 kT) (k0_pay50 (k0_pay47 pT)) (k0_pay51 (k0_pay47 pT)) (k0_pay52 (k0_pay47 pT)) (k0_pay53 (F := F)))
    (k0_pay59 (k0_pay47 pT) (k0_pay48 kT) (k0_pay50 (k0_pay47 pT)) (k0_pay51 (k0_pay47 pT)) (k0_pay52 (k0_pay47 pT)) (k0_pay53 (F := F)))

/-- The mask at time step 31. -/
def lastMask (pT kT : Vec F S1x1x256x256 .f32) : FVec F S256x256 .f32 :=
  k0_pay67 (k0_pay48 kT) (lastPdx pT) (lastPdy pT) (lastDivk pT kT) (k0_pay61 (lastPdx pT)) (k0_pay62 (lastPdy pT))
    (k0_pay63 (k0_pay48 kT)) (k0_pay64 (k0_pay48 kT)) (k0_pay65 (k0_pay48 kT)) (k0_pay66 (k0_pay48 kT))

/-- The residual at time step 31: the divergence less S times the one-sided time gradient (3·p31 − 4·p30 + p29)·½. -/
def lastResid (pT kT p31 p30 p29 : Vec F S1x1x256x256 .f32) : FVec F S256x256 .f32 :=
  subf (lastDivk pT kT)
    (mulf (mulf (addf (subf (mulf (broadcast S256x256 (Scalar.ofBits .f32 0x40400000#32)) (shapeCast S256x256 p31 shapeCasts_S1x1x256x256_S256x256))
                            (mulf (broadcast S256x256 (Scalar.ofBits .f32 0x40800000#32)) (shapeCast S256x256 p30 shapeCasts_S1x1x256x256_S256x256)))
                      (shapeCast S256x256 p29 shapeCasts_S1x1x256x256_S256x256))
                (broadcast S256x256 (Scalar.ofBits .f32 0x3F000000#32)))
          (broadcast S256x256 (Scalar.ofBits .f32 0x3951B717#32)))

/-- The running total of masked squares after time step 31. -/
def lastAcc1 (a : FVec F S256x256 .f32) (pT kT p31 p30 p29 : Vec F S1x1x256x256 .f32) : FVec F S256x256 .f32 :=
  addf a (mulf (mulf (lastResid pT kT p31 p30 p29) (lastResid pT kT p31 p30 p29)) (lastMask pT kT))

/-- The running total of masks after time step 31. -/
def lastAcc2 (a : FVec F S256x256 .f32) (pT kT : Vec F S1x1x256x256 .f32) : FVec F S256x256 .f32 :=
  addf a (lastMask pT kT)

/-- What the body stores into the first output block: the total of the masked squares (`a`: the running total
    after the loop; `p31 p30 p29`: time steps 31, 30, 29 of p). -/
def outNum (a : FVec F S256x256 .f32) (pT kT p31 p30 p29 : Vec F S1x1x256x256 .f32) : FVec F S1x8x128 .f32 :=
  k0_pay68 a (lastDivk pT kT) (lastMask pT kT) p31 p30 p29

/-- What the body stores into the second output block: the total of the masks. -/
def outDen (a : FVec F S256x256 .f32) (pT kT : Vec F S1x1x256x256 .f32) : FVec F S1x8x128 .f32 :=
  k0_pay1 (k0_pay69 a (lastMask pT kT))

end Cert.KChain

end
-- ==== Proof.KRun.lean ====
/-
  What one grid point of the kernel leaves in its two output blocks, as the chain functions of the tiles it loads.

  A grid point holds one batch entry of each input as a block of 32 time steps.  The body loads single time steps
  of the two blocks, runs the stencil on time step 0, then once per loop trip k on time step k + 1 (with the time
  steps k + 2 and k for the time gradient), carrying the two running totals, then on time step 31, and stores the
  two tile sums.
-/
import proofs.«174142_j82669530514041_2_alg».proof.Proof.Gen.KernelIdeal.Frame
import proofs.«174142_j82669530514041_2_alg».proof.Proof.KChain
import Idealize.ShloMosaic.Lib.Pipeline.Value
import Idealize.ShloMosaic.Lib.WholeRead
import Idealize.ShloMosaic.Lib.ValueIdx

set_option maxRecDepth 16384

noncomputable section

namespace Cert.KRun

open Idealize.ShloMosaic Idealize.ShloMosaic.TcCoe Idealize.SL Idealize.SL.Sem
open Cert.KernelIdeal Cert.KernelIdeal.Gen Cert.KChain

variable {F : FTy → Type} [FloatOps F]

/-- One time step of a block held in a staging buffer: the load of the (1, 1, 256, 256) box at the offsets `off`. -/
def tileAt (arg : Memref sig .tc .vmem S1x32x256x256 .f32) (X : BufTy.Contents (Elt F) arg.view.ty) (off : Fin 4 → ℕ)
    (h : ∀ a, off a + S1x1x256x256.size a ≤ S1x32x256x256.size a) : Vec F S1x1x256x256 .f32 :=
  View.readAt (Elt F) arg.view (Rect.unit (s := S1x32x256x256) off S1x1x256x256.size h).toLoadRect X

/-- One loop trip adds the trip's time step to the two running totals. -/
theorem tripR_eq (𝒱 : Variants) (c : Dev nD) (bd : Option 𝒱.V) (i : grid0.Coords) (arg1 : Memref sig .tc .vmem S1x32x256x256 .f32) (harg1 : arg1.IsWhole) (arg2 : Memref sig .tc .vmem S1x32x256x256 .f32) (harg2 : arg2.IsWhole) (arg3 : Memref sig .tc .vmem S1x8x128 .f32) (harg3 : arg3.IsWhole) (arg4 : Memref sig .tc .vmem S1x8x128 .f32) (harg4 : arg4.IsWhole) (v59 : FVec F S256x256 .f32) (v118 : FVec F S256x256 .f32) (v230 : FVec F S256x256 .f32) (v234 : FVec F S256x256 .f32) (X1 : BufTy.Contents (Elt F) arg1.view.ty) (X2 : BufTy.Contents (Elt F) arg2.view.ty) (k : Fin k0_t1_loop.trips) (acc : FVec F S256x256 .f32 × FVec F S256x256 .f32) :
    tripR_k0_t1 (F := F) 𝒱 c bd i arg1 harg1 arg2 harg2 arg3 harg3 arg4 harg4 v59 v118 v230 v234 X1 X2 k acc
      = (loopAcc1 acc.1 (tileAt arg1 X1 (k0_off1 k) (k0_off1_inb k)) (tileAt arg2 X2 (k0_off1 k) (k0_off1_inb k))
            (tileAt arg1 X1 (k0_off2 k) (k0_off2_inb k)) (tileAt arg1 X1 (k0_off3 k) (k0_off3_inb k)),
         loopAcc2 acc.2 (tileAt arg1 X1 (k0_off1 k) (k0_off1_inb k)) (tileAt arg2 X2 (k0_off1 k) (k0_off1_inb k))) := by
  unfold tripR_k0_t1 trip_k0_t1
  rfl

/-- The all-zero offsets of a rank-3 box. -/
theorem off3_zero : (![0, 0, 0] : Fin S1x8x128.rank → ℕ) = fun _ => 0 := by
  funext a; match a with | ⟨0, _⟩ => rfl | ⟨1, _⟩ => rfl | ⟨2, _⟩ => rfl

section Point

variable (c : Dev nD) (i : grid0.Coords) (arg1 : Memref sig .tc .vmem S1x32x256x256 .f32) (harg1 : arg1.IsWhole) (arg2 : Memref sig .tc .vmem S1x32x256x256 .f32) (harg2 : arg2.IsWhole) (arg3 : Memref sig .tc .vmem S1x8x128 .f32) (harg3 : arg3.IsWhole) (arg4 : Memref sig .tc .vmem S1x8x128 .f32) (harg4 : arg4.IsWhole)
  (x0 : Vec F S1x32x256x256 .f32) (x1 : Vec F S1x32x256x256 .f32)

/-- Time steps 0, 1, 2 and 29, 30, 31 of the first block and 0, 31 of the second, as loaded. -/
abbrev p0 : Vec F S1x1x256x256 .f32 := tileAt arg1 (harg1.unread x0) ![0, 0, 0, 0] inb_S1x32x256x256_S1x1x256x256_0_0_0_0
abbrev p1 : Vec F S1x1x256x256 .f32 := tileAt arg1 (harg1.unread x0) ![0, 1, 0, 0] inb_S1x32x256x256_S1x1x256x256_0_1_0_0
abbrev p2 : Vec F S1x1x256x256 .f32 := tileAt arg1 (harg1.unread x0) ![0, 2, 0, 0] inb_S1x32x256x256_S1x1x256x256_0_2_0_0
abbrev p29 : Vec F S1x1x256x256 .f32 := tileAt arg1 (harg1.unread x0) ![0, 29, 0, 0] inb_S1x32x256x256_S1x1x256x256_0_29_0_0
abbrev p30 : Vec F S1x1x256x256 .f32 := tileAt arg1 (harg1.unread x0) ![0, 30, 0, 0] inb_S1x32x256x256_S1x1x256x256_0_30_0_0
abbrev p31 : Vec F S1x1x256x256 .f32 := tileAt arg1 (harg1.unread x0) ![0, 31, 0, 0] inb_S1x32x256x256_S1x1x256x256_0_31_0_0
abbrev k0 : Vec F S1x1x256x256 .f32 := tileAt arg2 (harg2.unread x1) ![0, 0, 0, 0] inb_S1x32x256x256_S1x1x256x256_0_0_0_0
abbrev k31 : Vec F S1x1x256x256 .f32 := tileAt arg2 (harg2.unread x1) ![0, 31, 0, 0] inb_S1x32x256x256_S1x1x256x256_0_31_0_0

/-- The two running totals before loop trip `n` (after time steps 0 … n). -/
def accAt (n : ℕ) : FVec F S256x256 .f32 × FVec F S256x256 .f32 :=
  st_k0_t1 (F := F) Variants.none c none i arg1 harg1 arg2 harg2 arg3 harg3 arg4 harg4
    (firstPdy (p0 arg1 harg1 x0)) (firstDivk (p0 arg1 harg1 x0) (k0 arg2 harg2 x1)) (firstKdy (k0 arg2 harg2 x1))
    (firstPartial (p0 arg1 harg1 x0) (k0 arg2 harg2 x1)) (harg1.unread x0) (harg2.unread x1)
    (firstTerm (p0 arg1 harg1 x0) (k0 arg2 harg2 x1) (p0 arg1 harg1 x0) (p1 arg1 harg1 x0) (p2 arg1 harg1 x0),
     firstMask (p0 arg1 harg1 x0) (k0 arg2 harg2 x1)) n

/-- What the body leaves in the first output block. -/
theorem out2_eq :
    out0_A_2 c i arg1 harg1 arg2 harg2 arg3 harg3 arg4 harg4 x0 x1
      = outNum (accAt c i arg1 harg1 arg2 harg2 arg3 harg3 arg4 harg4 x0 x1 30).1 (p31 arg1 harg1 x0) (k31 arg2 harg2 x1)
          (p31 arg1 harg1 x0) (p30 arg1 harg1 x0) (p29 arg1 harg1 x0) := by
  unfold out0_A_2
  rw [View.read_writes_eq_canon _ _ _ (cover0_A_2 c i arg1 harg1 arg2 harg2 arg3 harg3 arg4 harg4 x0 x1)]
  unfold kernelRun0_A
  dsimp only
  rw [View.canon_unit_zero off3_zero]
  rfl

/-- What the body leaves in the second output block. -/
theorem out3_eq :
    out0_A_3 c i arg1 harg1 arg2 harg2 arg3 harg3 arg4 harg4 x0 x1
      = outDen (accAt c i arg1 harg1 arg2 harg2 arg3 harg3 arg4 harg4 x0 x1 30).2 (p31 arg1 harg1 x0) (k31 arg2 harg2 x1) := by
  unfold out0_A_3
  rw [View.read_writes_eq_canon _ _ _ (cover0_A_3 c i arg1 harg1 arg2 harg2 arg3 harg3 arg4 harg4 x0 x1)]
  unfold kernelRun0_A
  dsimp only
  rw [View.canon_unit_zero off3_zero]
  rfl

end Point

/-! ### Reading the loads -/

open Idealize.ShloMosaic.ValueIdx

/-- The tile loaded at time-step offset `s` of a whole staging buffer holding the block `x`, at (0, 0, h, w), is the
    block at (0, s, h, w). -/
theorem tileAt_apply (arg : Memref sig .tc .vmem S1x32x256x256 .f32) (harg : arg.IsWhole) (x : Vec F S1x32x256x256 .f32)
    (off : Fin 4 → ℕ) (hin : ∀ a, off a + S1x1x256x256.size a ≤ S1x32x256x256.size a) (s : Fin 32)
    (hoff : off = ![0, s.val, 0, 0]) (h w : Fin 256) :
    tileAt arg (harg.unread x) off hin (ix4 0 0 h w) = x (ix4 0 s h w) := by
  subst hoff
  unfold tileAt
  rw [harg.readAt_unread]
  refine congrArg x (funext fun d => Fin.ext ?_)
  match d with
  | ⟨0, _⟩ => rfl
  | ⟨1, _⟩ => show s.val + 1 * 0 = s.val; omega
  | ⟨2, _⟩ => show 0 + 1 * h.val = h.val; omega
  | ⟨3, _⟩ => show 0 + 1 * w.val = w.val; omega

end Cert.KRun

end
-- ==== Proof.Stencil.lean ====
/-
  The per-element mathematics of the loss, as functions of the four coordinates (batch, time, row, column).

  A field is a function of four coordinates into the extended reals.  The second-order finite-difference
  gradient of a sequence g(0), …, g(n-1) with the scale c is
    at 0        :  ((-3)·g(0) + 4·g(1) − g(2))·c
    at n−1      :  (3·g(n−1) − 4·g(n−2) + g(n−3))·c
    in between  :  (g(i+1) − g(i−1))·c
  with the operations grouped exactly as written.  Taking it along the rows, the columns or the time axis of a
  field gives the three directional gradients; the divergence, its expanded form, the mask (1 where the two
  differ by less than 100, else 0), the residual and the masked square are built from them pointwise, and the
  two totals of a batch entry are sums over time, rows and columns.
-/
import Idealize.ShloMosaic.PureOps.Ideal
import Idealize.ShloMosaic.Lib.ValueIdx

noncomputable section

open scoped BigOperators

namespace Cert.Stencil

open Idealize.ShloMosaic

/-- The extended real an f32 word denotes. -/
abbrev lit (w : BitVec 32) : EReal := FloatOps.ofBits (F := Ideal) .f32 w

/-- −3, 4, 3. -/
abbrev cM3 : EReal := lit 0xC0400000#32
abbrev c4 : EReal := lit 0x40800000#32
abbrev c3 : EReal := lit 0x40400000#32
/-- The scales 1/(2·25) and 1/(2·50) as f32 words, one half, the storage coefficient 2e-4 and the threshold 100. -/
abbrev cHx : EReal := lit 0x3CA3D70A#32
abbrev cHy : EReal := lit 0x3C23D70A#32
abbrev cHalf : EReal := lit 0x3F000000#32
abbrev cS : EReal := lit 0x3951B717#32
abbrev c100 : EReal := lit 0x42C80000#32

/-- The second-order gradient of the sequence `g` of length `n` at position `i`, scaled by `c`. -/
def grad (n : ℕ) (c : EReal) (g : ℕ → EReal) (i : ℕ) : EReal :=
  if i = 0 then ((cM3 * g 0 + c4 * g 1) - g 2) * c
  else if i = n - 1 then ((c3 * g (n - 1) - c4 * g (n - 2)) + g (n - 3)) * c
  else (g (i + 1) - g (i - 1)) * c

theorem grad_zero (n : ℕ) (c : EReal) (g : ℕ → EReal) : grad n c g 0 = ((cM3 * g 0 + c4 * g 1) - g 2) * c := by
  unfold grad; rw [if_pos rfl]

theorem grad_last (n : ℕ) (hn : 2 ≤ n) (c : EReal) (g : ℕ → EReal) :
    grad n c g (n - 1) = ((c3 * g (n - 1) - c4 * g (n - 2)) + g (n - 3)) * c := by
  unfold grad; rw [if_neg (by omega), if_pos rfl]

theorem grad_mid (n : ℕ) (c : EReal) (g : ℕ → EReal) (i : ℕ) (h0 : i ≠ 0) (h1 : i ≠ n - 1) :
    grad n c g i = (g (i + 1) - g (i - 1)) * c := by
  unfold grad; rw [if_neg h0, if_neg h1]

/-- The gradient only looks at positions below `n`. -/
theorem grad_congr (n : ℕ) (hn : 3 ≤ n) (c : EReal) (g g' : ℕ → EReal) (h : ∀ k, k < n → g k = g' k) (i : ℕ) (hi : i < n) :
    grad n c g i = grad n c g' i := by
  unfold grad
  rw [h 0 (by omega), h 1 (by omega), h 2 (by omega), h (n - 1) (by omega), h (n - 2) (by omega), h (n - 3) (by omega)]
  by_cases h0 : i = 0
  · rw [if_pos h0, if_pos h0]
  · rw [if_neg h0, if_neg h0]
    by_cases h1 : i = n - 1
    · rw [if_pos h1, if_pos h1]
    · rw [if_neg h1, if_neg h1, h (i + 1) (by omega), h (i - 1) (by omega)]

/-- A field over batch, time, row, column. -/
abbrev Field : Type := Fin 16 → Fin 32 → Fin 256 → Fin 256 → EReal

/-- The gradient along the rows. -/
def gH (c : EReal) (A : Field) : Field := fun b t h w =>
  grad 256 c (fun i => if hi : i < 256 then A b t ⟨i, hi⟩ w else 0) h.val

/-- The gradient along the columns. -/
def gW (c : EReal) (A : Field) : Field := fun b t h w =>
  grad 256 c (fun i => if hi : i < 256 then A b t h ⟨i, hi⟩ else 0) w.val

/-- The gradient along time. -/
def gT (c : EReal) (A : Field) : Field := fun b t h w =>
  grad 32 c (fun i => if hi : i < 32 then A b ⟨i, hi⟩ h w else 0) t.val

/-- The pointwise product and sum of two fields. -/
def fmul (A B : Field) : Field := fun b t h w => A b t h w * B b t h w
def fadd (A B : Field) : Field := fun b t h w => A b t h w + B b t h w

/-- ∂p/∂x and ∂p/∂y. -/
def pdx (P : Field) : Field := gH cHx P
def pdy (P : Field) : Field := gW cHy P

/-- div(K ∇p) = ∂x(K·∂x p) + ∂y(K·∂y p). -/
def divk (P K : Field) : Field := fadd (gH cHx (fmul K (pdx P))) (gW cHy (fmul K (pdy P)))

/-- The expanded form (∂xx p + ∂yy p)·K + ∂x p·∂x K + ∂y p·∂y K. -/
def divk2 (P K : Field) : Field :=
  fadd (fadd (fmul (fadd (gH cHx (pdx P)) (gW cHy (pdy P))) K) (fmul (pdx P) (gH cHx K))) (fmul (pdy P) (gW cHy K))

/-- 1 where |x| < 100, else 0 (the comparison's one-bit answer read as a number). -/
def maskOf (x : EReal) : EReal :=
  FloatOps.uitofp (F := Ideal) .f32 (FloatOps.cmpf (F := Ideal) (φ := .f32) .olt (FloatOps.absf (F := Ideal) (φ := .f32) x) c100)

/-- The mask field. -/
def mask (P K : Field) : Field := fun b t h w => maskOf (divk P K b t h w - divk2 P K b t h w)

/-- The residual div(K ∇p) − S·∂t p. -/
def resid (P K : Field) : Field := fun b t h w => divk P K b t h w - gT cHalf P b t h w * cS

/-- The masked square of the residual. -/
def term (P K : Field) : Field := fun b t h w => (resid P K b t h w * resid P K b t h w) * mask P K b t h w

/-- The two totals of batch entry `b`. -/
def num (P K : Field) (b : Fin 16) : EReal := ∑ t : Fin 32, ∑ h : Fin 256, ∑ w : Fin 256, term P K b t h w
def den (P K : Field) (b : Fin 16) : EReal := ∑ t : Fin 32, ∑ h : Fin 256, ∑ w : Fin 256, mask P K b t h w

/-- A rank-4 array as a field, and a rank-2 array as a function of row and column. -/
abbrev cur4 (X : (⟨4, ![16, 32, 256, 256]⟩ : Shape).Idx → EReal) : Field := fun b t h w => X (ValueIdx.ix4 b t h w)
abbrev cur2 (f : (⟨2, ![256, 256]⟩ : Shape).Idx → EReal) : Fin 256 → Fin 256 → EReal := fun h w => f (ValueIdx.ix2 h w)

/-- A loaded tile (one time step of a block, carried with two leading unit axes) holds time step `t` of batch entry `b`
    of the field `X`. -/
def Holds (X : Field) (b : Fin 16) (t : Fin 32) (v : (⟨4, ![1, 1, 256, 256]⟩ : Shape).Idx → EReal) : Prop :=
  ∀ h w : Fin 256, v (ValueIdx.ix4 0 0 h w) = X b t h w

end Cert.Stencil

end
-- ==== Proof.KSlice.lean ====
/-
  The kernel body's per-time-step arithmetic, read at one row and column.

  The body computes, on (256, 256) tiles, second-order finite-difference gradients along the rows and along the
  columns: the interior by a centred difference of two shifted blocks, the two border rows (columns) by one-sided
  three-point formulas, the three pieces laid end to end.  Read at a row and a column, each such gradient is the
  gradient of the sequence of the tile's entries along that axis; the divergence, its expanded form, the mask, the
  residual and the masked square follow pointwise.
-/
import proofs.«174142_j82669530514041_2_alg».proof.Proof.Gen.KernelIdeal.Skeleton
import proofs.«174142_j82669530514041_2_alg».proof.Proof.Stencil
import Idealize.ShloMosaic.Lib.ValueIdx
import Idealize.ShloMosaic.Lib.Pipeline.Value

noncomputable section

namespace Cert.KSlice

open Cert.KernelIdeal Cert.KernelIdeal.Gen Cert.Stencil Idealize.ShloMosaic Idealize.ShloMosaic.ValueIdx

/-! ### Blocks and concatenations of a (256, 256) tile, read at a pair of coordinates -/

/-- A block of a rank-2 array read at (a, b) is the array at the coordinates shifted by the block's offsets. -/
theorem slice_apply {α : Type} {m0 m1 n0 n1 : Nat} (o0 o1 : Nat) (f : (⟨2, ![m0, m1]⟩ : Shape).Idx → α)
    (hs : (⟨2, ![m0, m1]⟩ : Shape).Slices ![o0, o1] ⟨2, ![n0, n1]⟩) (a : Fin n0) (b : Fin n1)
    (h0 : o0 + a.val < m0) (h1 : o1 + b.val < m1) :
    extractStridedSlice ⟨2, ![n0, n1]⟩ ![o0, o1] f hs (ix2 a b) = f (ix2 ⟨o0 + a.val, h0⟩ ⟨o1 + b.val, h1⟩) := by
  refine extractStridedSlice_apply _ _ _ _ _ (fun c => ?_)
  match c with
  | ⟨0, _⟩ => rfl
  | ⟨1, _⟩ => rfl

/-- A block of a (256, 256) tile read at (a, b) is the tile at the coordinates shifted by the block's offsets. -/
theorem slice_at {α : Type} {n0 n1 : Nat} (o0 o1 : Nat) (f : S256x256.Idx → α)
    (hs : S256x256.Slices ![o0, o1] ⟨2, ![n0, n1]⟩) (a : Fin n0) (b : Fin n1) (k0 k1 : Fin 256)
    (h0 : k0.val = o0 + a.val) (h1 : k1.val = o1 + b.val) :
    extractStridedSlice ⟨2, ![n0, n1]⟩ ![o0, o1] f hs (ix2 a b) = f (ix2 k0 k1) := by
  refine extractStridedSlice_apply _ _ _ _ _ (fun c => ?_)
  match c with
  | ⟨0, _⟩ => exact h0
  | ⟨1, _⟩ => exact h1

/-- Row 0 of (one row, 254 rows, one row) laid end to end is the first piece's row. -/
theorem catRows_first {α : Type} (x0 : S1x256.Idx → α) (x1 : S254x256.Idx → α) (x2 : S1x256.Idx → α)
    (hc : Shape.Concatenates [S1x256, S254x256, S1x256] S256x256 0) (h w' : Fin 256) (hh : h.val = 0) :
    concatenate S256x256 0 [⟨S1x256, x0⟩, ⟨S254x256, x1⟩, ⟨S1x256, x2⟩] hc (ix2 h w') = x0 (ix2 ⟨0, by decide⟩ w') := by
  refine concatenate_apply_piece (t := S256x256) (0 : Fin 2) [⟨S1x256, x0⟩, ⟨S254x256, x1⟩, ⟨S1x256, x2⟩] hc (ix2 h w') 0 (by show (0 : Nat) < 3; omega) S1x256 x0 rfl rfl 0 rfl (ix2 ⟨0, by decide⟩ w') ?_ ?_
  · intro b hb
    match b with
    | ⟨0, _⟩ => exact absurd rfl hb
    | ⟨1, _⟩ => rfl
  · show 0 + 0 = h.val
    omega

/-- Rows 1…254 are the middle piece's rows 0…253. -/
theorem catRows_mid {α : Type} (x0 : S1x256.Idx → α) (x1 : S254x256.Idx → α) (x2 : S1x256.Idx → α)
    (hc : Shape.Concatenates [S1x256, S254x256, S1x256] S256x256 0) (h w' : Fin 256) (h0 : h.val ≠ 0) (h1 : h.val ≠ 255) :
    concatenate S256x256 0 [⟨S1x256, x0⟩, ⟨S254x256, x1⟩, ⟨S1x256, x2⟩] hc (ix2 h w')
      = x1 (ix2 ⟨h.val - 1, by omega⟩ w') := by
  refine concatenate_apply_piece (t := S256x256) (0 : Fin 2) [⟨S1x256, x0⟩, ⟨S254x256, x1⟩, ⟨S1x256, x2⟩] hc (ix2 h w') 1 (by show (1 : Nat) < 3; omega) S254x256 x1 rfl rfl 1 rfl (ix2 ⟨h.val - 1, by omega⟩ w') ?_ ?_
  · intro b hb
    match b with
    | ⟨0, _⟩ => exact absurd rfl hb
    | ⟨1, _⟩ => rfl
  · show 1 + (h.val - 1) = h.val
    omega

/-- Row 255 is the last piece's row. -/
theorem catRows_last {α : Type} (x0 : S1x256.Idx → α) (x1 : S254x256.Idx → α) (x2 : S1x256.Idx → α)
    (hc : Shape.Concatenates [S1x256, S254x256, S1x256] S256x256 0) (h w' : Fin 256) (hh : h.val = 255) :
    concatenate S256x256 0 [⟨S1x256, x0⟩, ⟨S254x256, x1⟩, ⟨S1x256, x2⟩] hc (ix2 h w') = x2 (ix2 ⟨0, by decide⟩ w') := by
  refine concatenate_apply_piece (t := S256x256) (0 : Fin 2) [⟨S1x256, x0⟩, ⟨S254x256, x1⟩, ⟨S1x256, x2⟩] hc (ix2 h w') 2 (by show (2 : Nat) < 3; omega) S1x256 x2 rfl rfl 255 rfl (ix2 ⟨0, by decide⟩ w') ?_ ?_
  · intro b hb
    match b with
    | ⟨0, _⟩ => exact absurd rfl hb
    | ⟨1, _⟩ => rfl
  · show 255 + 0 = h.val
    omega

/-- Column 0 of (one column, 254 columns, one column) laid side by side is the first piece's column. -/
theorem catCols_first {α : Type} (x0 : S256x1.Idx → α) (x1 : S256x254.Idx → α) (x2 : S256x1.Idx → α)
    (hc : Shape.Concatenates [S256x1, S256x254, S256x1] S256x256 1) (h w' : Fin 256) (hh : w'.val = 0) :
    concatenate S256x256 1 [⟨S256x1, x0⟩, ⟨S256x254, x1⟩, ⟨S256x1, x2⟩] hc (ix2 h w') = x0 (ix2 h ⟨0, by decide⟩) := by
  refine concatenate_apply_piece (t := S256x256) (1 : Fin 2) [⟨S256x1, x0⟩, ⟨S256x254, x1⟩, ⟨S256x1, x2⟩] hc (ix2 h w') 0 (by show (0 : Nat) < 3; omega) S256x1 x0 rfl rfl 0 rfl (ix2 h ⟨0, by decide⟩) ?_ ?_
  · intro b hb
    match b with
    | ⟨0, _⟩ => rfl
    | ⟨1, _⟩ => exact absurd rfl hb
  · show 0 + 0 = w'.val
    omega

/-- Columns 1…254 are the middle piece's columns 0…253. -/
theorem catCols_mid {α : Type} (x0 : S256x1.Idx → α) (x1 : S256x254.Idx → α) (x2 : S256x1.Idx → α)
    (hc : Shape.Concatenates [S256x1, S256x254, S256x1] S256x256 1) (h w' : Fin 256) (h0 : w'.val ≠ 0) (h1 : w'.val ≠ 255) :
    concatenate S256x256 1 [⟨S256x1, x0⟩, ⟨S256x254, x1⟩, ⟨S256x1, x2⟩] hc (ix2 h w')
      = x1 (ix2 h ⟨w'.val - 1, by omega⟩) := by
  refine concatenate_apply_piece (t := S256x256) (1 : Fin 2) [⟨S256x1, x0⟩, ⟨S256x254, x1⟩, ⟨S256x1, x2⟩] hc (ix2 h w') 1 (by show (1 : Nat) < 3; omega) S256x254 x1 rfl rfl 1 rfl (ix2 h ⟨w'.val - 1, by omega⟩) ?_ ?_
  · intro b hb
    match b with
    | ⟨0, _⟩ => rfl
    | ⟨1, _⟩ => exact absurd rfl hb
  · show 1 + (w'.val - 1) = w'.val
    omega

/-- Column 255 is the last piece's column. -/
theorem catCols_last {α : Type} (x0 : S256x1.Idx → α) (x1 : S256x254.Idx → α) (x2 : S256x1.Idx → α)
    (hc : Shape.Concatenates [S256x1, S256x254, S256x1] S256x256 1) (h w' : Fin 256) (hh : w'.val = 255) :
    concatenate S256x256 1 [⟨S256x1, x0⟩, ⟨S256x254, x1⟩, ⟨S256x1, x2⟩] hc (ix2 h w') = x2 (ix2 h ⟨0, by decide⟩) := by
  refine concatenate_apply_piece (t := S256x256) (1 : Fin 2) [⟨S256x1, x0⟩, ⟨S256x254, x1⟩, ⟨S256x1, x2⟩] hc (ix2 h w') 2 (by show (2 : Nat) < 3; omega) S256x1 x2 rfl rfl 255 rfl (ix2 h ⟨0, by decide⟩) ?_ ?_
  · intro b hb
    match b with
    | ⟨0, _⟩ => rfl
    | ⟨1, _⟩ => exact absurd rfl hb
  · show 255 + 0 = w'.val
    omega

/-! ### The two spatial gradients -/

/-- The second-order gradient along the rows (axis 0) of a (256, 256) tile, scaled by the f32 word `w`:
    rows 1…254 by the centred difference, rows 0 and 255 by the one-sided three-point formulas, laid end to end. -/
def gradRows (w : BitVec 32) (f : FVec Ideal S256x256 .f32) : FVec Ideal S256x256 .f32 :=
  have v4 : FVec Ideal S254x256 .f32 := extractStridedSlice S254x256 ![2, 0] f slices_S256x256_o2_0_S254x256
  have v5 : FVec Ideal S254x256 .f32 := extractStridedSlice S254x256 ![0, 0] f slices_S256x256_o0_0_S254x256
  have v6 : FVec Ideal S254x256 .f32 := subf v4 v5
  have cst : Ideal .f32 := Scalar.ofBits .f32 w
  have v7 : FVec Ideal S254x256 .f32 := broadcast S254x256 cst
  have v8 : FVec Ideal S254x256 .f32 := mulf v6 v7
  have v9 : FVec Ideal S1x256 .f32 := extractStridedSlice S1x256 ![0, 0] f slices_S256x256_o0_0_S1x256
  have cst_7 : Ideal .f32 := Scalar.ofBits .f32 0xC0400000#32
  have v10 : FVec Ideal S1x256 .f32 := broadcast S1x256 cst_7
  have v11 : FVec Ideal S1x256 .f32 := mulf v10 v9
  have v12 : FVec Ideal S1x256 .f32 := extractStridedSlice S1x256 ![1, 0] f slices_S256x256_o1_0_S1x256
  have cst_8 : Ideal .f32 := Scalar.ofBits .f32 0x40800000#32
  have v13 : FVec Ideal S1x256 .f32 := broadcast S1x256 cst_8
  have v14 : FVec Ideal S1x256 .f32 := mulf v13 v12
  have v15 : FVec Ideal S1x256 .f32 := addf v11 v14
  have v16 : FVec Ideal S1x256 .f32 := extractStridedSlice S1x256 ![2, 0] f slices_S256x256_o2_0_S1x256
  have v17 : FVec Ideal S1x256 .f32 := subf v15 v16
  have cst_9 : Ideal .f32 := Scalar.ofBits .f32 w
  have v18 : FVec Ideal S1x256 .f32 := broadcast S1x256 cst_9
  have v19 : FVec Ideal S1x256 .f32 := mulf v17 v18
  have v20 : FVec Ideal S1x256 .f32 := extractStridedSlice S1x256 ![255, 0] f slices_S256x256_o255_0_S1x256
  have cst_10 : Ideal .f32 := Scalar.ofBits .f32 0x40400000#32
  have v21 : FVec Ideal S1x256 .f32 := broadcast S1x256 cst_10
  have v22 : FVec Ideal S1x256 .f32 := mulf v21 v20
  have v23 : FVec Ideal S1x256 .f32 := extractStridedSlice S1x256 ![254, 0] f slices_S256x256_o254_0_S1x256
  have cst_11 : Ideal .f32 := Scalar.ofBits .f32 0x40800000#32
  have v24 : FVec Ideal S1x256 .f32 := broadcast S1x256 cst_11
  have v25 : FVec Ideal S1x256 .f32 := mulf v24 v23
  have v26 : FVec Ideal S1x256 .f32 := subf v22 v25
  have v27 : FVec Ideal S1x256 .f32 := extractStridedSlice S1x256 ![253, 0] f slices_S256x256_o253_0_S1x256
  have v28 : FVec Ideal S1x256 .f32 := addf v26 v27
  have cst_12 : Ideal .f32 := Scalar.ofBits .f32 w
  have v29 : FVec Ideal S1x256 .f32 := broadcast S1x256 cst_12
  have v30 : FVec Ideal S1x256 .f32 := mulf v28 v29
  have v31 : FVec Ideal S256x256 .f32 := concatenate S256x256 0 [⟨S1x256, v19⟩, ⟨S254x256, v8⟩, ⟨S1x256, v30⟩] concatenates_S1x256_S254x256_S1x256_S256x256_d0
  v31

/-- The second-order gradient along the columns (axis 1) of a (256, 256) tile, scaled by the f32 word `w`:
    columns 1…254 by the centred difference, columns 0 and 255 by the one-sided three-point formulas. -/
def gradCols (w : BitVec 32) (f : FVec Ideal S256x256 .f32) : FVec Ideal S256x256 .f32 :=
  have v32 : FVec Ideal S256x254 .f32 := extractStridedSlice S256x254 ![0, 2] f slices_S256x256_o0_2_S256x254
  have v33 : FVec Ideal S256x254 .f32 := extractStridedSlice S256x254 ![0, 0] f slices_S256x256_o0_0_S256x254
  have v34 : FVec Ideal S256x254 .f32 := subf v32 v33
  have cst_13 : Ideal .f32 := Scalar.ofBits .f32 w
  have v35 : FVec Ideal S256x254 .f32 := broadcast S256x254 cst_13
  have v36 : FVec Ideal S256x254 .f32 := mulf v34 v35
  have v37 : FVec Ideal S256x1 .f32 := extractStridedSlice S256x1 ![0, 0] f slices_S256x256_o0_0_S256x1
  have cst_14 : Ideal .f32 := Scalar.ofBits .f32 0xC0400000#32
  have v38 : FVec Ideal S256x1 .f32 := broadcast S256x1 cst_14
  have v39 : FVec Ideal S256x1 .f32 := mulf v38 v37
  have v40 : FVec Ideal S256x1 .f32 := extractStridedSlice S256x1 ![0, 1] f slices_S256x256_o0_1_S256x1
  have cst_15 : Ideal .f32 := Scalar.ofBits .f32 0x40800000#32
  have v41 : FVec Ideal S256x1 .f32 := broadcast S256x1 cst_15
  have v42 : FVec Ideal S256x1 .f32 := mulf v41 v40
  have v43 : FVec Ideal S256x1 .f32 := addf v39 v42
  have v44 : FVec Ideal S256x1 .f32 := extractStridedSlice S256x1 ![0, 2] f slices_S256x256_o0_2_S256x1
  have v45 : FVec Ideal S256x1 .f32 := subf v43 v44
  have cst_16 : Ideal .f32 := Scalar.ofBits .f32 w
  have v46 : FVec Ideal S256x1 .f32 := broadcast S256x1 cst_16
  have v47 : FVec Ideal S256x1 .f32 := mulf v45 v46
  have v48 : FVec Ideal S256x1 .f32 := extractStridedSlice S256x1 ![0, 255] f slices_S256x256_o0_255_S256x1
  have cst_17 : Ideal .f32 := Scalar.ofBits .f32 0x40400000#32
  have v49 : FVec Ideal S256x1 .f32 := broadcast S256x1 cst_17
  have v50 : FVec Ideal S256x1 .f32 := mulf v49 v48
  have v51 : FVec Ideal S256x1 .f32 := extractStridedSlice S256x1 ![0, 254] f slices_S256x256_o0_254_S256x1
  have cst_18 : Ideal .f32 := Scalar.ofBits .f32 0x40800000#32
  have v52 : FVec Ideal S256x1 .f32 := broadcast S256x1 cst_18
  have v53 : FVec Ideal S256x1 .f32 := mulf v52 v51
  have v54 : FVec Ideal S256x1 .f32 := subf v50 v53
  have v55 : FVec Ideal S256x1 .f32 := extractStridedSlice S256x1 ![0, 253] f slices_S256x256_o0_253_S256x1
  have v56 : FVec Ideal S256x1 .f32 := addf v54 v55
  have cst_19 : Ideal .f32 := Scalar.ofBits .f32 w
  have v57 : FVec Ideal S256x1 .f32 := broadcast S256x1 cst_19
  have v58 : FVec Ideal S256x1 .f32 := mulf v56 v57
  have v59 : FVec Ideal S256x256 .f32 := concatenate S256x256 1 [⟨S256x1, v47⟩, ⟨S256x254, v36⟩, ⟨S256x1, v58⟩] concatenates_S256x1_S256x254_S256x1_S256x256_d1
  v59

theorem gradRows_cur (w : BitVec 32) (f : FVec Ideal S256x256 .f32) (h w' : Fin 256) :
    gradRows w f (ix2 h w') = grad 256 (lit w) (fun i => if hi : i < 256 then f (ix2 ⟨i, hi⟩ w') else 0) h.val := by
  unfold gradRows
  by_cases h0 : h.val = 0
  · rw [h0, grad_zero]
    refine (catRows_first _ _ _ _ h w' h0).trans ?_
    simp only [mulf_apply, subf_apply, addf_apply, broadcast_apply]
    rw [slice_at 0 0 f _ _ w' ⟨0, by decide⟩ w' rfl (Nat.zero_add _).symm,
      slice_at 1 0 f _ _ w' ⟨1, by decide⟩ w' rfl (Nat.zero_add _).symm,
      slice_at 2 0 f _ _ w' ⟨2, by decide⟩ w' rfl (Nat.zero_add _).symm]
    rw [dif_pos (by decide : (0 : ℕ) < 256), dif_pos (by decide : (1 : ℕ) < 256), dif_pos (by decide : (2 : ℕ) < 256)]
  · by_cases h1 : h.val = 255
    · rw [h1, grad_last 256 (by decide)]
      refine (catRows_last _ _ _ _ h w' h1).trans ?_
      simp only [mulf_apply, subf_apply, addf_apply, broadcast_apply]
      rw [slice_at 255 0 f _ _ w' ⟨255, by decide⟩ w' rfl (Nat.zero_add _).symm,
        slice_at 254 0 f _ _ w' ⟨254, by decide⟩ w' rfl (Nat.zero_add _).symm,
        slice_at 253 0 f _ _ w' ⟨253, by decide⟩ w' rfl (Nat.zero_add _).symm]
      rw [dif_pos (by decide : (256 - 1 : ℕ) < 256), dif_pos (by decide : (256 - 2 : ℕ) < 256), dif_pos (by decide : (256 - 3 : ℕ) < 256)]
    · rw [grad_mid 256 _ _ _ h0 (by omega)]
      refine (catRows_mid _ _ _ _ h w' h0 h1).trans ?_
      simp only [mulf_apply, subf_apply, broadcast_apply]
      rw [slice_at 2 0 f _ _ w' ⟨h.val + 1, by omega⟩ w' (by show h.val + 1 = 2 + (h.val - 1); omega) (Nat.zero_add _).symm,
        slice_at 0 0 f _ _ w' ⟨h.val - 1, by omega⟩ w' (by show h.val - 1 = 0 + (h.val - 1); omega) (Nat.zero_add _).symm]
      rw [dif_pos (by omega : h.val + 1 < 256), dif_pos (by omega : h.val - 1 < 256)]

theorem gradCols_cur (w : BitVec 32) (f : FVec Ideal S256x256 .f32) (h w' : Fin 256) :
    gradCols w f (ix2 h w') = grad 256 (lit w) (fun i => if hi : i < 256 then f (ix2 h ⟨i, hi⟩) else 0) w'.val := by
  unfold gradCols
  by_cases h0 : w'.val = 0
  · rw [h0, grad_zero]
    refine (catCols_first _ _ _ _ h w' h0).trans ?_
    simp only [mulf_apply, subf_apply, addf_apply, broadcast_apply]
    rw [slice_at 0 0 f _ h _ h ⟨0, by decide⟩ (Nat.zero_add _).symm rfl,
      slice_at 0 1 f _ h _ h ⟨1, by decide⟩ (Nat.zero_add _).symm rfl,
      slice_at 0 2 f _ h _ h ⟨2, by decide⟩ (Nat.zero_add _).symm rfl]
    rw [dif_pos (by decide : (0 : ℕ) < 256), dif_pos (by decide : (1 : ℕ) < 256), dif_pos (by decide : (2 : ℕ) < 256)]
  · by_cases h1 : w'.val = 255
    · rw [h1, grad_last 256 (by decide)]
      refine (catCols_last _ _ _ _ h w' h1).trans ?_
      simp only [mulf_apply, subf_apply, addf_apply, broadcast_apply]
      rw [slice_at 0 255 f _ h _ h ⟨255, by decide⟩ (Nat.zero_add _).symm rfl,
        slice_at 0 254 f _ h _ h ⟨254, by decide⟩ (Nat.zero_add _).symm rfl,
        slice_at 0 253 f _ h _ h ⟨253, by decide⟩ (Nat.zero_add _).symm rfl]
      rw [dif_pos (by decide : (256 - 1 : ℕ) < 256), dif_pos (by decide : (256 - 2 : ℕ) < 256), dif_pos (by decide : (256 - 3 : ℕ) < 256)]
    · rw [grad_mid 256 _ _ _ h0 (by omega)]
      refine (catCols_mid _ _ _ _ h w' h0 h1).trans ?_
      simp only [mulf_apply, subf_apply, broadcast_apply]
      rw [slice_at 0 2 f _ h _ h ⟨w'.val + 1, by omega⟩ (Nat.zero_add _).symm (by show w'.val + 1 = 2 + (w'.val - 1); omega),
        slice_at 0 0 f _ h _ h ⟨w'.val - 1, by omega⟩ (Nat.zero_add _).symm (by show w'.val - 1 = 0 + (w'.val - 1); omega)]
      rw [dif_pos (by omega : w'.val + 1 < 256), dif_pos (by omega : w'.val - 1 < 256)]

/-! ### The divergence, its expanded form and the mask -/

/-- The two spatial scales as f32 words. -/
abbrev wHx : BitVec 32 := 0x3CA3D70A#32
abbrev wHy : BitVec 32 := 0x3C23D70A#32

/-- A tile's row gradient is the field's, when the tile holds one batch entry and time step of the field. -/
theorem gradRows_field (w : BitVec 32) (A : Field) (b : Fin 16) (t : Fin 32) (f : FVec Ideal S256x256 .f32)
    (hf : ∀ h w', f (ix2 h w') = A b t h w') (h w' : Fin 256) :
    gradRows w f (ix2 h w') = gH (lit w) A b t h w' := by
  rw [gradRows_cur]
  unfold gH
  simp only [hf]

/-- A tile's column gradient is the field's. -/
theorem gradCols_field (w : BitVec 32) (A : Field) (b : Fin 16) (t : Fin 32) (f : FVec Ideal S256x256 .f32)
    (hf : ∀ h w', f (ix2 h w') = A b t h w') (h w' : Fin 256) :
    gradCols w f (ix2 h w') = gW (lit w) A b t h w' := by
  rw [gradCols_cur]
  unfold gW
  simp only [hf]

/-- The product of two tiles holds the product of the fields. -/
theorem mulf_field (A B : Field) (b : Fin 16) (t : Fin 32) (f g : FVec Ideal S256x256 .f32)
    (hf : ∀ h w', f (ix2 h w') = A b t h w') (hg : ∀ h w', g (ix2 h w') = B b t h w') (h w' : Fin 256) :
    mulf f g (ix2 h w') = fmul A B b t h w' := by
  show f (ix2 h w') * g (ix2 h w') = A b t h w' * B b t h w'
  rw [hf, hg]

/-- The sum of two tiles holds the sum of the fields. -/
theorem addf_field (A B : Field) (b : Fin 16) (t : Fin 32) (f g : FVec Ideal S256x256 .f32)
    (hf : ∀ h w', f (ix2 h w') = A b t h w') (hg : ∀ h w', g (ix2 h w') = B b t h w') (h w' : Fin 256) :
    addf f g (ix2 h w') = fadd A B b t h w' := by
  show f (ix2 h w') + g (ix2 h w') = A b t h w' + B b t h w'
  rw [hf, hg]

/-- div(K ∇p) on tiles: ∂x(K·∂x p) + ∂y(K·∂y p). -/
def divkV (p k : FVec Ideal S256x256 .f32) : FVec Ideal S256x256 .f32 :=
  addf (gradRows wHx (mulf k (gradRows wHx p))) (gradCols wHy (mulf k (gradCols wHy p)))

/-- The expanded form on tiles: ((∂xx p + ∂yy p)·K + ∂x p·∂x K) + ∂y p·∂y K. -/
def divk2V (p k : FVec Ideal S256x256 .f32) : FVec Ideal S256x256 .f32 :=
  addf (addf (mulf (addf (gradRows wHx (gradRows wHx p)) (gradCols wHy (gradCols wHy p))) k)
      (mulf (gradRows wHx p) (gradRows wHx k)))
    (mulf (gradCols wHy p) (gradCols wHy k))

/-- The mask on tiles: 1 where the two forms differ by less than 100, else 0. -/
def maskV (p k : FVec Ideal S256x256 .f32) : FVec Ideal S256x256 .f32 :=
  sitofp .f32 (extui 32 (cmpf .olt (absf (subf (divkV p k) (divk2V p k))) (broadcast S256x256 (Scalar.ofBits .f32 0x42C80000#32))) natLt_1_32)

/-- A one-bit answer, widened to 32 bits and read signed, is the bit read unsigned: 0 or 1 either way. -/
theorem sitofp_setWidth_bit (c : BitVec 1) :
    FloatOps.sitofp (F := Ideal) .f32 (c.setWidth 32) = FloatOps.uitofp (F := Ideal) .f32 c := by
  rcases BitVec.eq_zero_or_eq_one c with rfl | rfl
  · show (((BitVec.setWidth 32 0#1).toInt : ℝ) : EReal) = (((0#1 : BitVec 1).toNat : ℝ) : EReal)
    have e1 : (BitVec.setWidth 32 0#1).toInt = 0 := by decide
    have e2 : (0#1 : BitVec 1).toNat = 0 := by decide
    rw [e1, e2]; simp
  · show (((BitVec.setWidth 32 1#1).toInt : ℝ) : EReal) = (((1#1 : BitVec 1).toNat : ℝ) : EReal)
    have e1 : (BitVec.setWidth 32 1#1).toInt = 1 := by decide
    have e2 : (1#1 : BitVec 1).toNat = 1 := by decide
    rw [e1, e2]; simp

section Cur
variable (P K : Field) (b : Fin 16) (t : Fin 32) (p k : FVec Ideal S256x256 .f32)
  (hp : ∀ h w, p (ix2 h w) = P b t h w) (hk : ∀ h w, k (ix2 h w) = K b t h w)
include hp hk

theorem divkV_cur (h w : Fin 256) : divkV p k (ix2 h w) = divk P K b t h w :=
  addf_field _ _ b t _ _
    (gradRows_field wHx _ b t _ (mulf_field K (pdx P) b t k _ hk (gradRows_field wHx P b t p hp)))
    (gradCols_field wHy _ b t _ (mulf_field K (pdy P) b t k _ hk (gradCols_field wHy P b t p hp))) h w

theorem divk2V_cur (h w : Fin 256) : divk2V p k (ix2 h w) = divk2 P K b t h w :=
  addf_field _ _ b t _ _
    (addf_field _ _ b t _ _
      (mulf_field _ K b t _ k
        (addf_field _ _ b t _ _
          (gradRows_field wHx (pdx P) b t _ (gradRows_field wHx P b t p hp))
          (gradCols_field wHy (pdy P) b t _ (gradCols_field wHy P b t p hp)))
        hk)
      (mulf_field (pdx P) (gH cHx K) b t _ _ (gradRows_field wHx P b t p hp) (gradRows_field wHx K b t k hk)))
    (mulf_field (pdy P) (gW cHy K) b t _ _ (gradCols_field wHy P b t p hp) (gradCols_field wHy K b t k hk)) h w

theorem maskV_cur (h w : Fin 256) : maskV p k (ix2 h w) = mask P K b t h w := by
  show FloatOps.sitofp (F := Ideal) .f32
      ((FloatOps.cmpf (F := Ideal) (φ := .f32) .olt
        (FloatOps.absf (F := Ideal) (φ := .f32) (divkV p k (ix2 h w) - divk2V p k (ix2 h w))) c100).setWidth 32) = _
  rw [sitofp_setWidth_bit, divkV_cur P K b t p k hp hk, divk2V_cur P K b t p k hp hk]
  rfl

end Cur

/-! ### The time gradient, the residual and the masked square -/

/-- A tile carried with two leading unit axes, read without them. -/
theorem tile_apply {α : Type} (v : S1x1x256x256.Idx → α) (hc : S1x1x256x256.ShapeCasts S256x256) (h w : Fin 256) :
    shapeCast S256x256 v hc (ix2 h w) = v (ix4 0 0 h w) := by
  refine shapeCast_apply v hc (ix2 h w) (ix4 0 0 h w) ?_
  rw [Shape.rowMajor_val_two, Shape.rowMajor_val_four]
  show ((0 * 1 + 0) * 256 + h.val) * 256 + w.val = h.val * 256 + w.val
  omega

/-- The one-sided time gradient at the first time step: ((−3)·q0 + 4·q1 − q2)·½. -/
def dtFirstV (q0 q1 q2 : FVec Ideal S256x256 .f32) : FVec Ideal S256x256 .f32 :=
  mulf (subf (addf (mulf (broadcast S256x256 (Scalar.ofBits .f32 0xC0400000#32)) q0)
      (mulf (broadcast S256x256 (Scalar.ofBits .f32 0x40800000#32)) q1)) q2)
    (broadcast S256x256 (Scalar.ofBits .f32 0x3F000000#32))

/-- The centred time gradient: (qNext − qPrev)·½. -/
def dtMidV (qn qv : FVec Ideal S256x256 .f32) : FVec Ideal S256x256 .f32 :=
  mulf (subf qn qv) (broadcast S256x256 (Scalar.ofBits .f32 0x3F000000#32))

/-- The one-sided time gradient at the last time step: (3·q31 − 4·q30 + q29)·½. -/
def dtLastV (q31 q30 q29 : FVec Ideal S256x256 .f32) : FVec Ideal S256x256 .f32 :=
  mulf (addf (subf (mulf (broadcast S256x256 (Scalar.ofBits .f32 0x40400000#32)) q31)
      (mulf (broadcast S256x256 (Scalar.ofBits .f32 0x40800000#32)) q30)) q29)
    (broadcast S256x256 (Scalar.ofBits .f32 0x3F000000#32))

/-- The masked square of the residual: with r = divergence − (time gradient)·S, the product (r·r)·mask. -/
def termV (dk m dt : FVec Ideal S256x256 .f32) : FVec Ideal S256x256 .f32 :=
  mulf (mulf (subf dk (mulf dt (broadcast S256x256 (Scalar.ofBits .f32 0x3951B717#32))))
      (subf dk (mulf dt (broadcast S256x256 (Scalar.ofBits .f32 0x3951B717#32))))) m

/-- The time sequence of a field at a fixed batch entry, row and column, read at a time step. -/
theorem timeAcc (P : Field) (b : Fin 16) (h w : Fin 256) (s : Fin 32) (i : ℕ) (hi : i = s.val) :
    (if hlt : i < 32 then P b ⟨i, hlt⟩ h w else 0) = P b s h w := by
  subst hi
  rw [dif_pos s.isLt]

theorem dtFirstV_cur (P : Field) (b : Fin 16) (q0 q1 q2 : FVec Ideal S256x256 .f32)
    (h0 : ∀ h w, q0 (ix2 h w) = P b 0 h w) (h1 : ∀ h w, q1 (ix2 h w) = P b 1 h w) (h2 : ∀ h w, q2 (ix2 h w) = P b 2 h w)
    (h w : Fin 256) : dtFirstV q0 q1 q2 (ix2 h w) = gT cHalf P b 0 h w := by
  show ((cM3 * q0 (ix2 h w) + c4 * q1 (ix2 h w)) - q2 (ix2 h w)) * cHalf
    = grad 32 cHalf (fun i => if hi : i < 32 then P b ⟨i, hi⟩ h w else 0) 0
  rw [grad_zero, timeAcc P b h w 0 0 rfl, timeAcc P b h w 1 1 rfl, timeAcc P b h w 2 2 rfl, h0, h1, h2]

theorem dtMidV_cur (P : Field) (b : Fin 16) (t tn tv : Fin 32) (ht0 : t.val ≠ 0) (ht1 : t.val ≠ 31)
    (htn : tn.val = t.val + 1) (htv : tv.val = t.val - 1) (qn qv : FVec Ideal S256x256 .f32)
    (hn : ∀ h w, qn (ix2 h w) = P b tn h w) (hv : ∀ h w, qv (ix2 h w) = P b tv h w)
    (h w : Fin 256) : dtMidV qn qv (ix2 h w) = gT cHalf P b t h w := by
  show (qn (ix2 h w) - qv (ix2 h w)) * cHalf
    = grad 32 cHalf (fun i => if hi : i < 32 then P b ⟨i, hi⟩ h w else 0) t.val
  rw [grad_mid 32 _ _ _ ht0 (by omega), timeAcc P b h w tn (t.val + 1) htn.symm, timeAcc P b h w tv (t.val - 1) htv.symm, hn, hv]

theorem dtLastV_cur (P : Field) (b : Fin 16) (q31 q30 q29 : FVec Ideal S256x256 .f32)
    (h31 : ∀ h w, q31 (ix2 h w) = P b 31 h w) (h30 : ∀ h w, q30 (ix2 h w) = P b 30 h w) (h29 : ∀ h w, q29 (ix2 h w) = P b 29 h w)
    (h w : Fin 256) : dtLastV q31 q30 q29 (ix2 h w) = gT cHalf P b 31 h w := by
  show ((c3 * q31 (ix2 h w) - c4 * q30 (ix2 h w)) + q29 (ix2 h w)) * cHalf
    = grad 32 cHalf (fun i => if hi : i < 32 then P b ⟨i, hi⟩ h w else 0) (32 - 1)
  rw [grad_last 32 (by decide), timeAcc P b h w 31 (32 - 1) rfl, timeAcc P b h w 30 (32 - 2) rfl, timeAcc P b h w 29 (32 - 3) rfl, h31, h30, h29]

theorem termV_cur (P K : Field) (b : Fin 16) (t : Fin 32) (dk m dt : FVec Ideal S256x256 .f32)
    (hdk : ∀ h w, dk (ix2 h w) = divk P K b t h w) (hm : ∀ h w, m (ix2 h w) = mask P K b t h w)
    (hdt : ∀ h w, dt (ix2 h w) = gT cHalf P b t h w) (h w : Fin 256) :
    termV dk m dt (ix2 h w) = term P K b t h w := by
  show ((dk (ix2 h w) - dt (ix2 h w) * cS) * (dk (ix2 h w) - dt (ix2 h w) * cS)) * m (ix2 h w) = _
  rw [hdk, hm, hdt]
  rfl

end Cert.KSlice

end
-- ==== Proof.KSliceChain.lean ====
/-
  The kernel body's chains of arithmetic, read at one row and column: each is the per-time-step vocabulary of the
  spatial gradients, the divergence, the mask and the masked square applied to the tiles it loads, by unfolding;
  so at a row and a column it is the corresponding field of the specification.
-/
import proofs.«174142_j82669530514041_2_alg».proof.Proof.KSlice
import proofs.«174142_j82669530514041_2_alg».proof.Proof.KChain

noncomputable section

namespace Cert.KSlice

open Cert.KernelIdeal Cert.KernelIdeal.Gen Cert.Stencil Cert.KChain Idealize.ShloMosaic Idealize.ShloMosaic.ValueIdx

/-- The (256, 256) tile a loaded block carries. -/
abbrev tileOf (q : Vec Ideal S1x1x256x256 .f32) : FVec Ideal S256x256 .f32 :=
  shapeCast S256x256 q shapeCasts_S1x1x256x256_S256x256

/-- A loaded block that holds a time step of a field carries a tile with the field's values. -/
theorem tileOf_holds (X : Field) (b : Fin 16) (t : Fin 32) (q : Vec Ideal S1x1x256x256 .f32) (hq : Holds X b t q)
    (h w : Fin 256) : tileOf q (ix2 h w) = X b t h w :=
  (tile_apply q shapeCasts_S1x1x256x256_S256x256 h w).trans (hq h w)

/-! ### The chains are the vocabulary applied to the loaded tiles -/

section Eq
variable (pT kT q0 q1 q2 pN pV q31 q30 q29 : Vec Ideal S1x1x256x256 .f32) (a : FVec Ideal S256x256 .f32)

theorem firstDivk_eq : firstDivk pT kT = divkV (tileOf pT) (tileOf kT) := rfl
theorem firstMask_eq : firstMask pT kT = maskV (tileOf pT) (tileOf kT) := rfl
theorem firstTerm_eq : firstTerm pT kT q0 q1 q2
    = termV (divkV (tileOf pT) (tileOf kT)) (maskV (tileOf pT) (tileOf kT)) (dtFirstV (tileOf q0) (tileOf q1) (tileOf q2)) := rfl
theorem loopDivk_eq : loopDivk pT kT = divkV (tileOf pT) (tileOf kT) := rfl
theorem loopMask_eq : loopMask pT kT = maskV (tileOf pT) (tileOf kT) := rfl
theorem loopAcc1_eq : loopAcc1 a pT kT pN pV
    = addf a (termV (divkV (tileOf pT) (tileOf kT)) (maskV (tileOf pT) (tileOf kT)) (dtMidV (tileOf pN) (tileOf pV))) := rfl
theorem loopAcc2_eq : loopAcc2 a pT kT = addf a (maskV (tileOf pT) (tileOf kT)) := rfl

end Eq

/-! ### The chains at a row and a column -/

section Cur
variable (P K : Field) (b : Fin 16) {pT kT q0 q1 q2 pN pV : Vec Ideal S1x1x256x256 .f32}

theorem firstMask_cur (hp : Holds P b 0 pT) (hk : Holds K b 0 kT) (h w : Fin 256) :
    firstMask pT kT (ix2 h w) = mask P K b 0 h w := by
  rw [firstMask_eq]
  exact maskV_cur P K b 0 _ _ (tileOf_holds P b 0 pT hp) (tileOf_holds K b 0 kT hk) h w

theorem firstTerm_cur (hp : Holds P b 0 pT) (hk : Holds K b 0 kT) (h0 : Holds P b 0 q0) (h1 : Holds P b 1 q1)
    (h2 : Holds P b 2 q2) (h w : Fin 256) : firstTerm pT kT q0 q1 q2 (ix2 h w) = term P K b 0 h w := by
  rw [firstTerm_eq]
  exact termV_cur P K b 0 _ _ _
    (divkV_cur P K b 0 _ _ (tileOf_holds P b 0 pT hp) (tileOf_holds K b 0 kT hk))
    (maskV_cur P K b 0 _ _ (tileOf_holds P b 0 pT hp) (tileOf_holds K b 0 kT hk))
    (dtFirstV_cur P b _ _ _ (tileOf_holds P b 0 q0 h0) (tileOf_holds P b 1 q1 h1) (tileOf_holds P b 2 q2 h2)) h w

theorem loopAcc1_cur (t : ℕ) (ht0 : 0 < t) (ht1 : t < 31) (hp : Holds P b ⟨t, by omega⟩ pT) (hk : Holds K b ⟨t, by omega⟩ kT)
    (hn : Holds P b ⟨t + 1, by omega⟩ pN) (hv : Holds P b ⟨t - 1, by omega⟩ pV) (a : FVec Ideal S256x256 .f32) (h w : Fin 256) :
    loopAcc1 a pT kT pN pV (ix2 h w) = a (ix2 h w) + term P K b ⟨t, by omega⟩ h w := by
  rw [loopAcc1_eq]
  show a (ix2 h w) + termV _ _ _ (ix2 h w) = _
  rw [termV_cur P K b ⟨t, by omega⟩ _ _ _
    (divkV_cur P K b _ _ _ (tileOf_holds P b _ pT hp) (tileOf_holds K b _ kT hk))
    (maskV_cur P K b _ _ _ (tileOf_holds P b _ pT hp) (tileOf_holds K b _ kT hk))
    (dtMidV_cur P b ⟨t, by omega⟩ ⟨t + 1, by omega⟩ ⟨t - 1, by omega⟩ (by show t ≠ 0; omega) (by show t ≠ 31; omega) rfl rfl _ _
      (tileOf_holds P b _ pN hn) (tileOf_holds P b _ pV hv)) h w]

theorem loopAcc2_cur (t : ℕ) (ht0 : 0 < t) (ht1 : t < 31) (hp : Holds P b ⟨t, by omega⟩ pT) (hk : Holds K b ⟨t, by omega⟩ kT)
    (a : FVec Ideal S256x256 .f32) (h w : Fin 256) :
    loopAcc2 a pT kT (ix2 h w) = a (ix2 h w) + mask P K b ⟨t, by omega⟩ h w := by
  rw [loopAcc2_eq]
  show a (ix2 h w) + maskV _ _ (ix2 h w) = _
  rw [maskV_cur P K b ⟨t, by omega⟩ _ _ (tileOf_holds P b _ pT hp) (tileOf_holds K b _ kT hk) h w]

end Cur

end Cert.KSlice

end
-- ==== Proof.KSliceLast.lean ====
/-
  Time step 31 of the kernel body, read at one row and column.

  The body's chains of arithmetic for the last time step are the per-time-step vocabulary (the two spatial gradients,
  the divergence, its expanded form, the mask, the one-sided time gradient (3·p31 − 4·p30 + p29)·½ and the masked
  square of the residual) applied to the tiles it loads: the same operations in the same order, by unfolding.  So at
  a row and a column the two running totals grow by the specification's masked square and mask at time step 31.
-/
import proofs.«174142_j82669530514041_2_alg».proof.Proof.KSlice
import proofs.«174142_j82669530514041_2_alg».proof.Proof.KChain

noncomputable section

namespace Cert.KSlice

open Cert.KChain Cert.KernelIdeal Cert.KernelIdeal.Gen Cert.Stencil Idealize.ShloMosaic Idealize.ShloMosaic.ValueIdx

/-- The (256, 256) tile a loaded block carries. -/
private abbrev tl (q : Vec Ideal S1x1x256x256 .f32) : FVec Ideal S256x256 .f32 :=
  shapeCast S256x256 q shapeCasts_S1x1x256x256_S256x256

/-- A loaded block that holds a time step of a field carries a tile with the field's values. -/
private theorem tl_holds (X : Field) (b : Fin 16) (t : Fin 32) (q : Vec Ideal S1x1x256x256 .f32) (hq : Holds X b t q)
    (h w : Fin 256) : tl q (ix2 h w) = X b t h w :=
  (tile_apply q shapeCasts_S1x1x256x256_S256x256 h w).trans (hq h w)

/-! ### The last time step's chains are the vocabulary applied to the loaded tiles -/

section Eq
variable (pT kT q31 q30 q29 : Vec Ideal S1x1x256x256 .f32) (a : FVec Ideal S256x256 .f32)

theorem lastDivk_eq : lastDivk pT kT = divkV (tl pT) (tl kT) := rfl

theorem lastMask_eq : lastMask pT kT = maskV (tl pT) (tl kT) := rfl

theorem lastAcc1_eq : lastAcc1 a pT kT q31 q30 q29
    = addf a (termV (lastDivk pT kT) (lastMask pT kT) (dtLastV (tl q31) (tl q30) (tl q29))) := rfl

end Eq

/-! ### Read at a row and a column -/

section Cur
variable (P K : Field) (b : Fin 16) {pT kT q31 q30 q29 : Vec Ideal S1x1x256x256 .f32}

/-- The divergence at time step 31. -/
theorem lastDivk_cur (hp : Holds P b 31 pT) (hk : Holds K b 31 kT) (h w : Fin 256) :
    lastDivk pT kT (ix2 h w) = divk P K b 31 h w :=
  (congrFun (lastDivk_eq pT kT) (ix2 h w)).trans
    (divkV_cur P K b 31 (tl pT) (tl kT) (tl_holds P b 31 pT hp) (tl_holds K b 31 kT hk) h w)

/-- The mask at time step 31. -/
theorem lastMask_cur (hp : Holds P b 31 pT) (hk : Holds K b 31 kT) (h w : Fin 256) :
    lastMask pT kT (ix2 h w) = mask P K b 31 h w :=
  (congrFun (lastMask_eq pT kT) (ix2 h w)).trans
    (maskV_cur P K b 31 (tl pT) (tl kT) (tl_holds P b 31 pT hp) (tl_holds K b 31 kT hk) h w)

/-- The running total of masked squares grows by the masked square of the residual at time step 31. -/
theorem lastAcc1_cur (hp : Holds P b 31 pT) (hk : Holds K b 31 kT) (h31 : Holds P b 31 q31) (h30 : Holds P b 30 q30)
    (h29 : Holds P b 29 q29) (a : FVec Ideal S256x256 .f32) (h w : Fin 256) :
    lastAcc1 a pT kT q31 q30 q29 (ix2 h w) = a (ix2 h w) + term P K b 31 h w := by
  rw [lastAcc1_eq]
  exact congrArg (fun z => a (ix2 h w) + z)
    (termV_cur P K b 31 _ _ _ (lastDivk_cur P K b hp hk) (lastMask_cur P K b hp hk)
      (dtLastV_cur P b (tl q31) (tl q30) (tl q29) (tl_holds P b 31 q31 h31) (tl_holds P b 30 q30 h30)
        (tl_holds P b 29 q29 h29)) h w)

/-- The running total of masks grows by the mask at time step 31. -/
theorem lastAcc2_cur (hp : Holds P b 31 pT) (hk : Holds K b 31 kT) (a : FVec Ideal S256x256 .f32) (h w : Fin 256) :
    lastAcc2 a pT kT (ix2 h w) = a (ix2 h w) + mask P K b 31 h w :=
  congrArg (fun z => a (ix2 h w) + z) (lastMask_cur P K b hp hk h w)

end Cur

end Cert.KSlice

end
-- ==== Proof.Sums.lean ====
/-
  Finite sums over the extended reals: the reference's sum over time, rows and columns read at a batch entry,
  the kernel's two-step reduction of a 256 × 256 tile to one number spread over an (8, 128) tile, the regrouping
  of a sum over time into first step, middle steps and last step, a running sum in closed form, and the host's
  slice-and-reshape tail read at a batch entry.
-/
import proofs.«174142_j82669530514041_2_alg».proof.KernelIdeal
import proofs.«174142_j82669530514041_2_alg».proof.ReferenceIdeal
import Idealize.ShloMosaic.PureOps.Ideal.Laws
import Idealize.ShloMosaic.Lib.IdealHost
import Idealize.ShloMosaic.Lib.ValueIdx
import Idealize.ShloMosaic.Lib.Pipeline.Value
import Idealize.ShloMosaic.Lib.ValueLayout

noncomputable section

open scoped BigOperators

namespace Cert.Sums

open Idealize.ShloMosaic Idealize.ShloMosaic.ValueIdx

/-! ## The kernel's reduction of a tile -/

section Tile

variable [Cert.KernelIdeal.Facts₀]

open Cert.KernelIdeal Cert.KernelIdeal.Facts₀

/-- The sum of a 256 × 256 tile, taken along the columns and then along the rows, spread over an (8, 128) tile. -/
def tileSum (v : FVec Ideal S256x256 .f32) : FVec Ideal S8x128 .f32 :=
  broadcastTo S8x128 (shapeCast S1x1 (shapeCast S1x1 (multiReduction .add [0] S1 (shapeCast S256x1 (multiReduction .add [1] S256 v 0x00000000#32 reduces_S256x256_S256 (.inl rfl) rfl) shapeCasts_S256_S256x1) 0x00000000#32 reduces_S256x1_S1 (.inl rfl) rfl) shapeCasts_S1_S1x1) shapeCasts_S1x1_S1x1) broadcasts_S1x1_S8x128

/-- Every element of the spread tile is the double sum over rows and columns. -/
theorem tileSum_apply (v : FVec Ideal S256x256 .f32) (y : S8x128.Idx) :
    tileSum v y = ∑ h : Fin 256, ∑ w : Fin 256, v (ix2 h w) := by
  unfold tileSum
  rw [broadcastTo_apply _ broadcasts_S1x1_S8x128 y (ix2 (0 : Fin 1) (0 : Fin 1))
    (fun a => by match a with | ⟨0, _⟩ => rfl | ⟨1, _⟩ => rfl)]
  rw [shapeCast_apply _ shapeCasts_S1x1_S1x1 (ix2 (0 : Fin 1) (0 : Fin 1)) (ix2 (0 : Fin 1) (0 : Fin 1)) rfl]
  rw [shapeCast_apply _ shapeCasts_S1_S1x1 (ix2 (0 : Fin 1) (0 : Fin 1)) (ix1 (0 : Fin 1))
    (by rw [Shape.rowMajor_val_one, Shape.rowMajor_val_two]; rfl)]
  refine (Ideal.multiReduction_add_single _ _ reduces_S256x1_S1 (.inl rfl) rfl (ix1 (0 : Fin 1))).trans ?_
  show ∑ h : Fin 256, _ = _
  refine Finset.sum_congr rfl fun h _ => ?_
  rw [shapeCast_apply _ shapeCasts_S256_S256x1 _ (ix1 h)
    (by rw [Shape.rowMajor_val_one, Shape.rowMajor_val_two]; show h.val = h.val * 1 + 0; omega)]
  refine (Ideal.multiReduction_add_single _ _ reduces_S256x256_S256 (.inl rfl) rfl (ix1 h)).trans ?_
  show ∑ w : Fin 256, _ = _
  refine Finset.sum_congr rfl fun w _ => ?_
  refine congrArg v (funext fun a => ?_)
  match a with
  | ⟨0, _⟩ => exact Fin.ext rfl
  | ⟨1, _⟩ => exact Fin.ext rfl

/-- The same after the cast to a (1, 8, 128) tile. -/
theorem tileSum3_apply (v : FVec Ideal S256x256 .f32) (y : S1x8x128.Idx) :
    shapeCast S1x8x128 (tileSum v) shapeCasts_S8x128_S1x8x128 y = ∑ h : Fin 256, ∑ w : Fin 256, v (ix2 h w) := by
  unfold shapeCast
  exact tileSum_apply v _

end Tile

/-! ## The reference's sum over time, rows and columns -/

section Host

variable [Cert.ReferenceIdeal.Facts₀]

open Cert.ReferenceIdeal

/-- The host's reduction over the last three axes from the zero word, read at a batch entry, is the triple sum
    over time, rows and columns. -/
theorem host_sum3 (x : S16x32x256x256.Idx → EReal) (b : Fin 16) :
    Host.reduceAdd (F := Ideal) (φ := .f32) x (constant S_ .f32 0x00000000#32)
        Cert.ReferenceIdeal.Facts₀.reducesTo_S16x32x256x256_S16_d1_2_3 Cert.ReferenceIdeal.Facts₀.h_S_ (ix1 b)
      = ∑ t : Fin 32, ∑ h : Fin 256, ∑ w : Fin 256, x (ix4 b t h w) := by
  rw [hostReduceAdd_apply]
  unfold Ideal.hostReduceAdd
  rw [constant_apply, Ideal.ofBits_zero_f32, zero_add]
  -- an index drops to the batch entry exactly when its first coordinate is that entry
  have key : ∀ i : S16x32x256x256.Idx,
      Cert.ReferenceIdeal.Facts₀.reducesTo_S16x32x256x256_S16_d1_2_3.drop i = ix1 b → i 0 = b := by
    intro i hi
    have h0 := congrArg (fun j => (j 0).val) hi
    have h1 := Shape.ReducesTo.drop_apply_val_of_eq
      Cert.ReferenceIdeal.Facts₀.reducesTo_S16x32x256x256_S16_d1_2_3 i 0 0
    exact Fin.ext (h1.symm.trans h0)
  trans ∑ p : Fin 32 × Fin 256 × Fin 256, x (ix4 b p.1 p.2.1 p.2.2)
  · refine Finset.sum_nbij' (fun i => ((i 1, i 2, i 3) : Fin 32 × Fin 256 × Fin 256))
      (fun p => ix4 b p.1 p.2.1 p.2.2) ?_ ?_ ?_ ?_ ?_
    · intro i _; exact Finset.mem_univ _
    · intro p _
      refine Finset.mem_filter.2 ⟨Finset.mem_univ _, funext fun c => ?_⟩
      match c with
      | ⟨0, _⟩ =>
        exact Fin.ext (Shape.ReducesTo.drop_apply_val_of_eq
          Cert.ReferenceIdeal.Facts₀.reducesTo_S16x32x256x256_S16_d1_2_3 (ix4 b p.1 p.2.1 p.2.2) 0 0)
    · intro i hi
      have hb := key i (Finset.mem_filter.1 hi).2
      funext c
      match c with
      | ⟨0, _⟩ => exact hb.symm
      | ⟨1, _⟩ => rfl
      | ⟨2, _⟩ => rfl
      | ⟨3, _⟩ => rfl
    · intro p _; rfl
    · intro i hi
      have hb := key i (Finset.mem_filter.1 hi).2
      refine congrArg x (funext fun c => ?_)
      match c with
      | ⟨0, _⟩ => exact hb
      | ⟨1, _⟩ => rfl
      | ⟨2, _⟩ => rfl
      | ⟨3, _⟩ => rfl
  · rw [Fintype.sum_prod_type]
    refine Finset.sum_congr rfl fun t _ => ?_
    rw [Fintype.sum_prod_type]

end Host

/-! ## The host's tail: slice the first element of each batch entry's tile and reshape -/

section Tail

variable [Cert.KernelIdeal.Facts₀]

open Cert.KernelIdeal Cert.KernelIdeal.Facts₀

/-- The slice at the origin of each (8, 128) tile, reshaped to one number per batch entry, read at a batch entry. -/
theorem tail_pick (X : S16x8x128.Idx → EReal) (b : Fin 16) :
    shapeCast S16 (extractStridedSlice S16x1x1 ![0, 0, 0] X slices_S16x8x128_S16x1x1_0_0_0) shapeCasts_S16x1x1_S16 (ix1 b)
      = X (ix3 b 0 0) := by
  rw [shapeCast_apply _ shapeCasts_S16x1x1_S16 (ix1 b) (ix3 b (0 : Fin 1) (0 : Fin 1))
    (by rw [Shape.rowMajor_val_one, Shape.rowMajor_val_three]; show (b.val * 1 + 0) * 1 + 0 = b.val; omega)]
  exact extractStridedSlice_apply _ X slices_S16x8x128_S16x1x1_0_0_0 _ (ix3 b (0 : Fin 8) (0 : Fin 128))
    (fun a => by
      match a with
      | ⟨0, _⟩ => exact (Nat.zero_add _).symm
      | ⟨1, _⟩ => rfl
      | ⟨2, _⟩ => rfl)

end Tail

/-! ## Regrouping over time, and a running sum -/

/-- The first step, the thirty middle steps and the last step, summed over rows and columns, are the sum over all
    thirty-two steps, rows and columns. -/
theorem time_regroup (g : ℕ → Fin 256 → Fin 256 → EReal) :
    (∑ h : Fin 256, ∑ w : Fin 256, ((g 0 h w + ∑ k ∈ Finset.range 30, g (k + 1) h w) + g 31 h w))
      = ∑ t : Fin 32, ∑ h : Fin 256, ∑ w : Fin 256, g t.val h w := by
  have pt : ∀ h w, (g 0 h w + ∑ k ∈ Finset.range 30, g (k + 1) h w) + g 31 h w = ∑ t : Fin 32, g t.val h w := by
    intro h w
    have e1 : ∑ t : Fin 32, g t.val h w = ∑ i ∈ Finset.range 32, g i h w :=
      Fin.sum_univ_eq_sum_range (fun n => g n h w) 32
    have e2 : ∑ i ∈ Finset.range 32, g i h w = ∑ i ∈ Finset.range 31, g i h w + g 31 h w :=
      Finset.sum_range_succ (fun i => g i h w) 31
    have e3 : ∑ i ∈ Finset.range 31, g i h w = ∑ k ∈ Finset.range 30, g (k + 1) h w + g 0 h w :=
      Finset.sum_range_succ' (fun i => g i h w) 30
    rw [e1, e2, e3, add_comm (g 0 h w)]
  calc (∑ h : Fin 256, ∑ w : Fin 256, ((g 0 h w + ∑ k ∈ Finset.range 30, g (k + 1) h w) + g 31 h w))
      = ∑ h : Fin 256, ∑ w : Fin 256, ∑ t : Fin 32, g t.val h w :=
        Finset.sum_congr rfl fun h _ => Finset.sum_congr rfl fun w _ => pt h w
    _ = ∑ h : Fin 256, ∑ t : Fin 32, ∑ w : Fin 256, g t.val h w :=
        Finset.sum_congr rfl fun h _ => Finset.sum_comm
    _ = ∑ t : Fin 32, ∑ h : Fin 256, ∑ w : Fin 256, g t.val h w := Finset.sum_comm

/-- An accumulator that starts at `a0` and adds `f k` at step `k` holds `a0` plus the first `n` terms after `n` steps. -/
theorem running_sum {M : Type*} [AddCommMonoid M] (a0 : M) (f acc : ℕ → M) (n : ℕ) (h0 : acc 0 = a0)
    (hs : ∀ k, k < n → acc (k + 1) = acc k + f k) : acc n = a0 + ∑ k ∈ Finset.range n, f k := by
  induction n with
  | zero => rw [Finset.range_zero, Finset.sum_empty, add_zero, h0]
  | succ n ih =>
    rw [hs n (Nat.lt_succ_self n), ih fun k hk => hs k (Nat.lt_succ_of_lt hk), Finset.sum_range_succ, add_assoc]

end Cert.Sums

end
-- ==== Proof.KPoint.lean ====
/-
  One grid point of the kernel computes the two totals of its batch entry.

  Grid point t holds batch entry t of the two inputs.  Every tile the body loads holds one time step of that batch
  entry, so by the per-time-step lemmas the running totals before loop trip n are the sums of the masked squares and
  of the masks over the time steps 0 … n, and the two stored blocks hold, at every index, the sums over time, rows and
  columns.
-/
import proofs.«174142_j82669530514041_2_alg».proof.Proof.KRun
import proofs.«174142_j82669530514041_2_alg».proof.Proof.KSliceChain
import proofs.«174142_j82669530514041_2_alg».proof.Proof.KSliceLast
import proofs.«174142_j82669530514041_2_alg».proof.Proof.Sums

set_option maxRecDepth 16384

noncomputable section

open scoped BigOperators

namespace Cert.KPoint

open Idealize.ShloMosaic Idealize.ShloMosaic.TcCoe Idealize.SL Idealize.SL.Sem Idealize.ShloMosaic.ValueIdx
open Cert.KernelIdeal Cert.KernelIdeal.Gen Cert.KChain Cert.KRun Cert.Stencil

variable (m : (ℓ : Loc nD τ sig) → Buf (Elt Ideal) ℓ)

/-- The two inputs on core `c`, as fields. -/
def PF (c : Dev nD) : Field := cur4 (m ((c : Thread nD τ).loc main_arg0))
def KF (c : Dev nD) : Field := cur4 (m ((c : Thread nD τ).loc main_arg1))

theorem N16 : cfg0.N = 16 := by decide

/-- The batch entry of a grid point. -/
def bOf (t : Fin cfg0.N) : Fin 16 := ⟨t.val, N16 ▸ t.isLt⟩

/-- The first input window's block at grid point `t` is batch entry `t` of the first argument. -/
theorem iblk0_apply (c : Dev nD) (t : Fin cfg0.N) (s : Fin 32) (h w : Fin 256) :
    (iblk m c 0 t : Vec Ideal S1x32x256x256 .f32) (ix4 0 s h w) = PF m c (bOf t) s h w := by
  have hi : ∀ t : Fin cfg0.N, win0_0.index t 0 = t.val ∧ win0_0.index t 1 = 0 ∧ win0_0.index t 2 = 0 ∧ win0_0.index t 3 = 0 :=
    (by decide +kernel : ∀ t : Fin grid0.N, _)
  unfold iblk PF
  rw [View.read_apply]
  show V m c main_arg0 _ = m (c.tc.loc main_arg0) _
  unfold V
  congr 1
  funext a
  apply Fin.ext
  match a with
  | ⟨0, _⟩ => show win0_0.index t 0 * 1 + 1 * 0 = t.val; rw [(hi t).1]; omega
  | ⟨1, _⟩ => show win0_0.index t 1 * 32 + 1 * s.val = s.val; rw [(hi t).2.1]; omega
  | ⟨2, _⟩ => show win0_0.index t 2 * 256 + 1 * h.val = h.val; rw [(hi t).2.2.1]; omega
  | ⟨3, _⟩ => show win0_0.index t 3 * 256 + 1 * w.val = w.val; rw [(hi t).2.2.2]; omega

/-- The second input window's block at grid point `t` is batch entry `t` of the second argument. -/
theorem iblk1_apply (c : Dev nD) (t : Fin cfg0.N) (s : Fin 32) (h w : Fin 256) :
    (iblk m c 1 t : Vec Ideal S1x32x256x256 .f32) (ix4 0 s h w) = KF m c (bOf t) s h w := by
  have hi : ∀ t : Fin cfg0.N, win0_1.index t 0 = t.val ∧ win0_1.index t 1 = 0 ∧ win0_1.index t 2 = 0 ∧ win0_1.index t 3 = 0 :=
    (by decide +kernel : ∀ t : Fin grid0.N, _)
  unfold iblk KF
  rw [View.read_apply]
  show V m c main_arg1 _ = m (c.tc.loc main_arg1) _
  unfold V
  congr 1
  funext a
  apply Fin.ext
  match a with
  | ⟨0, _⟩ => show win0_1.index t 0 * 1 + 1 * 0 = t.val; rw [(hi t).1]; omega
  | ⟨1, _⟩ => show win0_1.index t 1 * 32 + 1 * s.val = s.val; rw [(hi t).2.1]; omega
  | ⟨2, _⟩ => show win0_1.index t 2 * 256 + 1 * h.val = h.val; rw [(hi t).2.2.1]; omega
  | ⟨3, _⟩ => show win0_1.index t 3 * 256 + 1 * w.val = w.val; rw [(hi t).2.2.2]; omega

section Point

variable (c : Dev nD) (t : Fin cfg0.N)

/-- A tile loaded from the first staging buffer at time-step offset `s` holds time step `s` of the batch entry. -/
theorem holdsP (off : Fin 4 → ℕ) (hin : ∀ a, off a + S1x1x256x256.size a ≤ S1x32x256x256.size a) (s : Fin 32)
    (hoff : off = ![0, s.val, 0, 0]) :
    Holds (PF m c) (bOf t) s (tileAt (ms0_0 t) ((hs0_0 t).unread (iblk m c 0 t)) off hin) := fun h w => by
  rw [tileAt_apply (ms0_0 t) (hs0_0 t) (iblk m c 0 t) off hin s hoff h w]
  exact iblk0_apply m c t s h w

theorem holdsK (off : Fin 4 → ℕ) (hin : ∀ a, off a + S1x1x256x256.size a ≤ S1x32x256x256.size a) (s : Fin 32)
    (hoff : off = ![0, s.val, 0, 0]) :
    Holds (KF m c) (bOf t) s (tileAt (ms0_1 t) ((hs0_1 t).unread (iblk m c 1 t)) off hin) := fun h w => by
  rw [tileAt_apply (ms0_1 t) (hs0_1 t) (iblk m c 1 t) off hin s hoff h w]
  exact iblk1_apply m c t s h w

/-- The masked square and the mask of time step `s` of the point's batch entry, 0 past the last time step. -/
def gTerm (s : ℕ) (h w : Fin 256) : EReal := if hs : s < 32 then term (PF m c) (KF m c) (bOf t) ⟨s, hs⟩ h w else 0
def gMask (s : ℕ) (h w : Fin 256) : EReal := if hs : s < 32 then mask (PF m c) (KF m c) (bOf t) ⟨s, hs⟩ h w else 0

/-- The point's running totals. -/
abbrev acc (n : ℕ) : FVec Ideal S256x256 .f32 × FVec Ideal S256x256 .f32 :=
  accAt (F := Ideal) c (grid0.coords t) (ms0_0 t) (hs0_0 t) (ms0_1 t) (hs0_1 t) (ms0_2 t) (hs0_2 t) (ms0_3 t) (hs0_3 t)
    (iblk m c 0 t) (iblk m c 1 t) n

theorem trips30 : k0_t1_loop.trips = 30 := by decide

/-- Before loop trip `n` the running totals are the sums over the time steps 0 … n. -/
theorem acc_inv (n : ℕ) (hn : n ≤ 30) (h w : Fin 256) :
    (acc m c t n).1 (ix2 h w) = gTerm m c t 0 h w + ∑ k ∈ Finset.range n, gTerm m c t (k + 1) h w
    ∧ (acc m c t n).2 (ix2 h w) = gMask m c t 0 h w + ∑ k ∈ Finset.range n, gMask m c t (k + 1) h w := by
  induction n generalizing h w with
  | zero =>
    rw [Finset.range_zero, Finset.sum_empty, Finset.sum_empty, add_zero, add_zero]
    unfold gTerm gMask
    rw [dif_pos (by omega), dif_pos (by omega)]
    constructor
    · exact Cert.KSlice.firstTerm_cur (PF m c) (KF m c) (bOf t) (holdsP m c t _ _ 0 rfl) (holdsK m c t _ _ 0 rfl)
        (holdsP m c t _ _ 0 rfl) (holdsP m c t _ _ 1 rfl) (holdsP m c t _ _ 2 rfl) h w
    · exact Cert.KSlice.firstMask_cur (PF m c) (KF m c) (bOf t) (holdsP m c t _ _ 0 rfl) (holdsK m c t _ _ 0 rfl) h w
  | succ n ih =>
    have hn' : n < k0_t1_loop.trips := by rw [trips30]; omega
    have hstep : acc m c t (n + 1) = _ :=
      (st_k0_t1_succ (F := Ideal) Variants.none c none (grid0.coords t) (ms0_0 t) (hs0_0 t) (ms0_1 t) (hs0_1 t) (ms0_2 t) (hs0_2 t) (ms0_3 t) (hs0_3 t) _ _ _ _ _ _ _ ⟨n, hn'⟩).trans
        (tripR_eq (F := Ideal) Variants.none c none (grid0.coords t) (ms0_0 t) (hs0_0 t) (ms0_1 t) (hs0_1 t) (ms0_2 t) (hs0_2 t) (ms0_3 t) (hs0_3 t) _ _ _ _ _ _ ⟨n, hn'⟩ _)
    rw [hstep, Finset.sum_range_succ, Finset.sum_range_succ, ← add_assoc, ← add_assoc]
    have hT : gTerm m c t (n + 1) h w = term (PF m c) (KF m c) (bOf t) ⟨n + 1, by omega⟩ h w := by
      unfold gTerm; rw [dif_pos (by omega)]
    have hM : gMask m c t (n + 1) h w = mask (PF m c) (KF m c) (bOf t) ⟨n + 1, by omega⟩ h w := by
      unfold gMask; rw [dif_pos (by omega)]
    rw [hT, hM, ← (ih (by omega) h w).1, ← (ih (by omega) h w).2]
    constructor
    · exact Cert.KSlice.loopAcc1_cur (PF m c) (KF m c) (bOf t) (n + 1) (by omega) (by omega)
        (holdsP m c t _ _ ⟨n + 1, by omega⟩ (k0_off1_eq ⟨n, hn'⟩)) (holdsK m c t _ _ ⟨n + 1, by omega⟩ (k0_off1_eq ⟨n, hn'⟩))
        (holdsP m c t _ _ ⟨n + 1 + 1, by omega⟩ (k0_off2_eq ⟨n, hn'⟩)) (holdsP m c t _ _ ⟨n + 1 - 1, by omega⟩ (k0_off3_eq ⟨n, hn'⟩)) _ h w
    · exact Cert.KSlice.loopAcc2_cur (PF m c) (KF m c) (bOf t) (n + 1) (by omega) (by omega)
        (holdsP m c t _ _ ⟨n + 1, by omega⟩ (k0_off1_eq ⟨n, hn'⟩)) (holdsK m c t _ _ ⟨n + 1, by omega⟩ (k0_off1_eq ⟨n, hn'⟩)) _ h w

/-- The first stored block is the tile sum of the running total after time step 31, spread over the block. -/
theorem outNum_tileSum (a : FVec Ideal S256x256 .f32) (pT kT q31 q30 q29 : Vec Ideal S1x1x256x256 .f32) :
    outNum a pT kT q31 q30 q29
      = shapeCast S1x8x128 (Cert.Sums.tileSum (lastAcc1 a pT kT q31 q30 q29)) Cert.KernelIdeal.Facts₀.shapeCasts_S8x128_S1x8x128 := rfl

theorem outDen_tileSum (a : FVec Ideal S256x256 .f32) (pT kT : Vec Ideal S1x1x256x256 .f32) :
    outDen a pT kT
      = shapeCast S1x8x128 (Cert.Sums.tileSum (lastAcc2 a pT kT)) Cert.KernelIdeal.Facts₀.shapeCasts_S8x128_S1x8x128 := rfl

/-- Every entry of the first output block after grid point `t` is the total of the masked squares of batch entry `t`. -/
theorem outs_num (y : S1x8x128.Idx) : (outsAt0 m c t).1 y = num (PF m c) (KF m c) (bOf t) := by
  unfold outsAt0
  dsimp only
  rw [out2_eq, outNum_tileSum, Cert.Sums.tileSum3_apply]
  have hpt : ∀ h w, lastAcc1 (acc m c t 30).1 (p31 (ms0_0 t) (hs0_0 t) (iblk m c 0 t)) (k31 (ms0_1 t) (hs0_1 t) (iblk m c 1 t))
      (p31 (ms0_0 t) (hs0_0 t) (iblk m c 0 t)) (p30 (ms0_0 t) (hs0_0 t) (iblk m c 0 t)) (p29 (ms0_0 t) (hs0_0 t) (iblk m c 0 t)) (ix2 h w)
      = (gTerm m c t 0 h w + ∑ k ∈ Finset.range 30, gTerm m c t (k + 1) h w) + gTerm m c t 31 h w := fun h w => by
    refine (Cert.KSlice.lastAcc1_cur (PF m c) (KF m c) (bOf t) (holdsP m c t _ _ 31 rfl) (holdsK m c t _ _ 31 rfl)
      (holdsP m c t _ _ 31 rfl) (holdsP m c t _ _ 30 rfl) (holdsP m c t _ _ 29 rfl) _ h w).trans ?_
    rw [(acc_inv m c t 30 le_rfl h w).1]
    unfold gTerm; rw [dif_pos (by omega : 31 < 32)]; rfl
  simp only [hpt]
  rw [Cert.Sums.time_regroup (gTerm m c t)]
  unfold num
  refine Finset.sum_congr rfl fun s _ => Finset.sum_congr rfl fun h _ => Finset.sum_congr rfl fun w _ => ?_
  unfold gTerm; rw [dif_pos s.isLt]

/-- Every entry of the second output block after grid point `t` is the total of the masks of batch entry `t`. -/
theorem outs_den (y : S1x8x128.Idx) : (outsAt0 m c t).2 y = den (PF m c) (KF m c) (bOf t) := by
  unfold outsAt0
  dsimp only
  rw [out3_eq, outDen_tileSum, Cert.Sums.tileSum3_apply]
  have hpt : ∀ h w, lastAcc2 (acc m c t 30).2 (p31 (ms0_0 t) (hs0_0 t) (iblk m c 0 t)) (k31 (ms0_1 t) (hs0_1 t) (iblk m c 1 t)) (ix2 h w)
      = (gMask m c t 0 h w + ∑ k ∈ Finset.range 30, gMask m c t (k + 1) h w) + gMask m c t 31 h w := fun h w => by
    refine (Cert.KSlice.lastAcc2_cur (PF m c) (KF m c) (bOf t) (holdsP m c t _ _ 31 rfl) (holdsK m c t _ _ 31 rfl) _ h w).trans ?_
    rw [(acc_inv m c t 30 le_rfl h w).2]
    unfold gMask; rw [dif_pos (by omega : 31 < 32)]; rfl
  simp only [hpt]
  rw [Cert.Sums.time_regroup (gMask m c t)]
  unfold den
  refine Finset.sum_congr rfl fun s _ => Finset.sum_congr rfl fun h _ => Finset.sum_congr rfl fun w _ => ?_
  unfold gMask; rw [dif_pos s.isLt]

end Point

end Cert.KPoint

end
-- ==== Proof.KTail.lean ====
/-
  From the per-point output blocks to the result of the whole program.  Each grid point writes one (1, 8, 128)
  block of each of the two (16, 8, 128) output arrays; when every element of the block written at point t is one
  number N(t) (resp. D(t)), the arrays end as y ↦ N(y₀) and y ↦ D(y₀).  The operations after the region pick the
  element (b, 0, 0) of each, divide entry by entry, sum over the sixteen entries and divide by sixteen.
-/
import proofs.«174142_j82669530514041_2_alg».proof.Proof.Gen.KernelIdeal.Frame
import proofs.«174142_j82669530514041_2_alg».proof.Proof.Sums
import Idealize.ShloMosaic.Lib.Pipeline.Value
import Idealize.ShloMosaic.Lib.ValueIdx
import Idealize.ShloMosaic.Lib.Tactic

set_option maxRecDepth 16384

noncomputable section

namespace Cert.KTail

open Cert.KernelIdeal Cert.KernelIdeal.Gen Idealize.ShloMosaic Idealize.ShloMosaic.TcCoe Idealize.SL.Sem
open Idealize.ShloMosaic.Pipeline (Dat)
open Idealize.ShloMosaic.ValueIdx

variable (m : (ℓ : Loc nD τ sig) → Buf (Elt Ideal) ℓ) (ρ : Dev nD → PrngReg)

/-- A grid point as a batch entry: the grid has sixteen points. -/
abbrev pt (t : Fin cfg0.N) : Fin 16 := ⟨t.val, Nat.lt_of_lt_of_eq t.isLt N_0⟩

/-- The batch entry's grid point. -/
abbrev ofPt (b : Fin 16) : Fin cfg0.N := ⟨b.val, Nat.lt_of_lt_of_eq b.isLt N_0.symm⟩

/-- The index maps of the two output windows send grid point t to block (t, 0, 0): decided over the sixteen points. -/
theorem idx_out : ∀ t : Fin cfg0.N,
    win0_2.index t (0 : Fin 3) = t.val ∧ win0_2.index t (1 : Fin 3) = 0 ∧ win0_2.index t (2 : Fin 3) = 0
    ∧ win0_3.index t (0 : Fin 3) = t.val ∧ win0_3.index t (1 : Fin 3) = 0 ∧ win0_3.index t (2 : Fin 3) = 0 :=
  (by decide +kernel : ∀ t : Fin grid0.N, _)

section Blocks

variable (N D : Dev nD → Fin 16 → EReal)

/-- What point t writes back to the first output array is block t of y ↦ N(y₀). -/
theorem flushed2_eq (hN : ∀ c (t : Fin cfg0.N) (y : S1x8x128.Idx), (outsAt0 m c t).1 y = N c (pt t))
    (c : Dev nD) (t : Fin cfg0.N) :
    (dats m 0 c).flushed 2 t = ((cfg0.win 2).blk t).view.read (Elt Ideal) (fun y : S16x8x128.Idx => N c (y 0)) := by
  show (cfg0.win 2).cut (grid0.coords t) ((dats m 0 c).after 2 t) = _
  rw [after0_2]
  funext j
  show (outsAt0 m c t).1 _ = N c ((((cfg0.win 2).blk t).view.emb j) 0)
  rw [hN c t]
  refine congrArg (N c) (Fin.ext ?_)
  show t.val = win0_2.index t (0 : Fin 3) * 1 + 1 * (j 0).val
  have hj : (j 0).val < 1 := (j 0).isLt
  obtain ⟨e0, -⟩ := idx_out t
  omega

/-- Every index of the first output array is in the block of the point named by its first coordinate. -/
theorem cover2 (i : S16x8x128.Idx) :
    ∃ t : Fin cfg0.N, (cfg0.win 2).flush t = true ∧ i ∈ ((cfg0.win 2).blk t).view.set := by
  refine ⟨ofPt (i 0), flush0_2 _, ?_⟩
  show i ∈ ((View.whole main_v0_0).slice (win0_2.rect (ofPt (i 0)))).set
  rw [View.set_slice_whole, Rect.mem_set_unit]
  obtain ⟨e0, e1, e2, -⟩ := idx_out (ofPt (i 0))
  have h1 : (i 1).val < 8 := (i 1).isLt
  have h2 : (i 2).val < 128 := (i 2).isLt
  intro a
  match a with
  | ⟨0, _⟩ =>
    show win0_2.index (ofPt (i 0)) (0 : Fin 3) * 1 ≤ (i 0).val ∧ (i 0).val < win0_2.index (ofPt (i 0)) (0 : Fin 3) * 1 + 1
    rw [e0]; show (i 0).val * 1 ≤ (i 0).val ∧ (i 0).val < (i 0).val * 1 + 1; omega
  | ⟨1, _⟩ =>
    show win0_2.index (ofPt (i 0)) (1 : Fin 3) * 8 ≤ (i 1).val ∧ (i 1).val < win0_2.index (ofPt (i 0)) (1 : Fin 3) * 8 + 8
    rw [e1]; omega
  | ⟨2, _⟩ =>
    show win0_2.index (ofPt (i 0)) (2 : Fin 3) * 128 ≤ (i 2).val ∧ (i 2).val < win0_2.index (ofPt (i 0)) (2 : Fin 3) * 128 + 128
    rw [e2]; omega

/-- The first output array after the run. -/
theorem final2 (hN : ∀ c (t : Fin cfg0.N) (y : S1x8x128.Idx), (outsAt0 m c t).1 y = N c (pt t)) (c : Dev nD) :
    (dats m 0 c).arrAt 2 cfg0.N = fun y : S16x8x128.Idx => N c (y 0) :=
  (dats m 0 c).arrAt_eq_of_cover 2 (fun y : S16x8x128.Idx => N c (y 0)) (fun t _ => flushed2_eq m N hN c t) cover2

/-- What point t writes back to the second output array is block t of y ↦ D(y₀). -/
theorem flushed3_eq (hD : ∀ c (t : Fin cfg0.N) (y : S1x8x128.Idx), (outsAt0 m c t).2 y = D c (pt t))
    (c : Dev nD) (t : Fin cfg0.N) :
    (dats m 0 c).flushed 3 t = ((cfg0.win 3).blk t).view.read (Elt Ideal) (fun y : S16x8x128.Idx => D c (y 0)) := by
  show (cfg0.win 3).cut (grid0.coords t) ((dats m 0 c).after 3 t) = _
  rw [after0_3]
  funext j
  show (outsAt0 m c t).2 _ = D c ((((cfg0.win 3).blk t).view.emb j) 0)
  rw [hD c t]
  refine congrArg (D c) (Fin.ext ?_)
  show t.val = win0_3.index t (0 : Fin 3) * 1 + 1 * (j 0).val
  have hj : (j 0).val < 1 := (j 0).isLt
  obtain ⟨-, -, -, e0, -⟩ := idx_out t
  omega

/-- Every index of the second output array is in the block of the point named by its first coordinate. -/
theorem cover3 (i : S16x8x128.Idx) :
    ∃ t : Fin cfg0.N, (cfg0.win 3).flush t = true ∧ i ∈ ((cfg0.win 3).blk t).view.set := by
  refine ⟨ofPt (i 0), flush0_3 _, ?_⟩
  show i ∈ ((View.whole main_v0_1).slice (win0_3.rect (ofPt (i 0)))).set
  rw [View.set_slice_whole, Rect.mem_set_unit]
  obtain ⟨-, -, -, e0, e1, e2⟩ := idx_out (ofPt (i 0))
  have h1 : (i 1).val < 8 := (i 1).isLt
  have h2 : (i 2).val < 128 := (i 2).isLt
  intro a
  match a with
  | ⟨0, _⟩ =>
    show win0_3.index (ofPt (i 0)) (0 : Fin 3) * 1 ≤ (i 0).val ∧ (i 0).val < win0_3.index (ofPt (i 0)) (0 : Fin 3) * 1 + 1
    rw [e0]; show (i 0).val * 1 ≤ (i 0).val ∧ (i 0).val < (i 0).val * 1 + 1; omega
  | ⟨1, _⟩ =>
    show win0_3.index (ofPt (i 0)) (1 : Fin 3) * 8 ≤ (i 1).val ∧ (i 1).val < win0_3.index (ofPt (i 0)) (1 : Fin 3) * 8 + 8
    rw [e1]; omega
  | ⟨2, _⟩ =>
    show win0_3.index (ofPt (i 0)) (2 : Fin 3) * 128 ≤ (i 2).val ∧ (i 2).val < win0_3.index (ofPt (i 0)) (2 : Fin 3) * 128 + 128
    rw [e2]; omega

/-- The second output array after the run. -/
theorem final3 (hD : ∀ c (t : Fin cfg0.N) (y : S1x8x128.Idx), (outsAt0 m c t).2 y = D c (pt t)) (c : Dev nD) :
    (dats m 0 c).arrAt 3 cfg0.N = fun y : S16x8x128.Idx => D c (y 0) :=
  (dats m 0 c).arrAt_eq_of_cover 3 (fun y : S16x8x128.Idx => D c (y 0)) (fun t _ => flushed3_eq m D hD c t) cover3

end Blocks

section Tail

variable (N D : Dev nD → Fin 16 → EReal)

/-- The slice-and-reshape of an array that is constant along its last two axes, read back: the same function of the
    batch entry. -/
theorem pick_const (f : Fin 16 → EReal) :
    (fun j : S16.Idx => shapeCast S16 (extractStridedSlice S16x1x1 ![0, 0, 0] (fun y : S16x8x128.Idx => f (y 0))
        slices_S16x8x128_S16x1x1_0_0_0) shapeCasts_S16x1x1_S16 j) = fun j : S16.Idx => f (j 0) := by
  funext j
  rw [eq_ix1 j]
  exact Cert.Sums.tail_pick (fun y : S16x8x128.Idx => f (y 0)) (j 0)

/-- The operations after the region, applied to the two output arrays the region leaves. -/
theorem tail_eq (hN : ∀ c (t : Fin cfg0.N) (y : S1x8x128.Idx), (outsAt0 m c t).1 y = N c (pt t))
    (hD : ∀ c (t : Fin cfg0.N) (y : S1x8x128.Idx), (outsAt0 m c t).2 y = D c (pt t)) (c : Dev nD) :
    Pipeline.afterTail₀ cfgs (dats m) 0 (V0 m) [hostOps1] c main_v7
      = Host.divf (F := Ideal) (φ := .f32) (Host.reduceAdd (F := Ideal) (φ := .f32) (Host.divf (F := Ideal) (φ := .f32) (fun j : S16.Idx => N c (j 0)) (fun j : S16.Idx => D c (j 0))) (constant (F := Ideal) S_ .f32 0x00000000#32) reducesTo_S16_S_d0 h_S_) (constant (F := Ideal) S_ .f32 0x41800000#32) := by
  unfold Pipeline.afterTail₀
  show StableHlo.after (hostOps1 (F := Ideal)) _ (Proc.devRef .tc main_v7) = _
  after_results
  have e2 : Pipeline.withArrays (cfgs 0).spec c (V0 m c) (fun w => (dats m 0 c).arrAt w (cfgs 0).N)
      (Proc.devRef .tc main_v0_0) = fun y : S16x8x128.Idx => N c (y 0) :=
    (Pipeline.withArrays_arr spec0 launch0.win.arr_inj c _ _ 2).trans (final2 m N hN c)
  have e3 : Pipeline.withArrays (cfgs 0).spec c (V0 m c) (fun w => (dats m 0 c).arrAt w (cfgs 0).N)
      (Proc.devRef .tc main_v0_1) = fun y : S16x8x128.Idx => D c (y 0) :=
    (Pipeline.withArrays_arr spec0 launch0.win.arr_inj c _ _ 3).trans (final3 m D hD c)
  rw [e2, e3]
  exact congrArg₂ (fun a b => Host.divf (F := Ideal) (φ := .f32)
      (Host.reduceAdd (F := Ideal) (φ := .f32) (Host.divf (F := Ideal) (φ := .f32) a b)
        (constant (F := Ideal) S_ .f32 0x00000000#32) reducesTo_S16_S_d0 h_S_)
      (constant (F := Ideal) S_ .f32 0x41800000#32))
    (pick_const (N c)) (pick_const (D c))

/-- The run of the whole program: its result is the mean over the batch of N(b) / D(b), and the arguments are unchanged. -/
theorem run_tail (hN : ∀ c (t : Fin cfg0.N) (y : S1x8x128.Idx), (outsAt0 m c t).1 y = N c (pt t))
    (hD : ∀ c (t : Fin cfg0.N) (y : S1x8x128.Idx), (outsAt0 m c t).2 y = D c (pt t)) :
    θ_run defs (onTc (τ := τ) (main (F := Ideal))) ⟨m, fun _ => 0, ρ⟩ (fun r => ∀ c : Dev nD,
      r.2.mem ((c.tc : Thread nD τ).loc main_v7)
        = Host.divf (F := Ideal) (φ := .f32) (Host.reduceAdd (F := Ideal) (φ := .f32) (Host.divf (F := Ideal) (φ := .f32) (fun j : S16.Idx => N c (j 0)) (fun j : S16.Idx => D c (j 0))) (constant (F := Ideal) S_ .f32 0x00000000#32) reducesTo_S16_S_d0 h_S_) (constant (F := Ideal) S_ .f32 0x41800000#32)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
      ⟨((h c).2 main_v7 (Pipeline.mem_restRefs_of main_v7 rfl (by decide))).trans (tail_eq m N D hN hD c),
        ((h c).1 0).trans (((dats m 0 c).arrAt_in 0 rfl _).trans ((A_eq m c 0).trans (V_main_arg0 m c))),
        ((h c).1 1).trans (((dats m 0 c).arrAt_in 1 rfl _).trans ((A_eq m c 1).trans (V_main_arg1 m c)))⟩)
    (run_main m ρ)

end Tail

end Cert.KTail

end
-- ==== Proof.LibScatterSelf.lean ====
/-
  A scatter whose combining function ignores the updates leaves its operand unchanged.

  The host's scatter folds over the update's positions; each step replaces one element `x i` of the operand by
  `f (x i) u`, with `u` the update's element there, or drops the update when its position falls outside the operand.
  When `f a u = a` for every element `u` of the update — adding zero, taking a maximum with −∞, multiplying by one —
  every step returns the array it was given, whatever the operand, index and update shapes, the dimension numbers, the
  index width and the element type.
-/
import Idealize.ShloMosaic.PureOps.ShapeOps

noncomputable section

namespace Cert.LibScatterSelf

open Idealize.ShloMosaic

/-- A left fold whose step never changes the state returns the initial state. -/
theorem foldl_eq_self {β γ : Type} (F : β → γ → β) (hF : ∀ r n, F r n = r) (x : β) (l : List γ) : l.foldl F x = x := by
  induction l with
  | nil => rfl
  | cons n l ih => rw [List.foldl_cons, hF]; exact ih

/-- `Host.scatter d f x idx upd = x` when the combining function returns its first argument against every element of
    the update. -/
theorem scatter_eq_self {s si u : Shape} {α : Type} {wd : ℕ} (d : ScatterDims s si u) (f : α → α → α) (x : s.Idx → α)
    (idx : IVec si wd) (upd : u.Idx → α) (hf : ∀ a j, f a (upd j) = a) : Host.scatter d f x idx upd = x := by
  unfold Host.scatter
  refine foldl_eq_self _ (fun r n => ?_) x _
  split
  · next i _ =>
    funext i'
    by_cases hi : i' = i
    · rw [if_pos hi, hf, hi]
    · rw [if_neg hi]
  · rfl

end Cert.LibScatterSelf

end
-- ==== Proof.RefValue.lean ====
/-
  The reference program's arrays are the specification's fields.

  The reference spells each second-order gradient along the last axis of an array as three pieces joined along that
  axis (the one-sided formulas at the two ends, the central differences in between), a gradient along the rows as that
  term between two exchanges of the last two axes, and the gradient along time as that term with the time axis moved
  last and back.  Read at an index, the term is the specification's `grad` of the sequence along the axis; the
  pointwise operations read through; the scatter adds the constant zero at one position of every slice and so changes
  nothing.  Every step is the same operations in the same order on both sides.
-/
import proofs.«174142_j82669530514041_2_alg».proof.Proof.Gen.ReferenceIdeal.Run
import proofs.«174142_j82669530514041_2_alg».proof.Proof.Stencil
import proofs.«174142_j82669530514041_2_alg».proof.Proof.LibScatterSelf
import Idealize.ShloMosaic.Lib.ValueIdx
import Idealize.ShloMosaic.Lib.Pipeline.Value
import Idealize.ShloMosaic.Lib.IdealHost
import Idealize.ShloMosaic.PureOps.Ideal.Laws

noncomputable section

namespace Cert.RefValue

open Cert.ReferenceIdeal Cert.ReferenceIdeal.Gen Cert.ReferenceIdeal.Value Cert.Stencil Cert.LibScatterSelf Idealize.ShloMosaic Idealize.ShloMosaic.ValueIdx

/-! ## Reading the layout operations at an index -/

/-- A slice along the last axis of a rank-4 array, read at an index: the operand at the same leading coordinates and
    the last coordinate moved by the offset. -/
theorem slice_last {n0 n1 n2 n m : ℕ} (o : ℕ) (X : (⟨4, ![n0, n1, n2, n]⟩ : Shape).Idx → EReal)
    (h : (⟨4, ![n0, n1, n2, n]⟩ : Shape).Slices ![0, 0, 0, o] ⟨4, ![n0, n1, n2, m]⟩)
    (a : Fin n0) (b : Fin n1) (c : Fin n2) (z : Fin m) (y : Fin n) (hy : y.val = o + z.val) :
    extractStridedSlice ⟨4, ![n0, n1, n2, m]⟩ ![0, 0, 0, o] X h (ix4 a b c z) = X (ix4 a b c y) :=
  extractStridedSlice_apply _ X h _ _ fun e => match e with
    | ⟨0, _⟩ => by show a.val = 0 + a.val; omega
    | ⟨1, _⟩ => by show b.val = 0 + b.val; omega
    | ⟨2, _⟩ => by show c.val = 0 + c.val; omega
    | ⟨3, _⟩ => hy

/-- Exchanging the last two axes. -/
theorem swap_apply (X : FVec Ideal S16x32x256x256 .f32) (a : Fin 16) (b : Fin 32) (c d : Fin 256) :
    transpose S16x32x256x256 [0, 1, 3, 2] X transposes_S16x32x256x256_S16x32x256x256_0_1_3_2 (ix4 a b c d) = X (ix4 a b d c) :=
  transpose_apply _ X _ _ _ fun e => match e with
    | ⟨0, _⟩ => rfl
    | ⟨1, _⟩ => rfl
    | ⟨2, _⟩ => rfl
    | ⟨3, _⟩ => rfl

/-- Moving the time axis last. -/
theorem timeLast_apply (X : FVec Ideal S16x32x256x256 .f32) (a : Fin 16) (h w : Fin 256) (t : Fin 32) :
    transpose S16x256x256x32 [0, 2, 3, 1] X transposes_S16x32x256x256_S16x256x256x32_0_2_3_1 (ix4 a h w t) = X (ix4 a t h w) :=
  transpose_apply _ X _ _ _ fun e => match e with
    | ⟨0, _⟩ => rfl
    | ⟨1, _⟩ => rfl
    | ⟨2, _⟩ => rfl
    | ⟨3, _⟩ => rfl

/-- Moving the time axis back to the second place. -/
theorem timeBack_apply (Y : FVec Ideal S16x256x256x32 .f32) (a : Fin 16) (t : Fin 32) (h w : Fin 256) :
    transpose S16x32x256x256 [0, 3, 1, 2] Y transposes_S16x256x256x32_S16x32x256x256_0_3_1_2 (ix4 a t h w) = Y (ix4 a h w t) :=
  transpose_apply _ Y _ _ _ fun e => match e with
    | ⟨0, _⟩ => rfl
    | ⟨1, _⟩ => rfl
    | ⟨2, _⟩ => rfl
    | ⟨3, _⟩ => rfl

/-- The gradient's formula at the last position, for the two lengths met here. -/
theorem grad_last_256 (c : EReal) (g : ℕ → EReal) : grad 256 c g 255 = ((c3 * g 255 - c4 * g 254) + g 253) * c :=
  grad_last 256 (by decide) c g
theorem grad_last_32 (c : EReal) (g : ℕ → EReal) : grad 32 c g 31 = ((c3 * g 31 - c4 * g 30) + g 29) * c :=
  grad_last 32 (by decide) c g

/-! ## The gradient along the last axis, as the reference spells it

Three pieces joined along the last axis: the one-sided formula at the first position, the central differences at the
positions in between, the one-sided formula at the last position; every constant a scalar broadcast. -/

def gradLast (w : BitVec 32) (X : FVec Ideal S16x32x256x256 .f32) : FVec Ideal S16x32x256x256 .f32 :=
  concatenate S16x32x256x256 3
    [⟨S16x32x256x1, (mulf (subf (addf (mulf (broadcastInDim S16x32x256x1 ![] bcast_S_S16x32x256x1 (constant (F := Ideal) S_ .f32 0xC0400000#32)) (extractStridedSlice S16x32x256x1 ![0, 0, 0, 0] X slices_S16x32x256x256_S16x32x256x1_0_0_0_0)) (mulf (broadcastInDim S16x32x256x1 ![] bcast_S_S16x32x256x1 (constant (F := Ideal) S_ .f32 0x40800000#32)) (extractStridedSlice S16x32x256x1 ![0, 0, 0, 1] X slices_S16x32x256x256_S16x32x256x1_0_0_0_1))) (extractStridedSlice S16x32x256x1 ![0, 0, 0, 2] X slices_S16x32x256x256_S16x32x256x1_0_0_0_2)) (broadcastInDim S16x32x256x1 ![] bcast_S_S16x32x256x1 (constant (F := Ideal) S_ .f32 w)))⟩,
     ⟨S16x32x256x254, (mulf (subf (extractStridedSlice S16x32x256x254 ![0, 0, 0, 2] X slices_S16x32x256x256_S16x32x256x254_0_0_0_2) (extractStridedSlice S16x32x256x254 ![0, 0, 0, 0] X slices_S16x32x256x256_S16x32x256x254_0_0_0_0)) (broadcastInDim S16x32x256x254 ![] bcast_S_S16x32x256x254 (constant (F := Ideal) S_ .f32 w)))⟩,
     ⟨S16x32x256x1, (mulf (addf (subf (mulf (broadcastInDim S16x32x256x1 ![] bcast_S_S16x32x256x1 (constant (F := Ideal) S_ .f32 0x40400000#32)) (extractStridedSlice S16x32x256x1 ![0, 0, 0, 255] X slices_S16x32x256x256_S16x32x256x1_0_0_0_255)) (mulf (broadcastInDim S16x32x256x1 ![] bcast_S_S16x32x256x1 (constant (F := Ideal) S_ .f32 0x40800000#32)) (extractStridedSlice S16x32x256x1 ![0, 0, 0, 254] X slices_S16x32x256x256_S16x32x256x1_0_0_0_254))) (extractStridedSlice S16x32x256x1 ![0, 0, 0, 253] X slices_S16x32x256x256_S16x32x256x1_0_0_0_253)) (broadcastInDim S16x32x256x1 ![] bcast_S_S16x32x256x1 (constant (F := Ideal) S_ .f32 w)))⟩]
    concatenates_S16x32x256x1_S16x32x256x254_S16x32x256x1_S16x32x256x256_d3

def gradLastT (w : BitVec 32) (X : FVec Ideal S16x256x256x32 .f32) : FVec Ideal S16x256x256x32 .f32 :=
  concatenate S16x256x256x32 3
    [⟨S16x256x256x1, (mulf (subf (addf (mulf (broadcastInDim S16x256x256x1 ![] bcast_S_S16x256x256x1 (constant (F := Ideal) S_ .f32 0xC0400000#32)) (extractStridedSlice S16x256x256x1 ![0, 0, 0, 0] X slices_S16x256x256x32_S16x256x256x1_0_0_0_0)) (mulf (broadcastInDim S16x256x256x1 ![] bcast_S_S16x256x256x1 (constant (F := Ideal) S_ .f32 0x40800000#32)) (extractStridedSlice S16x256x256x1 ![0, 0, 0, 1] X slices_S16x256x256x32_S16x256x256x1_0_0_0_1))) (extractStridedSlice S16x256x256x1 ![0, 0, 0, 2] X slices_S16x256x256x32_S16x256x256x1_0_0_0_2)) (broadcastInDim S16x256x256x1 ![] bcast_S_S16x256x256x1 (constant (F := Ideal) S_ .f32 w)))⟩,
     ⟨S16x256x256x30, (mulf (subf (extractStridedSlice S16x256x256x30 ![0, 0, 0, 2] X slices_S16x256x256x32_S16x256x256x30_0_0_0_2) (extractStridedSlice S16x256x256x30 ![0, 0, 0, 0] X slices_S16x256x256x32_S16x256x256x30_0_0_0_0)) (broadcastInDim S16x256x256x30 ![] bcast_S_S16x256x256x30 (constant (F := Ideal) S_ .f32 w)))⟩,
     ⟨S16x256x256x1, (mulf (addf (subf (mulf (broadcastInDim S16x256x256x1 ![] bcast_S_S16x256x256x1 (constant (F := Ideal) S_ .f32 0x40400000#32)) (extractStridedSlice S16x256x256x1 ![0, 0, 0, 31] X slices_S16x256x256x32_S16x256x256x1_0_0_0_31)) (mulf (broadcastInDim S16x256x256x1 ![] bcast_S_S16x256x256x1 (constant (F := Ideal) S_ .f32 0x40800000#32)) (extractStridedSlice S16x256x256x1 ![0, 0, 0, 30] X slices_S16x256x256x32_S16x256x256x1_0_0_0_30))) (extractStridedSlice S16x256x256x1 ![0, 0, 0, 29] X slices_S16x256x256x32_S16x256x256x1_0_0_0_29)) (broadcastInDim S16x256x256x1 ![] bcast_S_S16x256x256x1 (constant (F := Ideal) S_ .f32 w)))⟩]
    concatenates_S16x256x256x1_S16x256x256x30_S16x256x256x1_S16x256x256x32_d3

/-- The spelled gradient at an index is the specification's gradient of the sequence along the last axis. -/
theorem gradLast_apply (w : BitVec 32) (X : FVec Ideal S16x32x256x256 .f32) (a : Fin 16) (b : Fin 32) (c : Fin 256) (d : Fin 256)
    (g : ℕ → EReal) (hg : ∀ k (hk : k < 256), g k = X (ix4 a b c ⟨k, hk⟩)) :
    gradLast w X (ix4 a b c d) = grad 256 (lit w) g d.val := by
  have hd := d.isLt
  by_cases h0 : d.val = 0
  · -- the first position: the one-sided formula on g 0, g 1, g 2
    rw [h0, grad_zero]
    have e0 := (slice_last 0 X slices_S16x32x256x256_S16x32x256x1_0_0_0_0 a b c (⟨0, Nat.one_pos⟩ : Fin 1) ⟨0, by decide⟩ rfl).trans (hg 0 (by decide)).symm
    have e1 := (slice_last 1 X slices_S16x32x256x256_S16x32x256x1_0_0_0_1 a b c (⟨0, Nat.one_pos⟩ : Fin 1) ⟨1, by decide⟩ rfl).trans (hg 1 (by decide)).symm
    have e2 := (slice_last 2 X slices_S16x32x256x256_S16x32x256x1_0_0_0_2 a b c (⟨0, Nat.one_pos⟩ : Fin 1) ⟨2, by decide⟩ rfl).trans (hg 2 (by decide)).symm
    rw [← e0, ← e1, ← e2]
    unfold gradLast
    refine (concatenate_apply_piece (3 : Fin 4) _ _ (ix4 a b c d) 0 (by show (0 : ℕ) < 3; decide) S16x32x256x1 _ (by rfl) (by rfl) 0 (by rfl)
      (ix4 a b c (⟨0, Nat.one_pos⟩ : Fin 1)) (fun e => match e with
        | ⟨0, _⟩ => fun _ => rfl
        | ⟨1, _⟩ => fun _ => rfl
        | ⟨2, _⟩ => fun _ => rfl
        | ⟨3, _⟩ => fun he => absurd rfl he) (by show 0 + 0 = d.val; omega)).trans ?_
    rfl
  · by_cases h1 : d.val = 255
    · -- the last position: the one-sided formula on g (n-1), g (n-2), g (n-3)
      rw [h1, grad_last_256]
      have e0 := (slice_last 255 X slices_S16x32x256x256_S16x32x256x1_0_0_0_255 a b c (⟨0, Nat.one_pos⟩ : Fin 1) ⟨255, by decide⟩ rfl).trans (hg 255 (by decide)).symm
      have e1 := (slice_last 254 X slices_S16x32x256x256_S16x32x256x1_0_0_0_254 a b c (⟨0, Nat.one_pos⟩ : Fin 1) ⟨254, by decide⟩ rfl).trans (hg 254 (by decide)).symm
      have e2 := (slice_last 253 X slices_S16x32x256x256_S16x32x256x1_0_0_0_253 a b c (⟨0, Nat.one_pos⟩ : Fin 1) ⟨253, by decide⟩ rfl).trans (hg 253 (by decide)).symm
      rw [← e0, ← e1, ← e2]
      unfold gradLast
      refine (concatenate_apply_piece (3 : Fin 4) _ _ (ix4 a b c d) 2 (by show (2 : ℕ) < 3; decide) S16x32x256x1 _ (by rfl) (by rfl) 255 (by rfl)
        (ix4 a b c (⟨0, Nat.one_pos⟩ : Fin 1)) (fun e => match e with
        | ⟨0, _⟩ => fun _ => rfl
        | ⟨1, _⟩ => fun _ => rfl
        | ⟨2, _⟩ => fun _ => rfl
        | ⟨3, _⟩ => fun he => absurd rfl he) (by show 255 + 0 = d.val; omega)).trans ?_
      rfl
    · -- in between: the central difference on g (i+1), g (i-1)
      rw [grad_mid 256 (lit w) g d.val h0 h1]
      have hz : d.val - 1 < 254 := by omega
      have e0 := (slice_last 2 X slices_S16x32x256x256_S16x32x256x254_0_0_0_2 a b c (⟨d.val - 1, hz⟩ : Fin 254) ⟨d.val + 1, by omega⟩ (by show d.val + 1 = 2 + (d.val - 1); omega)).trans (hg (d.val + 1) (by omega)).symm
      have e1 := (slice_last 0 X slices_S16x32x256x256_S16x32x256x254_0_0_0_0 a b c (⟨d.val - 1, hz⟩ : Fin 254) ⟨d.val - 1, by omega⟩ (by show d.val - 1 = 0 + (d.val - 1); omega)).trans (hg (d.val - 1) (by omega)).symm
      rw [← e0, ← e1]
      unfold gradLast
      refine (concatenate_apply_piece (3 : Fin 4) _ _ (ix4 a b c d) 1 (by show (1 : ℕ) < 3; decide) S16x32x256x254 _ (by rfl) (by rfl) 1 (by rfl)
        (ix4 a b c (⟨d.val - 1, hz⟩ : Fin 254)) (fun e => match e with
        | ⟨0, _⟩ => fun _ => rfl
        | ⟨1, _⟩ => fun _ => rfl
        | ⟨2, _⟩ => fun _ => rfl
        | ⟨3, _⟩ => fun he => absurd rfl he) (by show 1 + (d.val - 1) = d.val; omega)).trans ?_
      rfl

theorem gradLastT_apply (w : BitVec 32) (X : FVec Ideal S16x256x256x32 .f32) (a : Fin 16) (b : Fin 256) (c : Fin 256) (d : Fin 32)
    (g : ℕ → EReal) (hg : ∀ k (hk : k < 32), g k = X (ix4 a b c ⟨k, hk⟩)) :
    gradLastT w X (ix4 a b c d) = grad 32 (lit w) g d.val := by
  have hd := d.isLt
  by_cases h0 : d.val = 0
  · -- the first position: the one-sided formula on g 0, g 1, g 2
    rw [h0, grad_zero]
    have e0 := (slice_last 0 X slices_S16x256x256x32_S16x256x256x1_0_0_0_0 a b c (⟨0, Nat.one_pos⟩ : Fin 1) ⟨0, by decide⟩ rfl).trans (hg 0 (by decide)).symm
    have e1 := (slice_last 1 X slices_S16x256x256x32_S16x256x256x1_0_0_0_1 a b c (⟨0, Nat.one_pos⟩ : Fin 1) ⟨1, by decide⟩ rfl).trans (hg 1 (by decide)).symm
    have e2 := (slice_last 2 X slices_S16x256x256x32_S16x256x256x1_0_0_0_2 a b c (⟨0, Nat.one_pos⟩ : Fin 1) ⟨2, by decide⟩ rfl).trans (hg 2 (by decide)).symm
    rw [← e0, ← e1, ← e2]
    unfold gradLastT
    refine (concatenate_apply_piece (3 : Fin 4) _ _ (ix4 a b c d) 0 (by show (0 : ℕ) < 3; decide) S16x256x256x1 _ (by rfl) (by rfl) 0 (by rfl)
      (ix4 a b c (⟨0, Nat.one_pos⟩ : Fin 1)) (fun e => match e with
        | ⟨0, _⟩ => fun _ => rfl
        | ⟨1, _⟩ => fun _ => rfl
        | ⟨2, _⟩ => fun _ => rfl
        | ⟨3, _⟩ => fun he => absurd rfl he) (by show 0 + 0 = d.val; omega)).trans ?_
    rfl
  · by_cases h1 : d.val = 31
    · -- the last position: the one-sided formula on g (n-1), g (n-2), g (n-3)
      rw [h1, grad_last_32]
      have e0 := (slice_last 31 X slices_S16x256x256x32_S16x256x256x1_0_0_0_31 a b c (⟨0, Nat.one_pos⟩ : Fin 1) ⟨31, by decide⟩ rfl).trans (hg 31 (by decide)).symm
      have e1 := (slice_last 30 X slices_S16x256x256x32_S16x256x256x1_0_0_0_30 a b c (⟨0, Nat.one_pos⟩ : Fin 1) ⟨30, by decide⟩ rfl).trans (hg 30 (by decide)).symm
      have e2 := (slice_last 29 X slices_S16x256x256x32_S16x256x256x1_0_0_0_29 a b c (⟨0, Nat.one_pos⟩ : Fin 1) ⟨29, by decide⟩ rfl).trans (hg 29 (by decide)).symm
      rw [← e0, ← e1, ← e2]
      unfold gradLastT
      refine (concatenate_apply_piece (3 : Fin 4) _ _ (ix4 a b c d) 2 (by show (2 : ℕ) < 3; decide) S16x256x256x1 _ (by rfl) (by rfl) 31 (by rfl)
        (ix4 a b c (⟨0, Nat.one_pos⟩ : Fin 1)) (fun e => match e with
        | ⟨0, _⟩ => fun _ => rfl
        | ⟨1, _⟩ => fun _ => rfl
        | ⟨2, _⟩ => fun _ => rfl
        | ⟨3, _⟩ => fun he => absurd rfl he) (by show 31 + 0 = d.val; omega)).trans ?_
      rfl
    · -- in between: the central difference on g (i+1), g (i-1)
      rw [grad_mid 32 (lit w) g d.val h0 h1]
      have hz : d.val - 1 < 30 := by omega
      have e0 := (slice_last 2 X slices_S16x256x256x32_S16x256x256x30_0_0_0_2 a b c (⟨d.val - 1, hz⟩ : Fin 30) ⟨d.val + 1, by omega⟩ (by show d.val + 1 = 2 + (d.val - 1); omega)).trans (hg (d.val + 1) (by omega)).symm
      have e1 := (slice_last 0 X slices_S16x256x256x32_S16x256x256x30_0_0_0_0 a b c (⟨d.val - 1, hz⟩ : Fin 30) ⟨d.val - 1, by omega⟩ (by show d.val - 1 = 0 + (d.val - 1); omega)).trans (hg (d.val - 1) (by omega)).symm
      rw [← e0, ← e1]
      unfold gradLastT
      refine (concatenate_apply_piece (3 : Fin 4) _ _ (ix4 a b c d) 1 (by show (1 : ℕ) < 3; decide) S16x256x256x30 _ (by rfl) (by rfl) 1 (by rfl)
        (ix4 a b c (⟨d.val - 1, hz⟩ : Fin 30)) (fun e => match e with
        | ⟨0, _⟩ => fun _ => rfl
        | ⟨1, _⟩ => fun _ => rfl
        | ⟨2, _⟩ => fun _ => rfl
        | ⟨3, _⟩ => fun he => absurd rfl he) (by show 1 + (d.val - 1) = d.val; omega)).trans ?_
      rfl

/-- As fields: the spelled gradient along the last axis is the gradient along the columns. -/
theorem cur4_gradLast (w : BitVec 32) (X : FVec Ideal S16x32x256x256 .f32) : cur4 (gradLast w X) = gW (lit w) (cur4 X) := by
  funext b t h x
  exact gradLast_apply w X b t h x _ fun k hk => dif_pos hk

/-- The gradient along the rows, as the reference spells it: the last-axis term between two exchanges of the last two axes. -/
def gradRows (w : BitVec 32) (X : FVec Ideal S16x32x256x256 .f32) : FVec Ideal S16x32x256x256 .f32 :=
  transpose S16x32x256x256 [0, 1, 3, 2]
    (gradLast w (transpose S16x32x256x256 [0, 1, 3, 2] X transposes_S16x32x256x256_S16x32x256x256_0_1_3_2))
    transposes_S16x32x256x256_S16x32x256x256_0_1_3_2

theorem cur4_gradRows (w : BitVec 32) (X : FVec Ideal S16x32x256x256 .f32) : cur4 (gradRows w X) = gH (lit w) (cur4 X) := by
  funext b t h x
  refine (swap_apply _ b t h x).trans ?_
  exact gradLast_apply w _ b t x h _ fun k hk => (dif_pos hk).trans (swap_apply X b t x ⟨k, hk⟩).symm

/-- The gradient along time, as the reference spells it: the last-axis term with the time axis moved last and back. -/
def gradTime (w : BitVec 32) (X : FVec Ideal S16x32x256x256 .f32) : FVec Ideal S16x32x256x256 .f32 :=
  transpose S16x32x256x256 [0, 3, 1, 2]
    (gradLastT w (transpose S16x256x256x32 [0, 2, 3, 1] X transposes_S16x32x256x256_S16x256x256x32_0_2_3_1))
    transposes_S16x256x256x32_S16x32x256x256_0_3_1_2

theorem cur4_gradTime (w : BitVec 32) (X : FVec Ideal S16x32x256x256 .f32) : cur4 (gradTime w X) = gT (lit w) (cur4 X) := by
  funext b t h x
  refine (timeBack_apply _ b t h x).trans ?_
  exact gradLastT_apply w _ b h x t _ fun k hk => (dif_pos hk).trans (timeLast_apply X b h x ⟨k, hk⟩).symm

/-- The pointwise operations as operations on fields. -/
theorem cur4_mulf (X Y : FVec Ideal S16x32x256x256 .f32) : cur4 (mulf X Y) = fmul (cur4 X) (cur4 Y) := rfl
theorem cur4_addf (X Y : FVec Ideal S16x32x256x256 .f32) : cur4 (addf X Y) = fadd (cur4 X) (cur4 Y) := rfl

/-! ## The scatter changes nothing

It folds over the update's positions; each step replaces one element `x i` by `f (x i) u` with `u` the update's
element there, or drops the update.  When `f a u = a` for every update element, every step returns the array it was given
(the general statement is in LibScatterSelf.lean). -/

/-- The f32 word of minus zero is the extended real zero. -/
theorem lit_negZero : lit 0x80000000#32 = 0 := by
  show Ideal.ofBits .f32 0x80000000#32 = 0
  simp [Ideal.ofBits, Ideal.ieee]

/-- Adding minus zero changes nothing. -/
theorem addf_negZero (a : EReal) : FloatOps.addf (F := Ideal) (φ := .f32) a (lit 0x80000000#32) = a := by
  show a + lit 0x80000000#32 = a
  rw [lit_negZero, add_zero]

/-! ## The reference's arrays

The two arguments' launch contents are `p` and `K`; each named array of the run is one of the terms above applied to
them, by unfolding. -/

section Arrays
variable (V0 : Valuation τ sig (Elt Ideal))

/-- The two arguments' launch contents. -/
abbrev argP : FVec Ideal S16x32x256x256 .f32 := V0 (Proc.devRef .tc main_arg0)
abbrev argK : FVec Ideal S16x32x256x256 .f32 := V0 (Proc.devRef .tc main_arg1)

theorem v29_eq : res_main_v29 (F := Ideal) V0 = gradRows 0x3CA3D70A#32 (argP V0) := rfl

theorem v57_eq : res_main_v57 (F := Ideal) V0 = gradLast 0x3C23D70A#32 (argP V0) := rfl

theorem v118_eq : res_main_v118 (F := Ideal) V0 =
    addf (gradRows 0x3CA3D70A#32 (mulf (argK V0) (res_main_v29 (F := Ideal) V0)))
      (gradLast 0x3C23D70A#32 (mulf (argK V0) (res_main_v57 (F := Ideal) V0))) := rfl

theorem v238_eq : res_main_v238 (F := Ideal) V0 =
    addf (mulf (addf (gradRows 0x3CA3D70A#32 (res_main_v29 (F := Ideal) V0)) (gradLast 0x3C23D70A#32 (res_main_v57 (F := Ideal) V0))) (argK V0))
      (mulf (res_main_v29 (F := Ideal) V0) (gradRows 0x3CA3D70A#32 (argK V0))) := rfl

/-- ∂p/∂x. -/
theorem pdx_eq : cur4 (res_main_v29 (F := Ideal) V0) = pdx (cur4 (argP V0)) := by
  rw [v29_eq]; exact cur4_gradRows _ _

/-- ∂p/∂y. -/
theorem pdy_eq : cur4 (res_main_v57 (F := Ideal) V0) = pdy (cur4 (argP V0)) := by
  rw [v57_eq]; exact cur4_gradLast _ _

/-- div(K ∇p). -/
theorem divk_eq : cur4 (res_main_v118 (F := Ideal) V0) = divk (cur4 (argP V0)) (cur4 (argK V0)) := by
  rw [v118_eq, cur4_addf, cur4_gradRows, cur4_gradLast, cur4_mulf, cur4_mulf, pdx_eq, pdy_eq]
  rfl

/-- The expanded form of the divergence. -/
theorem divk2_eq : cur4 (addf (res_main_v238 (F := Ideal) V0) (mulf (res_main_v57 (F := Ideal) V0) (gradLast 0x3C23D70A#32 (argK V0)))) =
    divk2 (cur4 (argP V0)) (cur4 (argK V0)) := by
  rw [v238_eq, cur4_addf, cur4_addf, cur4_mulf, cur4_addf, cur4_gradRows, cur4_gradLast, cur4_mulf, cur4_gradRows,
    cur4_mulf, cur4_gradLast, pdx_eq, pdy_eq]
  rfl

/-- The mask. -/
theorem mask_eq : cur4 (res_main_v284 (F := Ideal) V0) = mask (cur4 (V0 (Proc.devRef .tc main_arg0))) (cur4 (V0 (Proc.devRef .tc main_arg1))) := by
  funext b t h x
  show maskOf (cur4 (res_main_v118 (F := Ideal) V0) b t h x
    - cur4 (addf (res_main_v238 (F := Ideal) V0) (mulf (res_main_v57 (F := Ideal) V0) (gradLast 0x3C23D70A#32 (argK V0)))) b t h x) = _
  rw [divk_eq, divk2_eq]
  rfl

/-- The scatter adds the constant zero at one position of every (batch, time) slice: the residual array is its operand. -/
theorem v282_eq : res_main_v282 (F := Ideal) V0 =
    subf (res_main_v118 (F := Ideal) V0) (mulf (gradTime 0x3F000000#32 (argP V0))
      (broadcastInDim S16x32x256x256 ![] bcast_S_S16x32x256x256 (constant (F := Ideal) S_ .f32 0x3951B717#32))) :=
  scatter_eq_self _ _ _ _ _ fun a _ => addf_negZero a

/-- The residual div(K ∇p) − S·∂t p. -/
theorem resid_eq : cur4 (res_main_v282 (F := Ideal) V0) = resid (cur4 (argP V0)) (cur4 (argK V0)) := by
  rw [v282_eq]
  funext b t h x
  show cur4 (res_main_v118 (F := Ideal) V0) b t h x - cur4 (gradTime 0x3F000000#32 (argP V0)) b t h x * cS = _
  rw [divk_eq, cur4_gradTime]
  rfl

/-- The masked square of the residual. -/
theorem term_eq : cur4 (mulf (F := Ideal) (s := S16x32x256x256) (φ := .f32) (mulf (F := Ideal) (s := S16x32x256x256) (φ := .f32) (res_main_v282 (F := Ideal) V0) (res_main_v282 (F := Ideal) V0)) (res_main_v284 (F := Ideal) V0)) =
    term (cur4 (V0 (Proc.devRef .tc main_arg0))) (cur4 (V0 (Proc.devRef .tc main_arg1))) := by
  funext b t h x
  show (cur4 (res_main_v282 (F := Ideal) V0) b t h x * cur4 (res_main_v282 (F := Ideal) V0) b t h x)
    * cur4 (res_main_v284 (F := Ideal) V0) b t h x = _
  rw [resid_eq, mask_eq]
  rfl

end Arrays

end Cert.RefValue

end
-- ==== Proof.RefTotal.lean ====
/-
  The reference's result as a function of the two totals.

  The reference divides, batch entry by batch entry, the sum over time, rows and columns of the masked squares by the
  sum of the masks, adds the sixteen quotients and divides by sixteen.  The two inner sums, read at a batch entry, are
  the specification's two totals of that entry; the outer operations are left as they stand.
-/
import proofs.«174142_j82669530514041_2_alg».proof.Proof.RefValue
import proofs.«174142_j82669530514041_2_alg».proof.Proof.Sums
import proofs.«174142_j82669530514041_2_alg».proof.Proof.Gen.ReferenceIdeal.Run

noncomputable section

open scoped BigOperators

namespace Cert.RefTotal

open Cert.ReferenceIdeal Cert.ReferenceIdeal.Gen Cert.ReferenceIdeal.Value Cert.Stencil Idealize.ShloMosaic Idealize.ShloMosaic.ValueIdx

/-- The mean over the batch of the quotients of the two totals, as the reference computes it: the sixteen quotients
    summed from zero, the sum divided by sixteen (a rank-0 array). -/
def total (P K : Field) : FVec Ideal S_ .f32 :=
  Host.divf (F := Ideal)
    (Host.reduceAdd (F := Ideal) (φ := .f32)
      (Host.divf (F := Ideal) (s := S16) (φ := .f32) (fun j : S16.Idx => num P K (j 0)) (fun j : S16.Idx => den P K (j 0)))
      (constant S_ .f32 0x00000000#32) reducesTo_S16_S_d0 h_S_)
    (constant S_ .f32 0x41800000#32)

/-- The sum over time, rows and columns of the masked squares, batch entry by batch entry, is the first total. -/
theorem num_eq (V0 : Valuation τ sig (Elt Ideal)) :
    Host.reduceAdd (F := Ideal) (φ := .f32)
        (mulf (mulf (res_main_v282 (F := Ideal) V0) (res_main_v282 (F := Ideal) V0)) (res_main_v284 (F := Ideal) V0))
        (constant S_ .f32 0x00000000#32) reducesTo_S16x32x256x256_S16_d1_2_3 h_S_
      = fun j : S16.Idx => num (cur4 (V0 (Proc.devRef .tc main_arg0))) (cur4 (V0 (Proc.devRef .tc main_arg1))) (j 0) := by
  funext j
  obtain ⟨b, rfl⟩ : ∃ b, j = ix1 b := ⟨j 0, eq_ix1 j⟩
  refine (Cert.Sums.host_sum3 _ b).trans ?_
  show _ = num _ _ b
  unfold num
  refine Finset.sum_congr rfl fun t _ => Finset.sum_congr rfl fun h _ => Finset.sum_congr rfl fun w _ => ?_
  exact congrFun (congrFun (congrFun (congrFun (Cert.RefValue.term_eq V0) b) t) h) w

/-- The sum of the masks, batch entry by batch entry, is the second total. -/
theorem den_eq (V0 : Valuation τ sig (Elt Ideal)) :
    Host.reduceAdd (F := Ideal) (φ := .f32) (res_main_v284 (F := Ideal) V0)
        (constant S_ .f32 0x00000000#32) reducesTo_S16x32x256x256_S16_d1_2_3 h_S_
      = fun j : S16.Idx => den (cur4 (V0 (Proc.devRef .tc main_arg0))) (cur4 (V0 (Proc.devRef .tc main_arg1))) (j 0) := by
  funext j
  obtain ⟨b, rfl⟩ : ∃ b, j = ix1 b := ⟨j 0, eq_ix1 j⟩
  refine (Cert.Sums.host_sum3 _ b).trans ?_
  show _ = den _ _ b
  unfold den
  refine Finset.sum_congr rfl fun t _ => Finset.sum_congr rfl fun h _ => Finset.sum_congr rfl fun w _ => ?_
  exact congrFun (congrFun (congrFun (congrFun (Cert.RefValue.mask_eq V0) b) t) h) w

/-- The reference's result is the mean over the batch of the quotients of the two totals. -/
theorem ref_total (V0 : Valuation τ sig (Elt Ideal)) :
    (Host.divf (Host.reduceAdd (Host.divf (Host.reduceAdd (mulf (mulf (res_main_v282 (F := Ideal) V0) (res_main_v282 (F := Ideal) V0)) (res_main_v284 (F := Ideal) V0)) (constant S_ .f32 0x00000000#32) reducesTo_S16x32x256x256_S16_d1_2_3 h_S_) (Host.reduceAdd (res_main_v284 (F := Ideal) V0) (constant S_ .f32 0x00000000#32) reducesTo_S16x32x256x256_S16_d1_2_3 h_S_)) (constant S_ .f32 0x00000000#32) reducesTo_S16_S_d0 h_S_) (constant S_ .f32 0x41800000#32) : FVec Ideal S_ .f32)
      = total (cur4 (V0 (Proc.devRef .tc main_arg0))) (cur4 (V0 (Proc.devRef .tc main_arg1))) := by
  rw [num_eq V0, den_eq V0]
  rfl

end Cert.RefTotal

end
-- ==== Proof.lean ====
/-
  The kernel and the reference compute the same loss.

  Both programs take two fields p and K over (batch, time, row, column).  Per element they form the second-order
  finite-difference gradients of p and K along rows and columns, the divergence div(K ∇p) and its expanded form, the
  mask that is 1 where the two differ by less than 100, the residual div(K ∇p) − S·∂t p and its masked square; per
  batch entry they total the masked squares and the masks over time, rows and columns; the result is the mean over
  the batch of the quotients.  Element by element the two programs perform the same operations in the same order
  (Proof/Stencil.lean states them once), so nothing about finiteness is used: the only difference is the order in
  which the sums are taken — the kernel adds over time first, carrying two running tiles through its loop, then
  over columns and rows, where the reference adds over the three axes at once — and addition on the extended reals is
  commutative and associative.

  The kernel side: Proof/KRun.lean reads what one grid point leaves in its output blocks as named functions of the
  tiles it loads (Proof/KChain.lean), Proof/KSlice*.lean show those functions are the specification's fields,
  Proof/KPoint.lean sums them, Proof/KTail.lean carries the blocks to the final arrays and through the host
  operations after the region.  The reference side: Proof/RefValue.lean reads its arrays as the same fields and
  Proof/RefTotal.lean its sums.  The frames of the two kernel programs are the generated ones; the reference's is
  its generated run with the result dropped; nothing was rewritten by the idealization, so that claim is trivial.
-/
import proofs.«174142_j82669530514041_2_alg».proof.Defs
import proofs.«174142_j82669530514041_2_alg».proof.Proof.Gen.Kernel
import proofs.«174142_j82669530514041_2_alg».proof.Proof.Gen.Kernel.Frame
import proofs.«174142_j82669530514041_2_alg».proof.Proof.Gen.KernelIdeal
import proofs.«174142_j82669530514041_2_alg».proof.Proof.Gen.KernelIdeal.Frame
import proofs.«174142_j82669530514041_2_alg».proof.Proof.Gen.ReferenceIdeal
import proofs.«174142_j82669530514041_2_alg».proof.Proof.Gen.ReferenceIdeal.Run
import proofs.«174142_j82669530514041_2_alg».proof.Proof.Gen.Pre_finite_inputs
import proofs.«174142_j82669530514041_2_alg».proof.Proof.KPoint
import proofs.«174142_j82669530514041_2_alg».proof.Proof.KTail
import proofs.«174142_j82669530514041_2_alg».proof.Proof.RefTotal
import Idealize.ShloMosaic.Adequacy
import Idealize.ShloMosaic.Init

noncomputable section

namespace Cert.Proof

open Idealize.ShloMosaic Idealize.ShloMosaic.TcCoe Idealize.SL.Sem Cert.Stencil

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- From memories that agree on the two inputs, both programs end with the mean over the batch of total masked
    square over total mask. -/
theorem algebraic : Cert.algebraic_KernelIdeal_ReferenceIdeal := by
  intro m ρ m' ρ' _ hagree
  refine ⟨_, Cert.KTail.run_tail m ρ (fun c => num (Cert.KPoint.PF m c) (Cert.KPoint.KF m c))
      (fun c => den (Cert.KPoint.PF m c) (Cert.KPoint.KF m c))
      (fun c t y => Cert.KPoint.outs_num m c t y) (fun c t y => Cert.KPoint.outs_den m c t y), ?_⟩
  refine (θ_run Cert.ReferenceIdeal.defs _ _).mono (fun _ h c => ⟨(h c).1.trans ?_, (h c).2⟩)
    (Cert.ReferenceIdeal.Value.run (F := Ideal) m' ρ')
  rw [Cert.RefTotal.ref_total]
  unfold Cert.RefTotal.total Cert.KPoint.PF Cert.KPoint.KF
  rw [← (hagree c).1, ← (hagree c).2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
